-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x512 : Shape := ⟨2, ![1024, 512]⟩
abbrev S100000x128 : Shape := ⟨2, ![100000, 128]⟩
abbrev S512x128 : Shape := ⟨2, ![512, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S3x128 : S_.BroadcastsInDim S3x128 (![] : Fin 0 → Fin S3x128.rank)
  reducesTo_S3x128_S_d0_1 : S3x128.ReducesTo [0, 1] S_
  bcast_S_S1024x512 : S_.BroadcastsInDim S1024x512 (![] : Fin 0 → Fin S1024x512.rank)
  reducesTo_S1024x512_S_d0_1 : S1024x512.ReducesTo [0, 1] S_

variable [Facts]

def fn_part2 {F : FTy → Type} [FloatOps F] (main_v27 : IVec S_ 1) (main_v32 : IVec S1024x512 1) (main_c_12 : IVec S_ 1) : IVec S_ 1 :=
  let main_v33 : IVec S_ 1 := (fun x v => Host.reduce IntOp.andi x v reducesTo_S1024x512_S_d0_1 h_S_) main_v32 main_c_12
  let main_v34 : IVec S_ 1 := andi main_v27 main_v33
  main_v34

def fn_part1 {F : FTy → Type} [FloatOps F] (main_arg0 : IVec S1024x512 32) (main_arg1 : IVec S1024x512 32) (main_arg2 : IVec S1024x512 32) (main_v13 : IVec S_ 1) (main_v15 : IVec S1024x512 1) (main_c_5 : IVec S_ 32) : IVec S_ 1 :=
  let main_v16 : IVec S1024x512 32 := broadcastInDim S1024x512 ![] bcast_S_S1024x512 main_c_5
  let main_v17 : IVec S1024x512 1 := cmpi .sle main_arg0 main_v16
  let main_v18 : IVec S1024x512 1 := andi main_v15 main_v17
  let main_c_6 : IVec S_ 1 := constantI S_ 1 1#1
  let main_v19 : IVec S_ 1 := (fun x v => Host.reduce IntOp.andi x v reducesTo_S1024x512_S_d0_1 h_S_) main_v18 main_c_6
  let main_v20 : IVec S_ 1 := andi main_v13 main_v19
  let main_c_7 : IVec S_ 32 := constantI S_ 32 0#32
  let main_v21 : IVec S1024x512 32 := broadcastInDim S1024x512 ![] bcast_S_S1024x512 main_c_7
  let main_v22 : IVec S1024x512 1 := cmpi .sge main_arg1 main_v21
  let main_c_8 : IVec S_ 32 := constantI S_ 32 511#32
  let main_v23 : IVec S1024x512 32 := broadcastInDim S1024x512 ![] bcast_S_S1024x512 main_c_8
  let main_v24 : IVec S1024x512 1 := cmpi .sle main_arg1 main_v23
  let main_v25 : IVec S1024x512 1 := andi main_v22 main_v24
  let main_c_9 : IVec S_ 1 := constantI S_ 1 1#1
  let main_v26 : IVec S_ 1 := (fun x v => Host.reduce IntOp.andi x v reducesTo_S1024x512_S_d0_1 h_S_) main_v25 main_c_9
  let main_v27 : IVec S_ 1 := andi main_v20 main_v26
  let main_c_10 : IVec S_ 32 := constantI S_ 32 0#32
  let main_v28 : IVec S1024x512 32 := broadcastInDim S1024x512 ![] bcast_S_S1024x512 main_c_10
  let main_v29 : IVec S1024x512 1 := cmpi .sge main_arg2 main_v28
  let main_c_11 : IVec S_ 32 := constantI S_ 32 2#32
  let main_v30 : IVec S1024x512 32 := broadcastInDim S1024x512 ![] bcast_S_S1024x512 main_c_11
  let main_v31 : IVec S1024x512 1 := cmpi .sle main_arg2 main_v30
  let main_v32 : IVec S1024x512 1 := andi main_v29 main_v31
  let main_c_12 : IVec S_ 1 := constantI S_ 1 1#1
  fn_part2 (F := F) main_v27 main_v32 main_c_12

def fn {F : FTy → Type} [FloatOps F] (main_arg0 : IVec S1024x512 32) (main_arg1 : IVec S1024x512 32) (main_arg2 : IVec S1024x512 32) (main_arg3 : FVec F S100000x128 .f32) (main_arg4 : FVec F S512x128 .f32) (main_arg5 : FVec F S3x128 .f32) : IVec S_ 1 :=
  let main_v0 : FVec F S100000x128 .f32 := Host.absf main_arg3
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S512x128 .f32 := Host.absf main_arg4
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S3x128 .f32 := Host.absf main_arg5
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_c_4 : IVec S_ 32 := constantI S_ 32 0#32
  let main_v14 : IVec S1024x512 32 := broadcastInDim S1024x512 ![] bcast_S_S1024x512 main_c_4
  let main_v15 : IVec S1024x512 1 := cmpi .sge main_arg0 main_v14
  let main_c_5 : IVec S_ 32 := constantI S_ 32 99999#32
  fn_part1 (F := F) main_arg0 main_arg1 main_arg2 main_v13 main_v15 main_c_5
-- ==== Kernel.lean ====
abbrev S1024x512 : Shape := ⟨2, ![1024, 512]⟩
abbrev S100000x128 : Shape := ⟨2, ![100000, 128]⟩
abbrev S512x128 : Shape := ⟨2, ![512, 128]⟩
abbrev S3x128 : Shape := ⟨2, ![3, 128]⟩
abbrev S524288 : Shape := ⟨1, ![524288]⟩
abbrev S524288x128 : Shape := ⟨2, ![524288, 128]⟩
abbrev S128 : Shape := ⟨1, ![128]⟩
abbrev S128x128 : Shape := ⟨2, ![128, 128]⟩
abbrev S_ : Shape := ⟨0, ![]⟩
abbrev S1x16 : Shape := ⟨2, ![1, 16]⟩
abbrev S16 : Shape := ⟨1, ![16]⟩
abbrev S1024x512x128 : Shape := ⟨3, ![1024, 512, 128]⟩

abbrev nBuf : Table → Nat
  | .hbm => 11
  | .local .scVector .vmem => 6
  | _ => 0

abbrev bufTy : (tb : Table) → Fin (nBuf tb) → BufTy
  | .hbm, ⟨0, _⟩ => ⟨S1024x512, .i32⟩
  | .hbm, ⟨1, _⟩ => ⟨S1024x512, .i32⟩
  | .hbm, ⟨2, _⟩ => ⟨S1024x512, .i32⟩
  | .hbm, ⟨3, _⟩ => ⟨S100000x128, .f32⟩
  | .hbm, ⟨4, _⟩ => ⟨S512x128, .f32⟩
  | .hbm, ⟨5, _⟩ => ⟨S3x128, .f32⟩
  | .hbm, ⟨6, _⟩ => ⟨S524288, .i32⟩
  | .hbm, ⟨7, _⟩ => ⟨S524288, .i32⟩
  | .hbm, ⟨8, _⟩ => ⟨S524288, .i32⟩
  | .hbm, ⟨9, _⟩ => ⟨S524288x128, .f32⟩
  | .hbm, ⟨10, _⟩ => ⟨S1024x512x128, .f32⟩
  | .local .scVector .vmem, ⟨0, _⟩ => ⟨S128, .i32⟩
  | .local .scVector .vmem, ⟨1, _⟩ => ⟨S128, .i32⟩
  | .local .scVector .vmem, ⟨2, _⟩ => ⟨S128, .i32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S1024x512, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v0_scv : Ref sig .scVector := ⟨.hbm, 6, rfl⟩
abbrev main_v1_scv : Ref sig .scVector := ⟨.hbm, 7, rfl⟩
abbrev main_v2_scv : Ref sig .scVector := ⟨.hbm, 8, rfl⟩
abbrev main_arg3_scv : Ref sig .scVector := ⟨.hbm, 3, rfl⟩
abbrev main_arg4_scv : Ref sig .scVector := ⟨.hbm, 4, rfl⟩
abbrev main_arg5_scv : Ref sig .scVector := ⟨.hbm, 5, rfl⟩
abbrev main_v3_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  v2
@[reducible] def k0_t1_loop : Scf.Loop 32 :=
  let c0_i32_0 : BitVec 32 := 0#32
  let c128_i32 : BitVec 32 := 128#32
  let v4 : BitVec 32 := Scalar.addi c0_i32_0 c128_i32
  let c1_i32 : BitVec 32 := 1#32
  ⟨c0_i32_0, v4, c1_i32⟩
def k0_mult2 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let v3 : BitVec 32 := v2
  let c0_i32_0 : BitVec 32 := 0#32
  let c1_i32 : BitVec 32 := 1#32
  let arg18 : BitVec 32 := Scf.iv c0_i32_0 c1_i32 k0_t1
  let c128_i32_2 : BitVec 32 := 128#32
  let v6 : BitVec 32 := Scalar.muli arg18 c128_i32_2
  let v7 : BitVec 32 := Scalar.addi v3 v6
  v7
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let v3 : BitVec 32 := v2
  let c0_i32_0 : BitVec 32 := 0#32
  let c1_i32 : BitVec 32 := 1#32
  let arg18 : BitVec 32 := Scf.iv c0_i32_0 c1_i32 k0_t1
  let c128_i32_2 : BitVec 32 := 128#32
  let v6 : BitVec 32 := Scalar.muli arg18 c128_i32_2
  let v7 : BitVec 32 := Scalar.addi v3 v6
  let v8 : BitVec 32 := v7
  ![v8.toNat]
@[reducible] def k0_t2_loop : Scf.Loop 32 :=
  let c0_i32_16 : BitVec 32 := 0#32
  let c128_i32_17 : BitVec 32 := 128#32
  let v15 : BitVec 32 := Scalar.addi c0_i32_16 c128_i32_17
  let c1_i32_18 : BitVec 32 := 1#32
  ⟨c0_i32_16, v15, c1_i32_18⟩
def k0_off2 (k0_t2 : Fin k0_t2_loop.trips) : Fin 2 → Nat :=
  let c0_i32_16 : BitVec 32 := 0#32
  let c1_i32_18 : BitVec 32 := 1#32
  let arg20 : BitVec 32 := Scf.iv c0_i32_16 c1_i32_18 k0_t2
  let v17 : Index := Scalar.indexCast arg20
  let c0 : Index := 0#32
  ![v17.toNat, 0]
def k0_off3 (k0_t2 : Fin k0_t2_loop.trips) : Fin 2 → Nat :=
  let c0_i32_16 : BitVec 32 := 0#32
  let c1_i32_18 : BitVec 32 := 1#32
  let arg20 : BitVec 32 := Scf.iv c0_i32_16 c1_i32_18 k0_t2
  let v32 : Index := Scalar.indexCast arg20
  let c16 : Index := 16#32
  ![v32.toNat, 16]
def k0_off4 (k0_t2 : Fin k0_t2_loop.trips) : Fin 2 → Nat :=
  let c0_i32_16 : BitVec 32 := 0#32
  let c1_i32_18 : BitVec 32 := 1#32
  let arg20 : BitVec 32 := Scf.iv c0_i32_16 c1_i32_18 k0_t2
  let v47 : Index := Scalar.indexCast arg20
  let c32 : Index := 32#32
  ![v47.toNat, 32]
def k0_off5 (k0_t2 : Fin k0_t2_loop.trips) : Fin 2 → Nat :=
  let c0_i32_16 : BitVec 32 := 0#32
  let c1_i32_18 : BitVec 32 := 1#32
  let arg20 : BitVec 32 := Scf.iv c0_i32_16 c1_i32_18 k0_t2
  let v62 : Index := Scalar.indexCast arg20
  let c48 : Index := 48#32
  ![v62.toNat, 48]
def k0_off6 (k0_t2 : Fin k0_t2_loop.trips) : Fin 2 → Nat :=
  let c0_i32_16 : BitVec 32 := 0#32
  let c1_i32_18 : BitVec 32 := 1#32
  let arg20 : BitVec 32 := Scf.iv c0_i32_16 c1_i32_18 k0_t2
  let v77 : Index := Scalar.indexCast arg20
  let c64 : Index := 64#32
  ![v77.toNat, 64]
def k0_off7 (k0_t2 : Fin k0_t2_loop.trips) : Fin 2 → Nat :=
  let c0_i32_16 : BitVec 32 := 0#32
  let c1_i32_18 : BitVec 32 := 1#32
  let arg20 : BitVec 32 := Scf.iv c0_i32_16 c1_i32_18 k0_t2
  let v92 : Index := Scalar.indexCast arg20
  let c80 : Index := 80#32
  ![v92.toNat, 80]
def k0_off8 (k0_t2 : Fin k0_t2_loop.trips) : Fin 2 → Nat :=
  let c0_i32_16 : BitVec 32 := 0#32
  let c1_i32_18 : BitVec 32 := 1#32
  let arg20 : BitVec 32 := Scf.iv c0_i32_16 c1_i32_18 k0_t2
  let v107 : Index := Scalar.indexCast arg20
  let c96 : Index := 96#32
  ![v107.toNat, 96]
def k0_off9 (k0_t2 : Fin k0_t2_loop.trips) : Fin 2 → Nat :=
  let c0_i32_16 : BitVec 32 := 0#32
  let c1_i32_18 : BitVec 32 := 1#32
  let arg20 : BitVec 32 := Scf.iv c0_i32_16 c1_i32_18 k0_t2
  let v122 : Index := Scalar.indexCast arg20
  let c112 : Index := 112#32
  ![v122.toNat, 112]
def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  let v3 : BitVec 32 := v2
  let c0_i32_0 : BitVec 32 := 0#32
  let c1_i32 : BitVec 32 := 1#32
  let arg18 : BitVec 32 := Scf.iv c0_i32_0 c1_i32 k0_t1
  let c128_i32_2 : BitVec 32 := 128#32
  let v6 : BitVec 32 := Scalar.muli arg18 c128_i32_2
  let v7 : BitVec 32 := Scalar.addi v3 v6
  let v8 : BitVec 32 := v7
  let c0_i32_21_r3 : BitVec 32 := 0#32
  ![v8.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1024x512_S524288 : S1024x512.ShapeCasts S524288
  inb_S100000x128_S100000x128_0_0 : ∀ a, (![0, 0] : Fin 2 → Nat) a + S100000x128.size a ≤ S100000x128.size a
  gathers_S100000x128_S128x128 : S100000x128.Gathers 0 S128x128
  inb_S512x128_S512x128_0_0 : ∀ a, (![0, 0] : Fin 2 → Nat) a + S512x128.size a ≤ S512x128.size a
  gathers_S512x128_S128x128 : S512x128.Gathers 0 S128x128
  inb_S3x128_S3x128_0_0 : ∀ a, (![0, 0] : Fin 2 → Nat) a + S3x128.size a ≤ S3x128.size a
  gathers_S3x128_S128x128 : S3x128.Gathers 0 S128x128
  h_S1x16 : 0 < S1x16.numel
  shapeCasts_S1x16_S16 : S1x16.ShapeCasts S16
  shapeCasts_S16_S1x16 : S16.ShapeCasts S1x16
  shapeCasts_S524288x128_S1024x512x128 : S524288x128.ShapeCasts S1024x512x128
  hcc0_scratch6 : 0 + S_.numel ≤ 7
  hcc0_scratch7 : 1 + S_.numel ≤ 7
  hcc0_scratch8 : 2 + S_.numel ≤ 7
  hcc0_scoped0 : 3 + S_.numel ≤ 7
  hcc0_scoped1 : 4 + S_.numel ≤ 7
  hcc0_scoped2 : 5 + S_.numel ≤ 7
  hcc0_scoped3 : 6 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_mult1_dvd : ∀ i : grid0.Coords, 128 ∣ (k0_mult1 i).toNat
  k0_t1_ok : k0_t1_loop.OK
  k0_mult2_dvd : ∀ (i : grid0.Coords) (k0_t1 : Fin k0_t1_loop.trips), 128 ∣ (k0_mult2 i k0_t1).toNat
  k0_off1_inb : ∀ (i : grid0.Coords) (k0_t1 : Fin k0_t1_loop.trips), ∀ a, (k0_off1 i k0_t1) a + S128.size a ≤ S524288.size a
  k0_t2_ok : k0_t2_loop.OK
  k0_off2_inb : ∀ k0_t2 : Fin k0_t2_loop.trips, ∀ a, (k0_off2 k0_t2) a + S1x16.size a ≤ S128x128.size a
  k0_off3_inb : ∀ k0_t2 : Fin k0_t2_loop.trips, ∀ a, (k0_off3 k0_t2) a + S1x16.size a ≤ S128x128.size a
  k0_off4_inb : ∀ k0_t2 : Fin k0_t2_loop.trips, ∀ a, (k0_off4 k0_t2) a + S1x16.size a ≤ S128x128.size a
  k0_off5_inb : ∀ k0_t2 : Fin k0_t2_loop.trips, ∀ a, (k0_off5 k0_t2) a + S1x16.size a ≤ S128x128.size a
  k0_off6_inb : ∀ k0_t2 : Fin k0_t2_loop.trips, ∀ a, (k0_off6 k0_t2) a + S1x16.size a ≤ S128x128.size a
  k0_off7_inb : ∀ k0_t2 : Fin k0_t2_loop.trips, ∀ a, (k0_off7 k0_t2) a + S1x16.size a ≤ S128x128.size a
  k0_off8_inb : ∀ k0_t2 : Fin k0_t2_loop.trips, ∀ a, (k0_off8 k0_t2) a + S1x16.size a ≤ S128x128.size a
  k0_off9_inb : ∀ k0_t2 : Fin k0_t2_loop.trips, ∀ a, (k0_off9 k0_t2) a + S1x16.size a ≤ S128x128.size a
  k0_off10_inb : ∀ (i : grid0.Coords) (k0_t1 : Fin k0_t1_loop.trips), ∀ a, (k0_off10 i k0_t1) a + S128x128.size a ≤ S524288x128.size a

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scoped0 : DmaSems sig S_ := SemArray.consecutive 3 S_ hcc0_scoped0
abbrev cc0_scoped1 : DmaSems sig S_ := SemArray.consecutive 4 S_ hcc0_scoped1
abbrev cc0_scoped2 : DmaSems sig S_ := SemArray.consecutive 5 S_ hcc0_scoped2
abbrev cc0_scoped3 : DmaSems sig S_ := SemArray.consecutive 6 S_ hcc0_scoped3

class Facts : Prop extends Facts₀ where

variable [Facts]
-- ==== ReferenceIdeal.lean ====
abbrev S1024x512 : Shape := ⟨2, ![1024, 512]⟩
abbrev S100000x128 : Shape := ⟨2, ![100000, 128]⟩
abbrev S512x128 : Shape := ⟨2, ![512, 128]⟩
abbrev S3x128 : Shape := ⟨2, ![3, 128]⟩
abbrev S_ : Shape := ⟨0, ![]⟩
abbrev S1024x512x1 : Shape := ⟨3, ![1024, 512, 1]⟩
abbrev S1 : Shape := ⟨1, ![1]⟩
abbrev S1x1x1 : Shape := ⟨3, ![1, 1, 1]⟩
abbrev S1024x512x128 : Shape := ⟨3, ![1024, 512, 128]⟩

abbrev nBuf : Space → Nat
  | .hbm => 77
  | .vmem => 0
  | .smem => 0
  | _ => 0

abbrev bufTy : (tb : Table) → Fin (tcTables nBuf tb) → BufTy
  | .hbm, ⟨0, _⟩ => ⟨S1024x512, .i32⟩
  | .hbm, ⟨1, _⟩ => ⟨S1024x512, .i32⟩
  | .hbm, ⟨2, _⟩ => ⟨S1024x512, .i32⟩
  | .hbm, ⟨3, _⟩ => ⟨S100000x128, .f32⟩
  | .hbm, ⟨4, _⟩ => ⟨S512x128, .f32⟩
  | .hbm, ⟨5, _⟩ => ⟨S3x128, .f32⟩
  | .hbm, ⟨6, _⟩ => ⟨S_, .i32⟩
  | .hbm, ⟨7, _⟩ => ⟨S1024x512, .i32⟩
  | .hbm, ⟨8, _⟩ => ⟨S1024x512, .i1⟩
  | .hbm, ⟨9, _⟩ => ⟨S_, .i32⟩
  | .hbm, ⟨10, _⟩ => ⟨S1024x512, .i32⟩
  | .hbm, ⟨11, _⟩ => ⟨S1024x512, .i32⟩
  | .hbm, ⟨12, _⟩ => ⟨S1024x512, .i32⟩
  | .hbm, ⟨13, _⟩ => ⟨S1024x512x1, .i32⟩
  | .hbm, ⟨14, _⟩ => ⟨S1, .i32⟩
  | .hbm, ⟨15, _⟩ => ⟨S_, .i32⟩
  | .hbm, ⟨16, _⟩ => ⟨S1024x512x1, .i32⟩
  | .hbm, ⟨17, _⟩ => ⟨S1024x512x1, .i1⟩
  | .hbm, ⟨18, _⟩ => ⟨S1x1x1, .i32⟩
  | .hbm, ⟨19, _⟩ => ⟨S1024x512x1, .i32⟩
  | .hbm, ⟨20, _⟩ => ⟨S1024x512x1, .i1⟩
  | .hbm, ⟨21, _⟩ => ⟨S1024x512x1, .i1⟩
  | .hbm, ⟨22, _⟩ => ⟨S_, .i1⟩
  | .hbm, ⟨23, _⟩ => ⟨S1024x512, .i1⟩
  | .hbm, ⟨24, _⟩ => ⟨S1024x512x128, .f32⟩
  | .hbm, ⟨25, _⟩ => ⟨S1024x512x128, .i1⟩
  | .hbm, ⟨26, _⟩ => ⟨S_, .f32⟩
  | .hbm, ⟨27, _⟩ => ⟨S1024x512x128, .f32⟩
  | .hbm, ⟨28, _⟩ => ⟨S1024x512x128, .f32⟩
  | .hbm, ⟨29, _⟩ => ⟨S_, .i32⟩
  | .hbm, ⟨30, _⟩ => ⟨S1024x512, .i32⟩
  | .hbm, ⟨31, _⟩ => ⟨S1024x512, .i1⟩
  | .hbm, ⟨32, _⟩ => ⟨S_, .i32⟩
  | .hbm, ⟨33, _⟩ => ⟨S1024x512, .i32⟩
  | .hbm, ⟨34, _⟩ => ⟨S1024x512, .i32⟩
  | .hbm, ⟨35, _⟩ => ⟨S1024x512, .i32⟩
  | .hbm, ⟨36, _⟩ => ⟨S1024x512x1, .i32⟩
  | .hbm, ⟨37, _⟩ => ⟨S1, .i32⟩
  | .hbm, ⟨38, _⟩ => ⟨S_, .i32⟩
  | .hbm, ⟨39, _⟩ => ⟨S1024x512x1, .i32⟩
  | .hbm, ⟨40, _⟩ => ⟨S1024x512x1, .i1⟩
  | .hbm, ⟨41, _⟩ => ⟨S1x1x1, .i32⟩
  | .hbm, ⟨42, _⟩ => ⟨S1024x512x1, .i32⟩
  | .hbm, ⟨43, _⟩ => ⟨S1024x512x1, .i1⟩
  | .hbm, ⟨44, _⟩ => ⟨S1024x512x1, .i1⟩
  | .hbm, ⟨45, _⟩ => ⟨S_, .i1⟩
  | .hbm, ⟨46, _⟩ => ⟨S1024x512, .i1⟩
  | .hbm, ⟨47, _⟩ => ⟨S1024x512x128, .f32⟩
  | .hbm, ⟨48, _⟩ => ⟨S1024x512x128, .i1⟩
  | .hbm, ⟨49, _⟩ => ⟨S_, .f32⟩
  | .hbm, ⟨50, _⟩ => ⟨S1024x512x128, .f32⟩
  | .hbm, ⟨51, _⟩ => ⟨S1024x512x128, .f32⟩
  | .hbm, ⟨52, _⟩ => ⟨S_, .i32⟩
  | .hbm, ⟨53, _⟩ => ⟨S1024x512, .i32⟩
  | .hbm, ⟨54, _⟩ => ⟨S1024x512, .i1⟩
  | .hbm, ⟨55, _⟩ => ⟨S_, .i32⟩
  | .hbm, ⟨56, _⟩ => ⟨S1024x512, .i32⟩
  | .hbm, ⟨57, _⟩ => ⟨S1024x512, .i32⟩
  | .hbm, ⟨58, _⟩ => ⟨S1024x512, .i32⟩
  | .hbm, ⟨59, _⟩ => ⟨S1024x512x1, .i32⟩
  | .hbm, ⟨60, _⟩ => ⟨S1, .i32⟩
  | .hbm, ⟨61, _⟩ => ⟨S_, .i32⟩
  | .hbm, ⟨62, _⟩ => ⟨S1024x512x1, .i32⟩
  | .hbm, ⟨63, _⟩ => ⟨S1024x512x1, .i1⟩
  | .hbm, ⟨64, _⟩ => ⟨S1x1x1, .i32⟩
  | .hbm, ⟨65, _⟩ => ⟨S1024x512x1, .i32⟩
  | .hbm, ⟨66, _⟩ => ⟨S1024x512x1, .i1⟩
  | .hbm, ⟨67, _⟩ => ⟨S1024x512x1, .i1⟩
  | .hbm, ⟨68, _⟩ => ⟨S_, .i1⟩
  | .hbm, ⟨69, _⟩ => ⟨S1024x512, .i1⟩
  | .hbm, ⟨70, _⟩ => ⟨S1024x512x128, .f32⟩
  | .hbm, ⟨71, _⟩ => ⟨S1024x512x128, .i1⟩
  | .hbm, ⟨72, _⟩ => ⟨S_, .f32⟩
  | .hbm, ⟨73, _⟩ => ⟨S1024x512x128, .f32⟩
  | .hbm, ⟨74, _⟩ => ⟨S1024x512x128, .f32⟩
  | .hbm, ⟨75, _⟩ => ⟨S1024x512x128, .f32⟩
  | .hbm, ⟨76, _⟩ => ⟨S1024x512x128, .f32⟩
  | _, _ => ⟨S1024x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_call2_cst : Ref sig .tc := ⟨.hbm, 72, rfl⟩
abbrev main_call2_v15 : Ref sig .tc := ⟨.hbm, 73, rfl⟩
abbrev main_v2 : Ref sig .tc := ⟨.hbm, 74, rfl⟩
abbrev main_v3 : Ref sig .tc := ⟨.hbm, 75, rfl⟩
abbrev main_v4 : Ref sig .tc := ⟨.hbm, 76, rfl⟩

abbrev nD : Nat := 1
abbrev τ : Topo := Topo.v7x

variable {F : FTy → Type} [FloatOps F]

class Facts₀ : Prop where
  bcast_S_S1024x512 : S_.BroadcastsInDim S1024x512 (![] : Fin 0 → Fin S1024x512.rank)
  bcast_S1024x512_S1024x512x1_0_1 : S1024x512.BroadcastsInDim S1024x512x1 (![0, 1] : Fin 2 → Fin S1024x512x1.rank)
  bcast_S_S1024x512x1 : S_.BroadcastsInDim S1024x512x1 (![] : Fin 0 → Fin S1024x512x1.rank)
  bcast_S1_S1x1x1_2 : S1.BroadcastsInDim S1x1x1 (![2] : Fin 1 → Fin S1x1x1.rank)
  bcast_S1x1x1_S1024x512x1_0_1_2 : S1x1x1.BroadcastsInDim S1024x512x1 (![0, 1, 2] : Fin 3 → Fin S1024x512x1.rank)
  reducesTo_S1024x512x1_S1024x512_d2 : S1024x512x1.ReducesTo [2] S1024x512
  h_S_ : 0 < S_.numel
  bcast_S1024x512_S1024x512x128_0_1 : S1024x512.BroadcastsInDim S1024x512x128 (![0, 1] : Fin 2 → Fin S1024x512x128.rank)
  bcast_S_S1024x512x128 : S_.BroadcastsInDim S1024x512x128 (![] : Fin 0 → Fin S1024x512x128.rank)
  gather_S100000x128_S1024x512x1_S1024x512x128_2_0_n_n_0_2_1128_wf : GatherDims.WF S100000x128 S1024x512x1 S1024x512x128 [2] [0] [] [0] [] 2 ![1, 128]
  gather_S512x128_S1024x512x1_S1024x512x128_2_0_n_n_0_2_1128_wf : GatherDims.WF S512x128 S1024x512x1 S1024x512x128 [2] [0] [] [0] [] 2 ![1, 128]
  gather_S3x128_S1024x512x1_S1024x512x128_2_0_n_n_0_2_1128_wf : GatherDims.WF S3x128 S1024x512x1 S1024x512x128 [2] [0] [] [0] [] 2 ![1, 128]

variable [Facts₀]

def gather_S100000x128_S1024x512x1_S1024x512x128_2_0_n_n_0_2_1128 : GatherDims S100000x128 S1024x512x1 S1024x512x128 where
  offsetDims := [2]
  collapsedSliceDims := [0]
  operandBatchingDims := []
  startIndicesBatchingDims := []
  startIndexMap := [0]
  indexVectorDim := 2
  sliceSizes := ![1, 128]
  wf := gather_S100000x128_S1024x512x1_S1024x512x128_2_0_n_n_0_2_1128_wf
def gather_S512x128_S1024x512x1_S1024x512x128_2_0_n_n_0_2_1128 : GatherDims S512x128 S1024x512x1 S1024x512x128 where
  offsetDims := [2]
  collapsedSliceDims := [0]
  operandBatchingDims := []
  startIndicesBatchingDims := []
  startIndexMap := [0]
  indexVectorDim := 2
  sliceSizes := ![1, 128]
  wf := gather_S512x128_S1024x512x1_S1024x512x128_2_0_n_n_0_2_1128_wf
def gather_S3x128_S1024x512x1_S1024x512x128_2_0_n_n_0_2_1128 : GatherDims S3x128 S1024x512x1 S1024x512x128 where
  offsetDims := [2]
  collapsedSliceDims := [0]
  operandBatchingDims := []
  startIndicesBatchingDims := []
  startIndexMap := [0]
  indexVectorDim := 2
  sliceSizes := ![1, 128]
  wf := gather_S3x128_S1024x512x1_S1024x512x128_2_0_n_n_0_2_1128_wf

class Facts : Prop extends Facts₀ where

variable [Facts]
-- ==== Proof.Spec.lean ====
/-
  The specification both programs are compared with: the sum of three embedding rows.
  For labels seq, pos, seg : [1024, 512] and tables tok : [100000, 128], ptab : [512, 128], stab : [3, 128],
      G[b, t, l] = (tok[seq[b, t], l] + ptab[pos[b, t], l]) + stab[seg[b, t], l],
  the additions in that order. A label is read as an unsigned word; `rowAt` sends a word that names no row to row 0,
  which never happens for labels in range (`InRange`). `Gflat` is the same function over the flattened token axis
  [524288] (token `512 * b + t`), and `G_eq_flat` says that reshaping the labels to [524288], summing rows there and
  reshaping the result back to [1024, 512, 128] is `G`.
-/
import Idealize.ShloMosaic.PureOps
import Idealize.ShloMosaic.Lib.ValueIdx

noncomputable section

namespace Cert.Embed

open Idealize.ShloMosaic Idealize.ShloMosaic.ValueIdx

abbrev SLab : Shape := ⟨2, ![1024, 512]⟩
abbrev STok : Shape := ⟨2, ![100000, 128]⟩
abbrev SPos : Shape := ⟨2, ![512, 128]⟩
abbrev SSeg : Shape := ⟨2, ![3, 128]⟩
abbrev SOut : Shape := ⟨3, ![1024, 512, 128]⟩
abbrev SFlat : Shape := ⟨1, ![524288]⟩
abbrev SFlatOut : Shape := ⟨2, ![524288, 128]⟩

/-- Every label names a row of its table. -/
def InRange (seq pos seg : IVec SLab 32) : Prop :=
  (∀ i, (seq i).toNat < 100000) ∧ (∀ i, (pos i).toNat < 512) ∧ (∀ i, (seg i).toNat < 3)

/-- The row a label's word names in a table of `n` rows (row 0 for a word that names none). -/
def rowAt (n : Nat) (hn : 0 < n) (w : BitVec 32) : Fin n := if h : w.toNat < n then ⟨w.toNat, h⟩ else ⟨0, hn⟩

theorem rowAt_val {n : Nat} (hn : 0 < n) (w : BitVec 32) (h : w.toNat < n) : (rowAt n hn w).val = w.toNat := by
  unfold rowAt; rw [dif_pos h]

variable {F : FTy → Type} [FloatOps F]

/-- One entry of the sum of the three rows the words `ws`, `wp`, `wg` name, at lane `l`. -/
def entry (tok : FVec F STok .f32) (ptab : FVec F SPos .f32) (stab : FVec F SSeg .f32) (ws wp wg : BitVec 32) (l : Fin 128) : F .f32 :=
  FloatOps.addf (FloatOps.addf (tok (ix2 (rowAt 100000 (by decide) ws) l)) (ptab (ix2 (rowAt 512 (by decide) wp) l)))
    (stab (ix2 (rowAt 3 (by decide) wg) l))

/-- The embedding sum over [1024, 512, 128]. -/
def G (seq pos seg : IVec SLab 32) (tok : FVec F STok .f32) (ptab : FVec F SPos .f32) (stab : FVec F SSeg .f32) : FVec F SOut .f32 :=
  fun j => entry tok ptab stab (seq (ix2 (j 0) (j 1))) (pos (ix2 (j 0) (j 1))) (seg (ix2 (j 0) (j 1))) (j 2)

/-- The same over the flattened token axis. -/
def Gflat (seq pos seg : IVec SFlat 32) (tok : FVec F STok .f32) (ptab : FVec F SPos .f32) (stab : FVec F SSeg .f32) : FVec F SFlatOut .f32 :=
  fun j => entry tok ptab stab (seq (ix1 (j 0))) (pos (ix1 (j 0))) (seg (ix1 (j 0))) (j 1)

end Cert.Embed

end
-- ==== Proof.Common.lean ====
/-
  The kernel, read at any float instance F, as the SparseCore launch theorem sees it, and what its handshakes carry.

  The program flattens the three label arrays to [524288], runs one vector-subcore kernel on 2 SparseCores x 16
  tiles, and reshapes the [524288, 128] result to [1024, 512, 128]. Tile (c, s) owns the 16384 consecutive token
  rows starting at 32768 * s + 16384 * c (`tileRows`), SparseCore c the union of its tiles' rows (`coreRows`);
  the sets are pairwise disjoint and cover the result. Every tile READS the flattened labels and the three tables
  whole, so each of those six arrays goes out as read shares: one share per SparseCore, split again into one per
  tile. A tile hands back its rows of the result at the sum of the three looked-up rows (`OUT`, the function
  `Cert.Embed.Gflat` of the flattened labels and the tables).
-/
import proofs.«203542_g13958643712200_cont_week2b_591_2_alg».proof.Defs
import proofs.«203542_g13958643712200_cont_week2b_591_2_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«203542_g13958643712200_cont_week2b_591_2_alg».proof.Proof.Gen.KernelIdeal
import proofs.«203542_g13958643712200_cont_week2b_591_2_alg».proof.Proof.Gen.KernelIdeal.Skeleton

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The labels as given ([1024, 512]), flattened ([524288]), the three tables, the kernel's result ([524288, 128]) and
    the program's ([1024, 512, 128]), as locations of device `d`. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev tkLoc (d : Dev nD) : Loc nD τ sig := (SparseCore.T d).loc main_arg3
abbrev psLoc (d : Dev nD) : Loc nD τ sig := (SparseCore.T d).loc main_arg4
abbrev sgLoc (d : Dev nD) : Loc nD τ sig := (SparseCore.T d).loc main_arg5
abbrev f0Loc (d : Dev nD) : Loc nD τ sig := (SparseCore.T d).loc main_v0
abbrev f1Loc (d : Dev nD) : Loc nD τ sig := (SparseCore.T d).loc main_v1
abbrev f2Loc (d : Dev nD) : Loc nD τ sig := (SparseCore.T d).loc main_v2
abbrev oLoc (d : Dev nD) : Loc nD τ sig := (SparseCore.T d).loc main_v3
abbrev rLoc (d : Dev nD) : Loc nD τ sig := (SparseCore.T d).loc main_v4

/-- The flattened labels: what the three reshapes before the call leave in `main_v0`, `main_v1`, `main_v2`. -/
def X0 (d : Dev nD) : Buf (Elt F) (f0Loc d) := shapeCast S524288 (m (a0Loc d)) Gen.shapeCasts_S1024x512_S524288
def X1 (d : Dev nD) : Buf (Elt F) (f1Loc d) := shapeCast S524288 (m (a1Loc d)) Gen.shapeCasts_S1024x512_S524288
def X2 (d : Dev nD) : Buf (Elt F) (f2Loc d) := shapeCast S524288 (m (a2Loc d)) Gen.shapeCasts_S1024x512_S524288

variable [FloatOps F]

/-- What the kernel leaves in its result array: the sum of the three looked-up rows, token by token. -/
def OUT (d : Dev nD) : Buf (Elt F) (oLoc d) :=
  Cert.Embed.Gflat (F := F) (X0 m d) (X1 m d) (X2 m d) (m (tkLoc d)) (m (psLoc d)) (m (sgLoc d))

/-! ## Who owns which rows of the result -/

/-- The first token row of tile `(c, s)`. -/
def tileBase (c : Fin 2) (s : Fin 16) : ℕ := 32768 * s.val + 16384 * c.val
/-- Tile `(c, s)`'s elements of the result on device `d`: its 16384 token rows, all lanes. -/
def tileRows (d : Dev nD) (c : Fin 2) (s : Fin 16) : Finset (Idx (oLoc d)) :=
  Finset.univ.filter fun j : S524288x128.Idx => tileBase c s ≤ (j 0).val ∧ (j 0).val < tileBase c s + 16384
/-- SparseCore `c`'s elements: its sixteen tiles'. -/
def coreRows (d : Dev nD) (c : Fin 2) : Finset (Idx (oLoc d)) := (Finset.univ : Finset (Fin 16)).biUnion (tileRows d c)

/-! ## Read shares -/

/-- SparseCore `c`'s read share of an array the TensorCore holds whole, and tile `(c, s)`'s of that. -/
abbrev shC (c : Fin 2) : PosShare TreeShare := Transfers.shareTok fullShare 2 c
abbrev shT (c : Fin 2) (s : Fin 16) : PosShare TreeShare := Transfers.shareTok (shC c) 16 s

/-- The six arrays every tile reads, at share `q`: the flattened labels and the tables. -/
def ins (d : Dev nD) (q : PosShare TreeShare) : sProp 𝕄 :=
  iprop((f0Loc d ↦{q} X0 m d) ∗ (f1Loc d ↦{q} X1 m d) ∗ (f2Loc d ↦{q} X2 m d)
    ∗ (tkLoc d ↦{q} m (tkLoc d)) ∗ (psLoc d ↦{q} m (psLoc d)) ∗ (sgLoc d ↦{q} m (sgLoc d)))

/-- What the call hands SparseCore `c` and what comes back; what the sequencer hands tile `(c, s)` and what comes back. -/
def stC (d : Dev nD) (c : Fin 2) : sProp 𝕄 := iprop(ins m d (shC c) ∗ (oLoc d ↦[coreRows d c]{fullShare} m (oLoc d)))
def dnC (d : Dev nD) (c : Fin 2) : sProp 𝕄 := iprop(ins m d (shC c) ∗ (oLoc d ↦[coreRows d c]{fullShare} OUT m d))
def goT (d : Dev nD) (c : Fin 2) (s : Fin 16) : sProp 𝕄 := iprop(ins m d (shT c s) ∗ (oLoc d ↦[tileRows d c s]{fullShare} m (oLoc d)))
def tdT (d : Dev nD) (c : Fin 2) (s : Fin 16) : sProp 𝕄 := iprop(ins m d (shT c s) ∗ (oLoc d ↦[tileRows d c s]{fullShare} OUT m d))

def P : (K (F := F)).Pay (nD := nD) (Val := Elt F) (Name := ℕ) (U := UU) where
  st := fun q d c => match q with | 0 => stC m d (Fin.cast nCore_zero c)
  dn := fun q d c => match q with | 0 => dnC m d (Fin.cast nCore_zero c)
  go := fun q d c i => match q with | 0 => goT m d (Fin.cast nCore_zero c) (Fin.cast nSub_zero i)
  td := fun q d c i => match q with | 0 => tdT m d (Fin.cast nCore_zero c) (Fin.cast nSub_zero i)
  x := fun _ _ => iprop(emp)

instance P_storable : (P (F := F) m).IsStorable where
  st q d c := match q with | 0 => by unfold P stC ins; dsimp only; infer_instance
  dn q d c := match q with | 0 => by unfold P dnC ins; dsimp only; infer_instance
  go q d c i := match q with | 0 => by unfold P goT ins; dsimp only; infer_instance
  td q d c i := match q with | 0 => by unfold P tdT ins; dsimp only; infer_instance

end Cert.Proof.KernelIdealRun

end
-- ==== Proof.TileDefs.lean ====
/-
  One tile's task: the thread that runs it, its seven DMA semaphores as cells, the slices of the arrays it
  addresses, and its own scoped storage split into the buffers and cells the task names and the rest.

  Tile `(c, s)` of the grid (`L 0 = c`, `L 1 = s`) runs on vector subcore `s` of SparseCore `c`. Per chunk `k` it
  addresses the 128 flattened labels `[base + 128 k, base + 128 k + 128)` of each label array (`lab0`, `lab1`,
  `lab2`), the three tables whole (`tkAll`, `psAll`, `sgAll`: a gather's source), and the same 128 token rows of the
  result (`outChunk`), where `base = 32768 s + 16384 c`.
-/
import proofs.«203542_g13958643712200_cont_week2b_591_2_alg».proof.Proof.Common

noncomputable section

namespace Cert.Proof.KernelIdealRun

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "f0V" => (Memref.whole Cert.KernelIdeal.main_v0_scv : Memref Cert.KernelIdeal.sig Kind.scVector Space.hbm Cert.KernelIdeal.S524288 EltTy.i32)
local notation "f1V" => (Memref.whole Cert.KernelIdeal.main_v1_scv : Memref Cert.KernelIdeal.sig Kind.scVector Space.hbm Cert.KernelIdeal.S524288 EltTy.i32)
local notation "f2V" => (Memref.whole Cert.KernelIdeal.main_v2_scv : Memref Cert.KernelIdeal.sig Kind.scVector Space.hbm Cert.KernelIdeal.S524288 EltTy.i32)
local notation "tkV" => (Memref.whole Cert.KernelIdeal.main_arg3_scv : Memref Cert.KernelIdeal.sig Kind.scVector Space.hbm Cert.KernelIdeal.S100000x128 EltTy.f32)
local notation "psV" => (Memref.whole Cert.KernelIdeal.main_arg4_scv : Memref Cert.KernelIdeal.sig Kind.scVector Space.hbm Cert.KernelIdeal.S512x128 EltTy.f32)
local notation "sgV" => (Memref.whole Cert.KernelIdeal.main_arg5_scv : Memref Cert.KernelIdeal.sig Kind.scVector Space.hbm Cert.KernelIdeal.S3x128 EltTy.f32)
local notation "oV" => (Memref.whole Cert.KernelIdeal.main_v3_scv : Memref Cert.KernelIdeal.sig Kind.scVector Space.hbm Cert.KernelIdeal.S524288x128 EltTy.f32)
local notation "i0V" => (Memref.whole Cert.KernelIdeal.cc0_scratch0 : Memref Cert.KernelIdeal.sig Kind.scVector Space.vmem Cert.KernelIdeal.S128 EltTy.i32)
local notation "i1V" => (Memref.whole Cert.KernelIdeal.cc0_scratch1 : Memref Cert.KernelIdeal.sig Kind.scVector Space.vmem Cert.KernelIdeal.S128 EltTy.i32)
local notation "i2V" => (Memref.whole Cert.KernelIdeal.cc0_scratch2 : Memref Cert.KernelIdeal.sig Kind.scVector Space.vmem Cert.KernelIdeal.S128 EltTy.i32)
local notation "b0V" => (Memref.whole Cert.KernelIdeal.cc0_scratch3 : Memref Cert.KernelIdeal.sig Kind.scVector Space.vmem Cert.KernelIdeal.S128x128 EltTy.f32)
local notation "b1V" => (Memref.whole Cert.KernelIdeal.cc0_scratch4 : Memref Cert.KernelIdeal.sig Kind.scVector Space.vmem Cert.KernelIdeal.S128x128 EltTy.f32)
local notation "b2V" => (Memref.whole Cert.KernelIdeal.cc0_scratch5 : Memref Cert.KernelIdeal.sig Kind.scVector Space.vmem Cert.KernelIdeal.S128x128 EltTy.f32)

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)
/-- The thread of tile `L` on device `d`. -/
abbrev thr (d : Dev nD) (L : grid0.Coords) : Thread nD τ := V d (cV L) (jV L)

/-- A tile's DMA semaphore as a cell. -/
abbrev cell (d : Dev nD) (L : grid0.Coords) (x : DmaSems sig S_) : GSem nD τ sig := (thr d L, .dma x.sem)

/-- The tables as the kernel slices them for a gather (whole). -/
abbrev tkAll : Memref sig .scVector .hbm S100000x128 .f32 := (tkV).slice (Rect.unit (s := S100000x128) ![0, 0] S100000x128.size inb_S100000x128_S100000x128_0_0) (fun _ => rfl)
abbrev psAll : Memref sig .scVector .hbm S512x128 .f32 := (psV).slice (Rect.unit (s := S512x128) ![0, 0] S512x128.size inb_S512x128_S512x128_0_0) (fun _ => rfl)
abbrev sgAll : Memref sig .scVector .hbm S3x128 .f32 := (sgV).slice (Rect.unit (s := S3x128) ![0, 0] S3x128.size inb_S3x128_S3x128_0_0) (fun _ => rfl)
/-- Chunk `k`'s 128 flattened labels of an array, as the kernel slices them. -/
abbrev lab0 (L : grid0.Coords) (k : Fin k0_t1_loop.trips) : Memref sig .scVector .hbm S128 .i32 := (f0V).slice (Rect.unit (s := S524288) (k0_off1 L k) S128.size (k0_off1_inb L k)) (fun _ => rfl)
abbrev lab1 (L : grid0.Coords) (k : Fin k0_t1_loop.trips) : Memref sig .scVector .hbm S128 .i32 := (f1V).slice (Rect.unit (s := S524288) (k0_off1 L k) S128.size (k0_off1_inb L k)) (fun _ => rfl)
abbrev lab2 (L : grid0.Coords) (k : Fin k0_t1_loop.trips) : Memref sig .scVector .hbm S128 .i32 := (f2V).slice (Rect.unit (s := S524288) (k0_off1 L k) S128.size (k0_off1_inb L k)) (fun _ => rfl)

/-- Chunk `k`'s 128 token rows of the result, as the kernel slices them. -/
abbrev outChunk (L : grid0.Coords) (k : Fin k0_t1_loop.trips) : Memref sig .scVector .hbm S128x128 .f32 :=
  (oV).slice (Rect.unit (s := S524288x128) (k0_off10 L k) S128x128.size (k0_off10_inb L k)) (fun _ => rfl)

theorem cell_ne {x y : DmaSems sig S_} (h : (x.sem : DmaSem sig) ≠ y.sem) : cell d L x ≠ cell d L y :=
  fun e => h (SemLoc.dma.inj (Prod.mk.inj e).2)

/-- The tile's seven DMA semaphores are among its own scoped cells: they at zero, and the rest. -/
theorem ownSems0_V :
    (ownSems0 (thr d L) : sProp 𝕄)
      = iprop(semVal (cell d L cc0_scratch6) 0 ∗ semVal (cell d L cc0_scratch7) 0 ∗ semVal (cell d L cc0_scratch8) 0 ∗ semVal (cell d L cc0_scoped0) 0 ∗ semVal (cell d L cc0_scoped1) 0 ∗ semVal (cell d L cc0_scoped2) 0 ∗ semVal (cell d L cc0_scoped3) 0
          ∗ bigSep ((((((((ownCells (thr d L)).erase (cell d L cc0_scratch6)).erase (cell d L cc0_scratch7)).erase (cell d L cc0_scratch8)).erase (cell d L cc0_scoped0)).erase (cell d L cc0_scoped1)).erase (cell d L cc0_scoped2)).erase (cell d L cc0_scoped3)) fun g => semVal g 0) := by
  unfold SparseCore.Cfg.ownSems0
  rw [SparseCore.bigSep_erase' ((mem_ownCells (g := cell d L cc0_scratch6)).mpr ⟨rfl, by show (SemLoc.dma cc0_scratch6.sem : SemLoc sig).isScoped .scVector = true; decide⟩),
    SparseCore.bigSep_erase' (Finset.mem_erase.mpr ⟨cell_ne d L (show (cc0_scratch7.sem : DmaSem sig) ≠ cc0_scratch6.sem by decide), (mem_ownCells (g := cell d L cc0_scratch7)).mpr ⟨rfl, by show (SemLoc.dma cc0_scratch7.sem : SemLoc sig).isScoped .scVector = true; decide⟩⟩),
    SparseCore.bigSep_erase' (Finset.mem_erase.mpr ⟨cell_ne d L (show (cc0_scratch8.sem : DmaSem sig) ≠ cc0_scratch7.sem by decide), Finset.mem_erase.mpr ⟨cell_ne d L (show (cc0_scratch8.sem : DmaSem sig) ≠ cc0_scratch6.sem by decide), (mem_ownCells (g := cell d L cc0_scratch8)).mpr ⟨rfl, by show (SemLoc.dma cc0_scratch8.sem : SemLoc sig).isScoped .scVector = true; decide⟩⟩⟩),
    SparseCore.bigSep_erase' (Finset.mem_erase.mpr ⟨cell_ne d L (show (cc0_scoped0.sem : DmaSem sig) ≠ cc0_scratch8.sem by decide), Finset.mem_erase.mpr ⟨cell_ne d L (show (cc0_scoped0.sem : DmaSem sig) ≠ cc0_scratch7.sem by decide), Finset.mem_erase.mpr ⟨cell_ne d L (show (cc0_scoped0.sem : DmaSem sig) ≠ cc0_scratch6.sem by decide), (mem_ownCells (g := cell d L cc0_scoped0)).mpr ⟨rfl, by show (SemLoc.dma cc0_scoped0.sem : SemLoc sig).isScoped .scVector = true; decide⟩⟩⟩⟩),
    SparseCore.bigSep_erase' (Finset.mem_erase.mpr ⟨cell_ne d L (show (cc0_scoped1.sem : DmaSem sig) ≠ cc0_scoped0.sem by decide), Finset.mem_erase.mpr ⟨cell_ne d L (show (cc0_scoped1.sem : DmaSem sig) ≠ cc0_scratch8.sem by decide), Finset.mem_erase.mpr ⟨cell_ne d L (show (cc0_scoped1.sem : DmaSem sig) ≠ cc0_scratch7.sem by decide), Finset.mem_erase.mpr ⟨cell_ne d L (show (cc0_scoped1.sem : DmaSem sig) ≠ cc0_scratch6.sem by decide), (mem_ownCells (g := cell d L cc0_scoped1)).mpr ⟨rfl, by show (SemLoc.dma cc0_scoped1.sem : SemLoc sig).isScoped .scVector = true; decide⟩⟩⟩⟩⟩),
    SparseCore.bigSep_erase' (Finset.mem_erase.mpr ⟨cell_ne d L (show (cc0_scoped2.sem : DmaSem sig) ≠ cc0_scoped1.sem by decide), Finset.mem_erase.mpr ⟨cell_ne d L (show (cc0_scoped2.sem : DmaSem sig) ≠ cc0_scoped0.sem by decide), Finset.mem_erase.mpr ⟨cell_ne d L (show (cc0_scoped2.sem : DmaSem sig) ≠ cc0_scratch8.sem by decide), Finset.mem_erase.mpr ⟨cell_ne d L (show (cc0_scoped2.sem : DmaSem sig) ≠ cc0_scratch7.sem by decide), Finset.mem_erase.mpr ⟨cell_ne d L (show (cc0_scoped2.sem : DmaSem sig) ≠ cc0_scratch6.sem by decide), (mem_ownCells (g := cell d L cc0_scoped2)).mpr ⟨rfl, by show (SemLoc.dma cc0_scoped2.sem : SemLoc sig).isScoped .scVector = true; decide⟩⟩⟩⟩⟩⟩),
    SparseCore.bigSep_erase' (Finset.mem_erase.mpr ⟨cell_ne d L (show (cc0_scoped3.sem : DmaSem sig) ≠ cc0_scoped2.sem by decide), Finset.mem_erase.mpr ⟨cell_ne d L (show (cc0_scoped3.sem : DmaSem sig) ≠ cc0_scoped1.sem by decide), Finset.mem_erase.mpr ⟨cell_ne d L (show (cc0_scoped3.sem : DmaSem sig) ≠ cc0_scoped0.sem by decide), Finset.mem_erase.mpr ⟨cell_ne d L (show (cc0_scoped3.sem : DmaSem sig) ≠ cc0_scratch8.sem by decide), Finset.mem_erase.mpr ⟨cell_ne d L (show (cc0_scoped3.sem : DmaSem sig) ≠ cc0_scratch7.sem by decide), Finset.mem_erase.mpr ⟨cell_ne d L (show (cc0_scoped3.sem : DmaSem sig) ≠ cc0_scratch6.sem by decide), (mem_ownCells (g := cell d L cc0_scoped3)).mpr ⟨rfl, by show (SemLoc.dma cc0_scoped3.sem : SemLoc sig).isScoped .scVector = true; decide⟩⟩⟩⟩⟩⟩⟩)]

/-- The tile's six scratch buffers are among its own: they at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩)]

end Cert.Proof.KernelIdealRun

end
-- ==== Proof.RowTrip.lean ====
/-
  One trip of the row loop. A tile holds three [128,128] buffers; trip r reads row r of each in eight lane groups
  of 16, and stores (first + second) + third back into row r of the first buffer, lane group by lane group. Each
  store goes to lanes no later load of the trip reads (a later group's loads touch other lanes of row r), so after
  the trip row r of the first buffer is the elementwise sum and every other row is what it was.

  The stores are kept as a list of (rectangle, payload) pieces over the buffer's prior contents. The pure part
  reads that list at one element: an element of row r lies in exactly the piece of its lane group and reads that
  piece's payload there; an element of another row lies in no piece and reads the prior contents.
-/
import proofs.«203542_g13958643712200_cont_week2b_591_2_alg».proof.Proof.TileDefs
import Idealize.ShloMosaic.Lib.ValueLayout

noncomputable section

namespace Cert.Proof.KernelIdealRun

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "f0V" => (Memref.whole Cert.KernelIdeal.main_v0_scv : Memref Cert.KernelIdeal.sig Kind.scVector Space.hbm Cert.KernelIdeal.S524288 EltTy.i32)
local notation "f1V" => (Memref.whole Cert.KernelIdeal.main_v1_scv : Memref Cert.KernelIdeal.sig Kind.scVector Space.hbm Cert.KernelIdeal.S524288 EltTy.i32)
local notation "f2V" => (Memref.whole Cert.KernelIdeal.main_v2_scv : Memref Cert.KernelIdeal.sig Kind.scVector Space.hbm Cert.KernelIdeal.S524288 EltTy.i32)
local notation "tkV" => (Memref.whole Cert.KernelIdeal.main_arg3_scv : Memref Cert.KernelIdeal.sig Kind.scVector Space.hbm Cert.KernelIdeal.S100000x128 EltTy.f32)
local notation "psV" => (Memref.whole Cert.KernelIdeal.main_arg4_scv : Memref Cert.KernelIdeal.sig Kind.scVector Space.hbm Cert.KernelIdeal.S512x128 EltTy.f32)
local notation "sgV" => (Memref.whole Cert.KernelIdeal.main_arg5_scv : Memref Cert.KernelIdeal.sig Kind.scVector Space.hbm Cert.KernelIdeal.S3x128 EltTy.f32)
local notation "oV" => (Memref.whole Cert.KernelIdeal.main_v3_scv : Memref Cert.KernelIdeal.sig Kind.scVector Space.hbm Cert.KernelIdeal.S524288x128 EltTy.f32)
local notation "i0V" => (Memref.whole Cert.KernelIdeal.cc0_scratch0 : Memref Cert.KernelIdeal.sig Kind.scVector Space.vmem Cert.KernelIdeal.S128 EltTy.i32)
local notation "i1V" => (Memref.whole Cert.KernelIdeal.cc0_scratch1 : Memref Cert.KernelIdeal.sig Kind.scVector Space.vmem Cert.KernelIdeal.S128 EltTy.i32)
local notation "i2V" => (Memref.whole Cert.KernelIdeal.cc0_scratch2 : Memref Cert.KernelIdeal.sig Kind.scVector Space.vmem Cert.KernelIdeal.S128 EltTy.i32)
local notation "b0V" => (Memref.whole Cert.KernelIdeal.cc0_scratch3 : Memref Cert.KernelIdeal.sig Kind.scVector Space.vmem Cert.KernelIdeal.S128x128 EltTy.f32)
local notation "b1V" => (Memref.whole Cert.KernelIdeal.cc0_scratch4 : Memref Cert.KernelIdeal.sig Kind.scVector Space.vmem Cert.KernelIdeal.S128x128 EltTy.f32)
local notation "b2V" => (Memref.whole Cert.KernelIdeal.cc0_scratch5 : Memref Cert.KernelIdeal.sig Kind.scVector Space.vmem Cert.KernelIdeal.S128x128 EltTy.f32)

variable [FloatOps F]

section Pure

open Idealize.ShloMosaic.ValueIdx

omit [FloatOps F] in
/-- A predicate holds of every member of an eight-element list when it holds of each of the eight. -/
theorem forall_mem_eight {α : Type _} {P : α → Prop} {a7 a6 a5 a4 a3 a2 a1 a0 : α}
    (h7 : P a7) (h6 : P a6) (h5 : P a5) (h4 : P a4) (h3 : P a3) (h2 : P a2) (h1 : P a1) (h0 : P a0) :
    ∀ p ∈ [a7, a6, a5, a4, a3, a2, a1, a0], P p :=
  List.forall_mem_cons.2 ⟨h7, List.forall_mem_cons.2 ⟨h6, List.forall_mem_cons.2 ⟨h5, List.forall_mem_cons.2 ⟨h4,
    List.forall_mem_cons.2 ⟨h3, List.forall_mem_cons.2 ⟨h2, List.forall_mem_cons.2 ⟨h1, List.forall_mem_cons.2 ⟨h0,
      fun _ h => absurd h List.not_mem_nil⟩⟩⟩⟩⟩⟩⟩⟩

/-- One lane group's stored value at one element: the [1,16] block is flattened to [16], the three operands are
    added left to right, and the sum is put back under the unit axis, so element (0, i) of the result is
    (a + b) + c at (0, i). -/
theorem pay_raw_apply (h1 : S1x16.ShapeCasts S16) (h2 : S16.ShapeCasts S1x16) (a b c : Vec F S1x16 .f32) (x : S1x16.Idx) :
    (shapeCast S1x16 (addf (addf (shapeCast S16 a h1 : FVec F S16 .f32) (shapeCast S16 b h1 : FVec F S16 .f32))
        (shapeCast S16 c h1 : FVec F S16 .f32)) h2 : FVec F S1x16 .f32) x
      = FloatOps.addf (FloatOps.addf (a x) (b x)) (c x) := by
  obtain ⟨u, i, rfl⟩ : ∃ (u : Fin 1) (i : Fin 16), x = ix2 u i := ⟨x 0, x 1, eq_ix2 x⟩
  have hu : u = 0 := Subsingleton.elim _ _
  subst hu
  refine (shapeCast_a_1a_apply _ h2 0 i).trans ?_
  show FloatOps.addf (FloatOps.addf ((shapeCast S16 a h1 : FVec F S16 .f32) (ix1 i)) ((shapeCast S16 b h1 : FVec F S16 .f32) (ix1 i)))
      ((shapeCast S16 c h1 : FVec F S16 .f32) (ix1 i)) = _
  rw [shapeCast_1a_a_apply a h1 i, shapeCast_1a_a_apply b h1 i, shapeCast_1a_a_apply c h1 i]

/-- Lane group 1's stored value at one element. -/
theorem pay1_apply (a b c : Vec F S1x16 .f32) (x : S1x16.Idx) :
    k0_pay1 a b c x = FloatOps.addf (FloatOps.addf (a x) (b x)) (c x) :=
  pay_raw_apply _ _ a b c x

/-- Lane group 2's stored value at one element. -/
theorem pay2_apply (a b c : Vec F S1x16 .f32) (x : S1x16.Idx) :
    k0_pay2 a b c x = FloatOps.addf (FloatOps.addf (a x) (b x)) (c x) :=
  pay_raw_apply _ _ a b c x

/-- Lane group 3's stored value at one element. -/
theorem pay3_apply (a b c : Vec F S1x16 .f32) (x : S1x16.Idx) :
    k0_pay3 a b c x = FloatOps.addf (FloatOps.addf (a x) (b x)) (c x) :=
  pay_raw_apply _ _ a b c x

/-- Lane group 4's stored value at one element. -/
theorem pay4_apply (a b c : Vec F S1x16 .f32) (x : S1x16.Idx) :
    k0_pay4 a b c x = FloatOps.addf (FloatOps.addf (a x) (b x)) (c x) :=
  pay_raw_apply _ _ a b c x

/-- Lane group 5's stored value at one element. -/
theorem pay5_apply (a b c : Vec F S1x16 .f32) (x : S1x16.Idx) :
    k0_pay5 a b c x = FloatOps.addf (FloatOps.addf (a x) (b x)) (c x) :=
  pay_raw_apply _ _ a b c x

/-- Lane group 6's stored value at one element. -/
theorem pay6_apply (a b c : Vec F S1x16 .f32) (x : S1x16.Idx) :
    k0_pay6 a b c x = FloatOps.addf (FloatOps.addf (a x) (b x)) (c x) :=
  pay_raw_apply _ _ a b c x

/-- Lane group 7's stored value at one element. -/
theorem pay7_apply (a b c : Vec F S1x16 .f32) (x : S1x16.Idx) :
    k0_pay7 a b c x = FloatOps.addf (FloatOps.addf (a x) (b x)) (c x) :=
  pay_raw_apply _ _ a b c x

/-- Lane group 8's stored value at one element. -/
theorem pay8_apply (a b c : Vec F S1x16 .f32) (x : S1x16.Idx) :
    k0_pay8 a b c x = FloatOps.addf (FloatOps.addf (a x) (b x)) (c x) :=
  pay_raw_apply _ _ a b c x

omit [FloatOps F] in
/-- A [1,16] unit-stride rectangle of the [128,128] buffer at offsets (r, c) holds exactly the elements of row r
    whose lane lies in [c, c + 16). -/
theorem mem_unit_row {off : Fin 2 → ℕ} (inb : ∀ a, off a + S1x16.size a ≤ S128x128.size a) {r c : ℕ}
    (h : off = ![r, c]) (y : S128x128.Idx) :
    y ∈ (Rect.unit (s := S128x128) off S1x16.size inb).set ↔ (y 0).val = r ∧ c ≤ (y 1).val ∧ (y 1).val < c + 16 := by
  subst h
  refine Rect.mem_set_unit.trans ⟨fun hy => ?_, fun hy a => ?_⟩
  · have h0 : r ≤ (y 0).val ∧ (y 0).val < r + 1 := hy 0
    have h1 : c ≤ (y 1).val ∧ (y 1).val < c + 16 := hy 1
    omega
  · match a with
    | ⟨0, _⟩ => exact (show r ≤ (y 0).val ∧ (y 0).val < r + 1 from ⟨by omega, by omega⟩)
    | ⟨1, _⟩ => exact (show c ≤ (y 1).val ∧ (y 1).val < c + 16 from ⟨hy.2.1, hy.2.2⟩)

/-- The buffer after a list of stores all of which lie in row r, which together cover row r, and each of which
    stores the function G of the element it writes: row r holds G, every other row is unchanged. -/
theorem writes_row_apply (f : (b0V).view.ty.Contents (Elt F)) (G : S128x128.Idx → Elt F .f32) (r : ℕ)
    (Lst : List (View.Piece (Elt F) S128x128 .f32))
    (hG : ∀ p ∈ Lst, ∀ x : p.1.shape.Idx, p.2 x = G (p.1.emb x))
    (hrow : ∀ p ∈ Lst, ∀ y ∈ p.1.set, (y 0).val = r)
    (hcov : ∀ y : S128x128.Idx, (y 0).val = r → ∃ p ∈ Lst, y ∈ p.1.set) (y : S128x128.Idx) :
    (b0V).view.writes (Elt F) f Lst y = if (y 0).val = r then G y else f y := by
  by_cases h : (y 0).val = r
  · rw [if_pos h]
    exact View.read_writes_apply_of_pieces (b0V).view f G Lst hG y (hcov y h)
  · rw [if_neg h]
    exact View.read_writes_apply_of_forall_not_mem (b0V).view f y Lst (fun p hp hy => h (hrow p hp y hy))

end Pure

section Tile

variable (d : Dev nD) (L : grid0.Coords)

set_option maxHeartbeats 4000000 in
/-- One trip of the row loop: row r of the first buffer becomes (itself + the second buffer's row r) + the third
    buffer's row r, lane by lane; every other row of it, and the other two buffers, are unchanged. -/
theorem row_trip (k : Fin k0_t1_loop.trips) (r : Fin k0_t2_loop.trips) (acc v3 : BitVec 32)
    (ft : Buf (Elt F) ((b0V).view.loc (thr d L))) (A : Buf (Elt F) ((b1V).view.loc (thr d L))) (B : Buf (Elt F) ((b2V).view.loc (thr d L))) :
    (iprop(((b0V).view.loc (thr d L) ↦{fullShare} ft) ∗ ((b1V).view.loc (thr d L) ↦{fullShare} A) ∗ ((b2V).view.loc (thr d L) ↦{fullShare} B)) : sProp 𝕄)
      ⊢ wp frame (wpE (defs₀ (F := F)) 𝒱₀ (thr d L) none) Set.univ
          (k0_t2_body L f0V (Memref.isWhole_whole _) f1V (Memref.isWhole_whole _) f2V (Memref.isWhole_whole _)
            tkV (Memref.isWhole_whole _) psV (Memref.isWhole_whole _) sgV (Memref.isWhole_whole _) oV (Memref.isWhole_whole _)
            i0V (Memref.isWhole_whole _) i1V (Memref.isWhole_whole _) i2V (Memref.isWhole_whole _)
            b0V (Memref.isWhole_whole _) b1V (Memref.isWhole_whole _) b2V (Memref.isWhole_whole _)
            cc0_scratch6 cc0_scratch7 cc0_scratch8 cc0_scoped0 cc0_scoped1 cc0_scoped2 cc0_scoped3 v3 (0#32) (1#32) k r acc)
          fun _ => iprop((∃ ft' : Buf (Elt F) ((b0V).view.loc (thr d L)),
              ⌜∀ (r' l : Fin 128), ft' (ValueIdx.ix2 r' l) = if r'.val = r.val
                  then FloatOps.addf (FloatOps.addf (ft (ValueIdx.ix2 r' l)) (A (ValueIdx.ix2 r' l))) (B (ValueIdx.ix2 r' l)) else ft (ValueIdx.ix2 r' l)⌝
              ∗ ((b0V).view.loc (thr d L) ↦{fullShare} ft'))
            ∗ ((b1V).view.loc (thr d L) ↦{fullShare} A) ∗ ((b2V).view.loc (thr d L) ↦{fullShare} B)) := by
  iintro ⟨Hb0, Hb1, Hb2⟩
  unfold k0_t2_body
  sl_exec
  sl_step
  isplitl [Hb0]
  · iexists _
    isplitr
    on_goal 2 => iexact Hb0
    ipureintro
    intro r' l
    sl_unfold_run_names
    refine (writes_row_apply ft (fun y => FloatOps.addf (FloatOps.addf (ft y) (A y)) (B y)) r.val _ ?_ ?_ ?_
      (ValueIdx.ix2 r' l)).trans rfl
    · -- each store writes the sum of the three buffers at the element it writes
      exact forall_mem_eight
          (fun x => pay8_apply _ _ _ x)
          (fun x => pay7_apply _ _ _ x)
          (fun x => pay6_apply _ _ _ x)
          (fun x => pay5_apply _ _ _ x)
          (fun x => pay4_apply _ _ _ x)
          (fun x => pay3_apply _ _ _ x)
          (fun x => pay2_apply _ _ _ x)
          (fun x => pay1_apply _ _ _ x)
    · -- each store lies in row r
      exact forall_mem_eight
          (fun y hy => ((mem_unit_row (Gen.k0_off9_inb r) (Gen.k0_off9_eq r) y).1 hy).1)
          (fun y hy => ((mem_unit_row (Gen.k0_off8_inb r) (Gen.k0_off8_eq r) y).1 hy).1)
          (fun y hy => ((mem_unit_row (Gen.k0_off7_inb r) (Gen.k0_off7_eq r) y).1 hy).1)
          (fun y hy => ((mem_unit_row (Gen.k0_off6_inb r) (Gen.k0_off6_eq r) y).1 hy).1)
          (fun y hy => ((mem_unit_row (Gen.k0_off5_inb r) (Gen.k0_off5_eq r) y).1 hy).1)
          (fun y hy => ((mem_unit_row (Gen.k0_off4_inb r) (Gen.k0_off4_eq r) y).1 hy).1)
          (fun y hy => ((mem_unit_row (Gen.k0_off3_inb r) (Gen.k0_off3_eq r) y).1 hy).1)
          (fun y hy => ((mem_unit_row (Gen.k0_off2_inb r) (Gen.k0_off2_eq r) y).1 hy).1)
    · -- the eight lane groups cover row r
      intro y h0
      have hl : (y 1).val < 128 := ValueIdx.idx2_lt1 y
      by_cases h9 : 112 ≤ (y 1).val
      · exact ⟨_, List.mem_cons_self, (mem_unit_row (Gen.k0_off9_inb r) (Gen.k0_off9_eq r) y).2 ⟨h0, h9, by omega⟩⟩
      by_cases h8 : 96 ≤ (y 1).val
      · exact ⟨_, List.mem_cons_of_mem _ (List.mem_cons_self), (mem_unit_row (Gen.k0_off8_inb r) (Gen.k0_off8_eq r) y).2 ⟨h0, h8, by omega⟩⟩
      by_cases h7 : 80 ≤ (y 1).val
      · exact ⟨_, List.mem_cons_of_mem _ (List.mem_cons_of_mem _ (List.mem_cons_self)), (mem_unit_row (Gen.k0_off7_inb r) (Gen.k0_off7_eq r) y).2 ⟨h0, h7, by omega⟩⟩
      by_cases h6 : 64 ≤ (y 1).val
      · exact ⟨_, List.mem_cons_of_mem _ (List.mem_cons_of_mem _ (List.mem_cons_of_mem _ (List.mem_cons_self))), (mem_unit_row (Gen.k0_off6_inb r) (Gen.k0_off6_eq r) y).2 ⟨h0, h6, by omega⟩⟩
      by_cases h5 : 48 ≤ (y 1).val
      · exact ⟨_, List.mem_cons_of_mem _ (List.mem_cons_of_mem _ (List.mem_cons_of_mem _ (List.mem_cons_of_mem _ (List.mem_cons_self)))), (mem_unit_row (Gen.k0_off5_inb r) (Gen.k0_off5_eq r) y).2 ⟨h0, h5, by omega⟩⟩
      by_cases h4 : 32 ≤ (y 1).val
      · exact ⟨_, List.mem_cons_of_mem _ (List.mem_cons_of_mem _ (List.mem_cons_of_mem _ (List.mem_cons_of_mem _ (List.mem_cons_of_mem _ (List.mem_cons_self))))), (mem_unit_row (Gen.k0_off4_inb r) (Gen.k0_off4_eq r) y).2 ⟨h0, h4, by omega⟩⟩
      by_cases h3 : 16 ≤ (y 1).val
      · exact ⟨_, List.mem_cons_of_mem _ (List.mem_cons_of_mem _ (List.mem_cons_of_mem _ (List.mem_cons_of_mem _ (List.mem_cons_of_mem _ (List.mem_cons_of_mem _ (List.mem_cons_self)))))), (mem_unit_row (Gen.k0_off3_inb r) (Gen.k0_off3_eq r) y).2 ⟨h0, h3, by omega⟩⟩
      exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (mem_unit_row (Gen.k0_off2_inb r) (Gen.k0_off2_eq r) y).2 ⟨h0, Nat.zero_le _, by omega⟩⟩
  isplitl [Hb1]
  · iexact Hb1
  iexact Hb2

end Tile

end Cert.Proof.KernelIdealRun

end
-- ==== Proof.Launch1.lean ====
/-
  The launch side of the kernel's run, first part: who owns which rows of the result, how the read shares of the six
  arrays every tile reads split and join, and how a SparseCore's operands split among its sixteen tiles.

  Tile (c, s) owns the token rows [32768 s + 16384 c, 32768 s + 16384 c + 16384): row x belongs to the tile with
  s = x / 32768 and c = (x / 16384) mod 2, and to no other, so the thirty-two row sets are pairwise disjoint and cover
  the 524288 rows. A points-to over a disjoint union is the separating conjunction of the points-tos over the parts,
  whatever the contents; a points-to at a share is the remainder share beside n read tokens.
-/
import proofs.«203542_g13958643712200_cont_week2b_591_2_alg».proof.Proof.Common

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The row sets -/

omit m in
theorem mem_tileRows (d : Dev nD) (c : Fin 2) (s : Fin 16) (j : S524288x128.Idx) :
    j ∈ tileRows d c s ↔ 32768 * s.val + 16384 * c.val ≤ (j 0).val ∧ (j 0).val < 32768 * s.val + 16384 * c.val + 16384 := by
  unfold tileRows tileBase
  exact ⟨fun h => (Finset.mem_filter.1 h).2, fun h => Finset.mem_filter.2 ⟨Finset.mem_univ _, h⟩⟩

omit m in
theorem mem_coreRows (d : Dev nD) (c : Fin 2) (j : S524288x128.Idx) : j ∈ coreRows d c ↔ ∃ s : Fin 16, j ∈ tileRows d c s := by
  unfold coreRows
  rw [Finset.mem_biUnion]
  exact ⟨fun ⟨s, _, h⟩ => ⟨s, h⟩, fun ⟨s, h⟩ => ⟨s, Finset.mem_univ _, h⟩⟩

omit m in
/-- The sixteen tiles of one SparseCore own disjoint rows. -/
theorem tileRows_disjoint (d : Dev nD) (c : Fin 2) :
    ∀ s ∈ (Finset.univ : Finset (Fin 16)), ∀ s' ∈ (Finset.univ : Finset (Fin 16)), s ≠ s' → Disjoint (tileRows d c s) (tileRows d c s') := by
  intro s _ s' _ hne
  rw [Finset.disjoint_left]
  intro j hj hj'
  rw [mem_tileRows] at hj hj'
  have hv : s.val ≠ s'.val := fun h => hne (Fin.ext h)
  omega

omit m in
/-- The two SparseCores own disjoint rows. -/
theorem coreRows_disjoint (d : Dev nD) :
    ∀ c ∈ (Finset.univ : Finset (Fin 2)), ∀ c' ∈ (Finset.univ : Finset (Fin 2)), c ≠ c' → Disjoint (coreRows d c) (coreRows d c') := by
  intro c _ c' _ hne
  rw [Finset.disjoint_left]
  intro j hj hj'
  obtain ⟨s, hs⟩ := (mem_coreRows d c j).1 hj
  obtain ⟨s', hs'⟩ := (mem_coreRows d c' j).1 hj'
  rw [mem_tileRows] at hs hs'
  have hv : c.val ≠ c'.val := fun h => hne (Fin.ext h)
  have h1 := c.isLt
  have h2 := c'.isLt
  omega

omit m in
/-- Between them they own every row: row x is tile (x / 16384 mod 2, x / 32768)'s. -/
theorem coreRows_cover (d : Dev nD) : (Finset.univ : Finset (Fin 2)).biUnion (coreRows d) = Finset.univ := by
  refine Finset.eq_univ_iff_forall.2 fun j => ?_
  have hx : (j 0).val < 524288 := (j 0).isLt
  rw [Finset.mem_biUnion]
  refine ⟨⟨(j 0).val / 16384 % 2, by omega⟩, Finset.mem_univ _, ?_⟩
  rw [mem_coreRows]
  refine ⟨⟨(j 0).val / 32768, by omega⟩, ?_⟩
  rw [mem_tileRows]
  show 32768 * ((j 0).val / 32768) + 16384 * ((j 0).val / 16384 % 2) ≤ (j 0).val
    ∧ (j 0).val < 32768 * ((j 0).val / 32768) + 16384 * ((j 0).val / 16384 % 2) + 16384
  omega

omit m in
/-- The result array whole is the two SparseCores' rows of it, -/
theorem oPts_cores (d : Dev nD) (f : Buf (Elt F) (oLoc d)) :
    (oLoc d ↦{fullShare} f : sProp 𝕄) = bigSep Finset.univ fun c : Fin 2 => oLoc d ↦[coreRows d c]{fullShare} f := by
  rw [← pointsTo_biUnion Finset.univ (ℓ := oLoc d) (coreRows d) (coreRows_disjoint d), coreRows_cover]; try rfl

omit m in
/-- and a SparseCore's rows are its sixteen tiles'. -/
theorem oPts_tiles (d : Dev nD) (c : Fin 2) (f : Buf (Elt F) (oLoc d)) :
    (oLoc d ↦[coreRows d c]{fullShare} f : sProp 𝕄) = bigSep Finset.univ fun s : Fin 16 => oLoc d ↦[tileRows d c s]{fullShare} f := by
  unfold coreRows
  exact pointsTo_biUnion Finset.univ (tileRows d c) (tileRows_disjoint d c)

/-! ## The read shares -/

/-- The six read arrays at share `q` are the same at the remainder share beside `n` read tokens of each. -/
theorem ins_split (d : Dev nD) (q : PosShare TreeShare) (n : ℕ) :
    ins m d q ⊢ iprop(ins m d (Transfers.shareDrop q n) ∗ bigSep Finset.univ fun i : Fin n => ins m d (Transfers.shareTok q n i)) := by
  unfold ins
  rw [bigSep_sep', bigSep_sep', bigSep_sep', bigSep_sep', bigSep_sep']
  iintro ⟨H0, H1, H2, H3, H4, H5⟩
  ihave H0 := (Transfers.pointsTo_toks_split q n) $$ H0
  ihave H1 := (Transfers.pointsTo_toks_split q n) $$ H1
  ihave H2 := (Transfers.pointsTo_toks_split q n) $$ H2
  ihave H3 := (Transfers.pointsTo_toks_split q n) $$ H3
  ihave H4 := (Transfers.pointsTo_toks_split q n) $$ H4
  ihave H5 := (Transfers.pointsTo_toks_split q n) $$ H5
  icases H0 with ⟨D0, T0⟩
  icases H1 with ⟨D1, T1⟩
  icases H2 with ⟨D2, T2⟩
  icases H3 with ⟨D3, T3⟩
  icases H4 with ⟨D4, T4⟩
  icases H5 with ⟨D5, T5⟩
  isplitl [D0 D1 D2 D3 D4 D5]
  · isplitl [D0]; · iexact D0
    isplitl [D1]; · iexact D1
    isplitl [D2]; · iexact D2
    isplitl [D3]; · iexact D3
    isplitl [D4]; · iexact D4
    iexact D5
  · isplitl [T0]; · iexact T0
    isplitl [T1]; · iexact T1
    isplitl [T2]; · iexact T2
    isplitl [T3]; · iexact T3
    isplitl [T4]; · iexact T4
    iexact T5

/-- Joined back. -/
theorem ins_join (d : Dev nD) (q : PosShare TreeShare) (n : ℕ) :
    iprop(ins m d (Transfers.shareDrop q n) ∗ bigSep Finset.univ fun i : Fin n => ins m d (Transfers.shareTok q n i)) ⊢ ins m d q := by
  unfold ins
  rw [bigSep_sep', bigSep_sep', bigSep_sep', bigSep_sep', bigSep_sep']
  iintro ⟨⟨D0, D1, D2, D3, D4, D5⟩, T0, T1, T2, T3, T4, T5⟩
  isplitl [D0 T0]
  · iapply (Transfers.pointsTo_toks_join q n); isplitl [D0]; · iexact D0
    iexact T0
  isplitl [D1 T1]
  · iapply (Transfers.pointsTo_toks_join q n); isplitl [D1]; · iexact D1
    iexact T1
  isplitl [D2 T2]
  · iapply (Transfers.pointsTo_toks_join q n); isplitl [D2]; · iexact D2
    iexact T2
  isplitl [D3 T3]
  · iapply (Transfers.pointsTo_toks_join q n); isplitl [D3]; · iexact D3
    iexact T3
  isplitl [D4 T4]
  · iapply (Transfers.pointsTo_toks_join q n); isplitl [D4]; · iexact D4
    iexact T4
  iapply (Transfers.pointsTo_toks_join q n); isplitl [D5]; · iexact D5
  iexact T5

/-! ## A SparseCore's operands among its tiles -/

omit m in
/-- A family over the call's sixteen tasks is the family over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit m in
/-- A family over the call's two SparseCores is the family over `Fin 2`. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F]

/-- SparseCore `c`'s read shares split into a remainder and one token per tile, its rows of the result into its tiles';
    the tokens and the tiles' rows at the sums come back, the tokens rejoin the remainder, the rows join. -/
theorem vecSplit : (K (F := F)).VecSplit' (P m) 0 := by
  intro d c
  show stC m d (Fin.cast nCore_zero c) ⊢ |={Set.univ}=> iprop(
      (bigSep Finset.univ fun i : Fin ((K (F := F)).nSub 0) => goT m d (Fin.cast nCore_zero c) (Fin.cast nSub_zero i))
      ∗ ((bigSep Finset.univ fun i : Fin ((K (F := F)).nSub 0) => tdT m d (Fin.cast nCore_zero c) (Fin.cast nSub_zero i))
          -∗ dnC m d (Fin.cast nCore_zero c)))
  generalize Fin.cast nCore_zero c = c'
  rw [bigSep_tasks (F := F) (fun s => goT m d c' s), bigSep_tasks (F := F) (fun s => tdT m d c' s)]
  unfold stC goT tdT dnC
  rw [bigSep_sep', bigSep_sep', oPts_tiles, oPts_tiles]
  iintro ⟨Hin, Ho⟩
  ihave Hin' := (ins_split m d (shC c') 16) $$ Hin
  icases Hin' with ⟨Hdrop, Htoks⟩
  imodintro
  isplitl [Htoks Ho]
  · isplitl [Htoks]; · iexact Htoks
    iexact Ho
  iintro ⟨Htoks, Ho⟩
  isplitl [Hdrop Htoks]
  · iapply (ins_join m d (shC c') 16)
    isplitl [Hdrop]; · iexact Hdrop
    iexact Htoks
  iexact Ho

end Cert.Proof.KernelIdealRun

end
-- ==== Proof.ChunkData.lean ====
/-
  One chunk of a tile's task, as data. Tile (c, s) handles in chunk k the 128 flattened tokens starting at
  base = 32768 s + 16384 c + 128 k. The chunk's rows of the result lie inside the tile's rows. A gather through the
  chunk's labels delivers, at row r and lane l, the table's entry at the row the label of token base + r names and
  lane l. The sum of the three gathered entries is the specification's entry at (base + r, l). Writing the chunk's 128
  rows leaves every other element of the result as it was, so after chunk k every row of the tile below base + 128
  holds the specification's entries if every row below base did before.
-/
import proofs.«203542_g13958643712200_cont_week2b_591_2_alg».proof.Proof.TileDefs
import proofs.«203542_g13958643712200_cont_week2b_591_2_alg».proof.Proof.Launch1

noncomputable section

namespace Cert.Proof.KernelIdealRun

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "f0V" => (Memref.whole Cert.KernelIdeal.main_v0_scv : Memref Cert.KernelIdeal.sig Kind.scVector Space.hbm Cert.KernelIdeal.S524288 EltTy.i32)
local notation "f1V" => (Memref.whole Cert.KernelIdeal.main_v1_scv : Memref Cert.KernelIdeal.sig Kind.scVector Space.hbm Cert.KernelIdeal.S524288 EltTy.i32)
local notation "f2V" => (Memref.whole Cert.KernelIdeal.main_v2_scv : Memref Cert.KernelIdeal.sig Kind.scVector Space.hbm Cert.KernelIdeal.S524288 EltTy.i32)
local notation "tkV" => (Memref.whole Cert.KernelIdeal.main_arg3_scv : Memref Cert.KernelIdeal.sig Kind.scVector Space.hbm Cert.KernelIdeal.S100000x128 EltTy.f32)
local notation "psV" => (Memref.whole Cert.KernelIdeal.main_arg4_scv : Memref Cert.KernelIdeal.sig Kind.scVector Space.hbm Cert.KernelIdeal.S512x128 EltTy.f32)
local notation "sgV" => (Memref.whole Cert.KernelIdeal.main_arg5_scv : Memref Cert.KernelIdeal.sig Kind.scVector Space.hbm Cert.KernelIdeal.S3x128 EltTy.f32)
local notation "oV" => (Memref.whole Cert.KernelIdeal.main_v3_scv : Memref Cert.KernelIdeal.sig Kind.scVector Space.hbm Cert.KernelIdeal.S524288x128 EltTy.f32)
local notation "i0V" => (Memref.whole Cert.KernelIdeal.cc0_scratch0 : Memref Cert.KernelIdeal.sig Kind.scVector Space.vmem Cert.KernelIdeal.S128 EltTy.i32)
local notation "i1V" => (Memref.whole Cert.KernelIdeal.cc0_scratch1 : Memref Cert.KernelIdeal.sig Kind.scVector Space.vmem Cert.KernelIdeal.S128 EltTy.i32)
local notation "i2V" => (Memref.whole Cert.KernelIdeal.cc0_scratch2 : Memref Cert.KernelIdeal.sig Kind.scVector Space.vmem Cert.KernelIdeal.S128 EltTy.i32)
local notation "b0V" => (Memref.whole Cert.KernelIdeal.cc0_scratch3 : Memref Cert.KernelIdeal.sig Kind.scVector Space.vmem Cert.KernelIdeal.S128x128 EltTy.f32)
local notation "b1V" => (Memref.whole Cert.KernelIdeal.cc0_scratch4 : Memref Cert.KernelIdeal.sig Kind.scVector Space.vmem Cert.KernelIdeal.S128x128 EltTy.f32)
local notation "b2V" => (Memref.whole Cert.KernelIdeal.cc0_scratch5 : Memref Cert.KernelIdeal.sig Kind.scVector Space.vmem Cert.KernelIdeal.S128x128 EltTy.f32)

variable (m : (ℓ : Loc nD τ sig) → Buf (Elt F) ℓ) (ρ : Dev nD → PrngReg)
variable [FloatOps F]
variable (d : Dev nD) (L : grid0.Coords)

/-! ## The chunk's rows -/

/-- The first token of chunk `k` of tile `L`. -/
def chunkBase (L : grid0.Coords) (k : Fin k0_t1_loop.trips) : ℕ := tileBase (cL L) (sL L) + 128 * k.val

theorem chunk_k_lt (k : Fin k0_t1_loop.trips) : k.val < 128 := Nat.lt_of_lt_of_le k.isLt Gen.k0_t1_abs.2.1

theorem chunkBase_eq (k : Fin k0_t1_loop.trips) : chunkBase L k = 32768 * (L 1).val + 16384 * (L 0).val + 128 * k.val := by
  unfold chunkBase tileBase; rfl

/-- Every token of the chunk is a token: the last tile's last chunk ends at 524288. -/
theorem chunk_row_lt (k : Fin k0_t1_loop.trips) (r : Fin 128) : chunkBase L k + r.val < 524288 := by
  have h0 := (cL L).isLt
  have h1 := (sL L).isLt
  have hk := chunk_k_lt k
  have hr := r.isLt
  unfold chunkBase tileBase
  omega

/-- The chunk's elements of the result: rows `[base, base + 128)`, every lane. -/
theorem mem_outChunk (k : Fin k0_t1_loop.trips) (j : S524288x128.Idx) :
    j ∈ (outChunk L k).view.set ↔ chunkBase L k ≤ (j 0).val ∧ (j 0).val < chunkBase L k + 128 := by
  have hs : (outChunk L k).view.set = (Rect.unit (s := S524288x128) (k0_off10 L k) S128x128.size (k0_off10_inb L k)).set :=
    View.set_slice_whole (main_v3_scv : Ref sig .scVector) _
  rw [hs, Rect.mem_set_unit, Gen.k0_off10_eq, chunkBase_eq]
  constructor
  · intro h
    exact h 0
  · intro h a
    match a with
    | ⟨0, _⟩ => exact h
    | ⟨1, _⟩ =>
      have hl : (j 1).val < 128 := (j 1).isLt
      exact ⟨Nat.zero_le _, by show (j 1).val < 0 + 128; omega⟩

/-- The chunk's rows are rows of its tile. -/
theorem chunk_sub (k : Fin k0_t1_loop.trips) : (outChunk L k).view.set ⊆ tileRows d (cL L) (sL L) := by
  intro j hj
  rw [mem_outChunk] at hj
  rw [mem_tileRows]
  have hk := chunk_k_lt k
  unfold chunkBase tileBase at hj
  omega

/-! ## Writing one chunk -/

/-- A write of the whole of a slice lands exactly on the slice's elements. -/
theorem set_slice_whole_rect {κ : Kind} {sp : Space} {s : Shape} {e : EltTy} (v : View sig κ sp s e) :
    (v.slice (Rect.whole s)).set = v.set := by
  rw [View.set_slice, Rect.set_whole]; rfl

/-- Off the chunk's rows the result array keeps its contents. -/
theorem out_off (k : Fin k0_t1_loop.trips) (fo : Buf (Elt F) (oLoc d)) (W : S128x128.Idx → Elt F .f32) :
    ∀ i ∈ tileRows d (cL L) (sL L) \ (outChunk L k).view.set, fo i = (outChunk L k).view.writes (Elt F) fo [⟨Rect.whole S128x128, W⟩] i := by
  intro i hi
  have hn : i ∉ (outChunk L k).view.set := (Finset.mem_sdiff.1 hi).2
  refine (View.write_of_not_mem (v := (outChunk L k).view.slice (Rect.whole S128x128)) fo W Finset.univ ?_).symm
  rw [View.setOn_univ, set_slice_whole_rect]
  exact hn

/-! ## The sum of the three gathered entries -/

theorem sum_is_OUT (k : Fin k0_t1_loop.trips) (r l : Fin 128) :
    FloatOps.addf (FloatOps.addf (m (tkLoc d) (ix2 (Cert.Embed.rowAt 100000 (by decide) (X0 m d (ix1 ⟨chunkBase L k + r.val, chunk_row_lt L k r⟩))) l))
        (m (psLoc d) (ix2 (Cert.Embed.rowAt 512 (by decide) (X1 m d (ix1 ⟨chunkBase L k + r.val, chunk_row_lt L k r⟩))) l)))
      (m (sgLoc d) (ix2 (Cert.Embed.rowAt 3 (by decide) (X2 m d (ix1 ⟨chunkBase L k + r.val, chunk_row_lt L k r⟩))) l))
      = OUT m d (ix2 ⟨chunkBase L k + r.val, chunk_row_lt L k r⟩ l) := by
  unfold OUT Cert.Embed.Gflat Cert.Embed.entry
  rfl

/-! ## The three gathers -/

/-- Chunk `k`'s label of array 0 at an index whose coordinate is `r` is the flattened label of token `base + r`. -/
theorem lab0_read (k : Fin k0_t1_loop.trips) (x : S128.Idx) (r : Fin 128) (hx : (x 0).val = r.val) :
    (lab0 L k).view.read (Elt F) (X0 m d) x = X0 m d (ix1 ⟨chunkBase L k + r.val, chunk_row_lt L k r⟩) := by
  refine (View.read_apply _ _).trans ((cast_eq _ _).trans (congrArg (X0 m d) ?_))
  funext a
  match a with
  | ⟨0, _⟩ =>
    apply Fin.ext
    show k0_off1 L k 0 + 1 * (x 0).val = chunkBase L k + r.val
    rw [Gen.k0_off1_eq, chunkBase_eq, hx]
    show 32768 * (L 1).val + 16384 * (L 0).val + 128 * k.val + 1 * r.val = 32768 * (L 1).val + 16384 * (L 0).val + 128 * k.val + r.val
    omega

/-- The tk table as the kernel slices it (whole) reads the table. -/
theorem tkAll_read (y : S100000x128.Idx) : View.read (Elt F) (tkAll).view (m (tkLoc d)) y = m (tkLoc d) y := by
  refine (View.read_apply _ _).trans ((cast_eq _ _).trans (congrArg (m (tkLoc d)) ?_))
  funext a
  match a with
  | ⟨0, _⟩ => apply Fin.ext; show 0 + 1 * (y 0).val = (y 0).val; omega
  | ⟨1, _⟩ => apply Fin.ext; show 0 + 1 * (y 1).val = (y 1).val; omega

/-- A whole write into scratch buffer 0 leaves the payload. -/
theorem b0_writes (fj : (b0V).view.ty.Contents (Elt F)) (w : S128x128.Idx → Elt F .f32) (x : S128x128.Idx) :
    (b0V).view.writes (Elt F) fj [⟨Rect.whole _, w⟩] x = w x := by
  have he : (((b0V).view).slice (Rect.whole S128x128)).emb x = x := Rect.emb_whole_apply _ _
  refine (congrArg ((b0V).view.writes (Elt F) fj [⟨Rect.whole _, w⟩]) he.symm).trans ?_
  exact (View.write_emb_of_mem (v := (b0V).view.slice (Rect.whole S128x128)) fj w (Finset.mem_univ x)).trans (cast_eq _ _)

/-- The gather through chunk `k`'s labels of array 0: row `r`, lane `l` of the scratch buffer is the table's entry at
    the row the label of token `base + r` names, lane `l` (whatever the buffer held before). -/
theorem gathered0' (k : Fin k0_t1_loop.trips) (g0 : Buf (Elt F) ((i0V).view.loc (thr d L))) (pay : S128.Idx → Elt F .i32)
    (hpay : pay = (lab0 L k).view.read (Elt F) (X0 m d))
    (hn : S128.numel = S128x128.size gathers_S100000x128_S128x128.axis')
    (hin : ∀ x, ((i0V).view.read (Elt F) (View.write (Elt F) (i0V).view g0 pay Finset.univ) x).toNat < S100000x128.size gathers_S100000x128_S128x128.axis)
    (w : S128x128.Idx → Elt F .f32)
    (hw : w = SparseCore.gatherPayload gathers_S100000x128_S128x128 (View.read (Elt F) (tkAll).view (m (tkLoc d)))
      (SparseCore.rows (View.read (Elt F) (i0V).view (View.write (Elt F) (i0V).view g0 pay Finset.univ)) hn hin))
    (fj : (b0V).view.ty.Contents (Elt F)) (r l : Fin 128) :
    (b0V).view.writes (Elt F) fj [⟨Rect.whole _, w⟩] (ix2 r l)
      = m (tkLoc d) (ix2 (Cert.Embed.rowAt 100000 (by decide) (X0 m d (ix1 ⟨chunkBase L k + r.val, chunk_row_lt L k r⟩))) l) := by
  -- the index scratch, just written whole with the labels, reads the labels
  have hidx : View.read (Elt F) (i0V).view (View.write (Elt F) (i0V).view g0 pay Finset.univ) = pay := View.read_write_univ _ _
  -- the word the list names for row `r`: the label of token `base + r`
  have hword : ∀ x : S128.Idx, (x 0).val = r.val →
      View.read (Elt F) (i0V).view (View.write (Elt F) (i0V).view g0 pay Finset.univ) x = X0 m d (ix1 ⟨chunkBase L k + r.val, chunk_row_lt L k r⟩) := by
    intro x hx
    rw [hidx, hpay]
    exact lab0_read m d L k x r hx
  refine (b0_writes fj w (ix2 r l)).trans ?_
  rw [hw]
  show View.read (Elt F) (tkAll).view (m (tkLoc d)) (gathers_S100000x128_S128x128.idx
      (SparseCore.rows (View.read (Elt F) (i0V).view (View.write (Elt F) (i0V).view g0 pay Finset.univ)) hn hin) (ix2 r l)) = _
  rw [tkAll_read]
  refine congrArg (m (tkLoc d)) ?_
  -- the row-major position `r` of the list is its index `r`
  have hsymm : ((S128.rowMajor.symm ((((ix2 r l : S128x128.Idx) gathers_S100000x128_S128x128.axis')).cast hn.symm)) 0).val = r.val :=
    (Shape.rowMajor_val_one (S128.rowMajor.symm _)).symm.trans (congrArg Fin.val (Equiv.apply_symm_apply S128.rowMajor _))
  funext a
  match a with
  | ⟨0, _⟩ =>
    apply Fin.ext
    refine (congrArg Fin.val (Shape.Gathers.idx_axis gathers_S100000x128_S128x128 _ (ix2 r l))).trans ?_
    show (View.read (Elt F) (i0V).view (View.write (Elt F) (i0V).view g0 pay Finset.univ)
      (S128.rowMajor.symm ((((ix2 r l : S128x128.Idx) gathers_S100000x128_S128x128.axis')).cast hn.symm))).toNat = _
    have hlt := hin (S128.rowMajor.symm ((((ix2 r l : S128x128.Idx) gathers_S100000x128_S128x128.axis')).cast hn.symm))
    rw [hword _ hsymm] at hlt ⊢
    exact (Cert.Embed.rowAt_val _ _ hlt).symm
  | ⟨1, _⟩ =>
    apply Fin.ext
    exact Shape.Gathers.idx_of_ne gathers_S100000x128_S128x128 _ (ix2 r l) ⟨1, by decide⟩ (by decide)

/-- The same over the contents a covered load is stated over. -/
theorem gathered0 [∀ e, Nonempty (Elt F e)] (k : Fin k0_t1_loop.trips) (g0 : Buf (Elt F) ((i0V).view.loc (thr d L))) (pay : S128.Idx → Elt F .i32)
    (hpay : pay = (lab0 L k).view.read (Elt F) (X0 m d))
    (hn : S128.numel = S128x128.size gathers_S100000x128_S128x128.axis')
    (hin : ∀ x, ((i0V).view.read (Elt F) (View.write (Elt F) (i0V).view g0 pay Finset.univ) x).toNat < S100000x128.size gathers_S100000x128_S128x128.axis)
    (w : S128x128.Idx → Elt F .f32)
    (hw : w = SparseCore.gatherPayload gathers_S100000x128_S128x128 (View.read (Elt F) (tkAll).view (m (tkLoc d)))
      (SparseCore.rows (View.read (Elt F) (i0V).view (View.write (Elt F) (i0V).view g0 pay Finset.univ)) hn hin))
    (r l : Fin 128) :
    (b0V).view.writes (Elt F) (b0V).view.junk [⟨Rect.whole _, w⟩] (ix2 r l)
      = m (tkLoc d) (ix2 (Cert.Embed.rowAt 100000 (by decide) (X0 m d (ix1 ⟨chunkBase L k + r.val, chunk_row_lt L k r⟩))) l) :=
  gathered0' m d L k g0 pay hpay hn hin w hw _ r l

/-- Chunk `k`'s label of array 1 at an index whose coordinate is `r` is the flattened label of token `base + r`. -/
theorem lab1_read (k : Fin k0_t1_loop.trips) (x : S128.Idx) (r : Fin 128) (hx : (x 0).val = r.val) :
    (lab1 L k).view.read (Elt F) (X1 m d) x = X1 m d (ix1 ⟨chunkBase L k + r.val, chunk_row_lt L k r⟩) := by
  refine (View.read_apply _ _).trans ((cast_eq _ _).trans (congrArg (X1 m d) ?_))
  funext a
  match a with
  | ⟨0, _⟩ =>
    apply Fin.ext
    show k0_off1 L k 0 + 1 * (x 0).val = chunkBase L k + r.val
    rw [Gen.k0_off1_eq, chunkBase_eq, hx]
    show 32768 * (L 1).val + 16384 * (L 0).val + 128 * k.val + 1 * r.val = 32768 * (L 1).val + 16384 * (L 0).val + 128 * k.val + r.val
    omega

/-- The ps table as the kernel slices it (whole) reads the table. -/
theorem psAll_read (y : S512x128.Idx) : View.read (Elt F) (psAll).view (m (psLoc d)) y = m (psLoc d) y := by
  refine (View.read_apply _ _).trans ((cast_eq _ _).trans (congrArg (m (psLoc d)) ?_))
  funext a
  match a with
  | ⟨0, _⟩ => apply Fin.ext; show 0 + 1 * (y 0).val = (y 0).val; omega
  | ⟨1, _⟩ => apply Fin.ext; show 0 + 1 * (y 1).val = (y 1).val; omega

/-- A whole write into scratch buffer 1 leaves the payload. -/
theorem b1_writes (fj : (b1V).view.ty.Contents (Elt F)) (w : S128x128.Idx → Elt F .f32) (x : S128x128.Idx) :
    (b1V).view.writes (Elt F) fj [⟨Rect.whole _, w⟩] x = w x := by
  have he : (((b1V).view).slice (Rect.whole S128x128)).emb x = x := Rect.emb_whole_apply _ _
  refine (congrArg ((b1V).view.writes (Elt F) fj [⟨Rect.whole _, w⟩]) he.symm).trans ?_
  exact (View.write_emb_of_mem (v := (b1V).view.slice (Rect.whole S128x128)) fj w (Finset.mem_univ x)).trans (cast_eq _ _)

/-- The gather through chunk `k`'s labels of array 1: row `r`, lane `l` of the scratch buffer is the table's entry at
    the row the label of token `base + r` names, lane `l` (whatever the buffer held before). -/
theorem gathered1' (k : Fin k0_t1_loop.trips) (g0 : Buf (Elt F) ((i1V).view.loc (thr d L))) (pay : S128.Idx → Elt F .i32)
    (hpay : pay = (lab1 L k).view.read (Elt F) (X1 m d))
    (hn : S128.numel = S128x128.size gathers_S512x128_S128x128.axis')
    (hin : ∀ x, ((i1V).view.read (Elt F) (View.write (Elt F) (i1V).view g0 pay Finset.univ) x).toNat < S512x128.size gathers_S512x128_S128x128.axis)
    (w : S128x128.Idx → Elt F .f32)
    (hw : w = SparseCore.gatherPayload gathers_S512x128_S128x128 (View.read (Elt F) (psAll).view (m (psLoc d)))
      (SparseCore.rows (View.read (Elt F) (i1V).view (View.write (Elt F) (i1V).view g0 pay Finset.univ)) hn hin))
    (fj : (b1V).view.ty.Contents (Elt F)) (r l : Fin 128) :
    (b1V).view.writes (Elt F) fj [⟨Rect.whole _, w⟩] (ix2 r l)
      = m (psLoc d) (ix2 (Cert.Embed.rowAt 512 (by decide) (X1 m d (ix1 ⟨chunkBase L k + r.val, chunk_row_lt L k r⟩))) l) := by
  -- the index scratch, just written whole with the labels, reads the labels
  have hidx : View.read (Elt F) (i1V).view (View.write (Elt F) (i1V).view g0 pay Finset.univ) = pay := View.read_write_univ _ _
  -- the word the list names for row `r`: the label of token `base + r`
  have hword : ∀ x : S128.Idx, (x 0).val = r.val →
      View.read (Elt F) (i1V).view (View.write (Elt F) (i1V).view g0 pay Finset.univ) x = X1 m d (ix1 ⟨chunkBase L k + r.val, chunk_row_lt L k r⟩) := by
    intro x hx
    rw [hidx, hpay]
    exact lab1_read m d L k x r hx
  refine (b1_writes fj w (ix2 r l)).trans ?_
  rw [hw]
  show View.read (Elt F) (psAll).view (m (psLoc d)) (gathers_S512x128_S128x128.idx
      (SparseCore.rows (View.read (Elt F) (i1V).view (View.write (Elt F) (i1V).view g0 pay Finset.univ)) hn hin) (ix2 r l)) = _
  rw [psAll_read]
  refine congrArg (m (psLoc d)) ?_
  -- the row-major position `r` of the list is its index `r`
  have hsymm : ((S128.rowMajor.symm ((((ix2 r l : S128x128.Idx) gathers_S512x128_S128x128.axis')).cast hn.symm)) 0).val = r.val :=
    (Shape.rowMajor_val_one (S128.rowMajor.symm _)).symm.trans (congrArg Fin.val (Equiv.apply_symm_apply S128.rowMajor _))
  funext a
  match a with
  | ⟨0, _⟩ =>
    apply Fin.ext
    refine (congrArg Fin.val (Shape.Gathers.idx_axis gathers_S512x128_S128x128 _ (ix2 r l))).trans ?_
    show (View.read (Elt F) (i1V).view (View.write (Elt F) (i1V).view g0 pay Finset.univ)
      (S128.rowMajor.symm ((((ix2 r l : S128x128.Idx) gathers_S512x128_S128x128.axis')).cast hn.symm))).toNat = _
    have hlt := hin (S128.rowMajor.symm ((((ix2 r l : S128x128.Idx) gathers_S512x128_S128x128.axis')).cast hn.symm))
    rw [hword _ hsymm] at hlt ⊢
    exact (Cert.Embed.rowAt_val _ _ hlt).symm
  | ⟨1, _⟩ =>
    apply Fin.ext
    exact Shape.Gathers.idx_of_ne gathers_S512x128_S128x128 _ (ix2 r l) ⟨1, by decide⟩ (by decide)

/-- The same over the contents a covered load is stated over. -/
theorem gathered1 [∀ e, Nonempty (Elt F e)] (k : Fin k0_t1_loop.trips) (g0 : Buf (Elt F) ((i1V).view.loc (thr d L))) (pay : S128.Idx → Elt F .i32)
    (hpay : pay = (lab1 L k).view.read (Elt F) (X1 m d))
    (hn : S128.numel = S128x128.size gathers_S512x128_S128x128.axis')
    (hin : ∀ x, ((i1V).view.read (Elt F) (View.write (Elt F) (i1V).view g0 pay Finset.univ) x).toNat < S512x128.size gathers_S512x128_S128x128.axis)
    (w : S128x128.Idx → Elt F .f32)
    (hw : w = SparseCore.gatherPayload gathers_S512x128_S128x128 (View.read (Elt F) (psAll).view (m (psLoc d)))
      (SparseCore.rows (View.read (Elt F) (i1V).view (View.write (Elt F) (i1V).view g0 pay Finset.univ)) hn hin))
    (r l : Fin 128) :
    (b1V).view.writes (Elt F) (b1V).view.junk [⟨Rect.whole _, w⟩] (ix2 r l)
      = m (psLoc d) (ix2 (Cert.Embed.rowAt 512 (by decide) (X1 m d (ix1 ⟨chunkBase L k + r.val, chunk_row_lt L k r⟩))) l) :=
  gathered1' m d L k g0 pay hpay hn hin w hw _ r l

/-- Chunk `k`'s label of array 2 at an index whose coordinate is `r` is the flattened label of token `base + r`. -/
theorem lab2_read (k : Fin k0_t1_loop.trips) (x : S128.Idx) (r : Fin 128) (hx : (x 0).val = r.val) :
    (lab2 L k).view.read (Elt F) (X2 m d) x = X2 m d (ix1 ⟨chunkBase L k + r.val, chunk_row_lt L k r⟩) := by
  refine (View.read_apply _ _).trans ((cast_eq _ _).trans (congrArg (X2 m d) ?_))
  funext a
  match a with
  | ⟨0, _⟩ =>
    apply Fin.ext
    show k0_off1 L k 0 + 1 * (x 0).val = chunkBase L k + r.val
    rw [Gen.k0_off1_eq, chunkBase_eq, hx]
    show 32768 * (L 1).val + 16384 * (L 0).val + 128 * k.val + 1 * r.val = 32768 * (L 1).val + 16384 * (L 0).val + 128 * k.val + r.val
    omega

/-- The sg table as the kernel slices it (whole) reads the table. -/
theorem sgAll_read (y : S3x128.Idx) : View.read (Elt F) (sgAll).view (m (sgLoc d)) y = m (sgLoc d) y := by
  refine (View.read_apply _ _).trans ((cast_eq _ _).trans (congrArg (m (sgLoc d)) ?_))
  funext a
  match a with
  | ⟨0, _⟩ => apply Fin.ext; show 0 + 1 * (y 0).val = (y 0).val; omega
  | ⟨1, _⟩ => apply Fin.ext; show 0 + 1 * (y 1).val = (y 1).val; omega

/-- A whole write into scratch buffer 2 leaves the payload. -/
theorem b2_writes (fj : (b2V).view.ty.Contents (Elt F)) (w : S128x128.Idx → Elt F .f32) (x : S128x128.Idx) :
    (b2V).view.writes (Elt F) fj [⟨Rect.whole _, w⟩] x = w x := by
  have he : (((b2V).view).slice (Rect.whole S128x128)).emb x = x := Rect.emb_whole_apply _ _
  refine (congrArg ((b2V).view.writes (Elt F) fj [⟨Rect.whole _, w⟩]) he.symm).trans ?_
  exact (View.write_emb_of_mem (v := (b2V).view.slice (Rect.whole S128x128)) fj w (Finset.mem_univ x)).trans (cast_eq _ _)

/-- The gather through chunk `k`'s labels of array 2: row `r`, lane `l` of the scratch buffer is the table's entry at
    the row the label of token `base + r` names, lane `l` (whatever the buffer held before). -/
theorem gathered2' (k : Fin k0_t1_loop.trips) (g0 : Buf (Elt F) ((i2V).view.loc (thr d L))) (pay : S128.Idx → Elt F .i32)
    (hpay : pay = (lab2 L k).view.read (Elt F) (X2 m d))
    (hn : S128.numel = S128x128.size gathers_S3x128_S128x128.axis')
    (hin : ∀ x, ((i2V).view.read (Elt F) (View.write (Elt F) (i2V).view g0 pay Finset.univ) x).toNat < S3x128.size gathers_S3x128_S128x128.axis)
    (w : S128x128.Idx → Elt F .f32)
    (hw : w = SparseCore.gatherPayload gathers_S3x128_S128x128 (View.read (Elt F) (sgAll).view (m (sgLoc d)))
      (SparseCore.rows (View.read (Elt F) (i2V).view (View.write (Elt F) (i2V).view g0 pay Finset.univ)) hn hin))
    (fj : (b2V).view.ty.Contents (Elt F)) (r l : Fin 128) :
    (b2V).view.writes (Elt F) fj [⟨Rect.whole _, w⟩] (ix2 r l)
      = m (sgLoc d) (ix2 (Cert.Embed.rowAt 3 (by decide) (X2 m d (ix1 ⟨chunkBase L k + r.val, chunk_row_lt L k r⟩))) l) := by
  -- the index scratch, just written whole with the labels, reads the labels
  have hidx : View.read (Elt F) (i2V).view (View.write (Elt F) (i2V).view g0 pay Finset.univ) = pay := View.read_write_univ _ _
  -- the word the list names for row `r`: the label of token `base + r`
  have hword : ∀ x : S128.Idx, (x 0).val = r.val →
      View.read (Elt F) (i2V).view (View.write (Elt F) (i2V).view g0 pay Finset.univ) x = X2 m d (ix1 ⟨chunkBase L k + r.val, chunk_row_lt L k r⟩) := by
    intro x hx
    rw [hidx, hpay]
    exact lab2_read m d L k x r hx
  refine (b2_writes fj w (ix2 r l)).trans ?_
  rw [hw]
  show View.read (Elt F) (sgAll).view (m (sgLoc d)) (gathers_S3x128_S128x128.idx
      (SparseCore.rows (View.read (Elt F) (i2V).view (View.write (Elt F) (i2V).view g0 pay Finset.univ)) hn hin) (ix2 r l)) = _
  rw [sgAll_read]
  refine congrArg (m (sgLoc d)) ?_
  -- the row-major position `r` of the list is its index `r`
  have hsymm : ((S128.rowMajor.symm ((((ix2 r l : S128x128.Idx) gathers_S3x128_S128x128.axis')).cast hn.symm)) 0).val = r.val :=
    (Shape.rowMajor_val_one (S128.rowMajor.symm _)).symm.trans (congrArg Fin.val (Equiv.apply_symm_apply S128.rowMajor _))
  funext a
  match a with
  | ⟨0, _⟩ =>
    apply Fin.ext
    refine (congrArg Fin.val (Shape.Gathers.idx_axis gathers_S3x128_S128x128 _ (ix2 r l))).trans ?_
    show (View.read (Elt F) (i2V).view (View.write (Elt F) (i2V).view g0 pay Finset.univ)
      (S128.rowMajor.symm ((((ix2 r l : S128x128.Idx) gathers_S3x128_S128x128.axis')).cast hn.symm))).toNat = _
    have hlt := hin (S128.rowMajor.symm ((((ix2 r l : S128x128.Idx) gathers_S3x128_S128x128.axis')).cast hn.symm))
    rw [hword _ hsymm] at hlt ⊢
    exact (Cert.Embed.rowAt_val _ _ hlt).symm
  | ⟨1, _⟩ =>
    apply Fin.ext
    exact Shape.Gathers.idx_of_ne gathers_S3x128_S128x128 _ (ix2 r l) ⟨1, by decide⟩ (by decide)

/-- The same over the contents a covered load is stated over. -/
theorem gathered2 [∀ e, Nonempty (Elt F e)] (k : Fin k0_t1_loop.trips) (g0 : Buf (Elt F) ((i2V).view.loc (thr d L))) (pay : S128.Idx → Elt F .i32)
    (hpay : pay = (lab2 L k).view.read (Elt F) (X2 m d))
    (hn : S128.numel = S128x128.size gathers_S3x128_S128x128.axis')
    (hin : ∀ x, ((i2V).view.read (Elt F) (View.write (Elt F) (i2V).view g0 pay Finset.univ) x).toNat < S3x128.size gathers_S3x128_S128x128.axis)
    (w : S128x128.Idx → Elt F .f32)
    (hw : w = SparseCore.gatherPayload gathers_S3x128_S128x128 (View.read (Elt F) (sgAll).view (m (sgLoc d)))
      (SparseCore.rows (View.read (Elt F) (i2V).view (View.write (Elt F) (i2V).view g0 pay Finset.univ)) hn hin))
    (r l : Fin 128) :
    (b2V).view.writes (Elt F) (b2V).view.junk [⟨Rect.whole _, w⟩] (ix2 r l)
      = m (sgLoc d) (ix2 (Cert.Embed.rowAt 3 (by decide) (X2 m d (ix1 ⟨chunkBase L k + r.val, chunk_row_lt L k r⟩))) l) :=
  gathered2' m d L k g0 pay hpay hn hin w hw _ r l

/-! ## One chunk's rows written -/

/-- After chunk `k`'s rows are written with the specification's entries, every row of the tile below `base + 128` holds
    them, if every row below `base` did: the rows below `base` are off the chunk and keep their contents; a row of the
    chunk is written with the scratch buffer's row at the same offset. -/
theorem out_step (k : Fin k0_t1_loop.trips) (fo : Buf (Elt F) (oLoc d))
    (hfo : ∀ j : S524288x128.Idx, j ∈ tileRows d (cL L) (sL L) → (j 0).val < tileBase (cL L) (sL L) + 128 * k.val → fo j = OUT m d j)
    (ft : Buf (Elt F) ((b0V).view.loc (thr d L)))
    (hft : ∀ (r l : Fin 128), ft (ix2 r l) = OUT m d (ix2 ⟨chunkBase L k + r.val, chunk_row_lt L k r⟩ l))
    (W : S128x128.Idx → Elt F .f32) (hW : W = (b0V).view.read (Elt F) ft) :
    ∀ j : S524288x128.Idx, j ∈ tileRows d (cL L) (sL L) → (j 0).val < tileBase (cL L) (sL L) + 128 * (k.val + 1) →
      (outChunk L k).view.writes (Elt F) fo [⟨Rect.whole S128x128, W⟩] j = OUT m d j := by
  intro j hj hlt
  by_cases hlo : (j 0).val < chunkBase L k
  · -- a row below the chunk
    have hn : j ∉ (outChunk L k).view.set := by
      rw [mem_outChunk]; omega
    rw [← out_off d L k fo W j (Finset.mem_sdiff.2 ⟨hj, hn⟩)]
    exact hfo j hj hlo
  · -- a row of the chunk: row `(j 0) - base` of the scratch buffer
    have hhi : (j 0).val < chunkBase L k + 128 := by unfold chunkBase; omega
    have hl : (j 1).val < 128 := (j 1).isLt
    have hr : (j 0).val - chunkBase L k < 128 := by omega
    have hy : ((outChunk L k).view.slice (Rect.whole S128x128)).emb (ix2 ⟨(j 0).val - chunkBase L k, hr⟩ ⟨(j 1).val, hl⟩) = j := by
      funext a
      match a with
      | ⟨0, _⟩ =>
        apply Fin.ext
        show k0_off10 L k 0 + 1 * (0 + 1 * ((j 0).val - chunkBase L k)) = (j 0).val
        rw [Gen.k0_off10_eq, ← chunkBase_eq]
        show chunkBase L k + 1 * (0 + 1 * ((j 0).val - chunkBase L k)) = (j 0).val
        omega
      | ⟨1, _⟩ =>
        apply Fin.ext
        show k0_off10 L k 1 + 1 * (0 + 1 * (j 1).val) = (j 1).val
        rw [Gen.k0_off10_eq]
        show 0 + 1 * (0 + 1 * (j 1).val) = (j 1).val
        omega
    refine (congrArg ((outChunk L k).view.writes (Elt F) fo [⟨Rect.whole S128x128, W⟩]) hy.symm).trans ?_
    refine (View.write_emb_of_mem (v := (outChunk L k).view.slice (Rect.whole S128x128)) fo W (Finset.mem_univ _)).trans ((cast_eq _ _).trans ?_)
    rw [hW]
    show ft (ix2 ⟨(j 0).val - chunkBase L k, hr⟩ ⟨(j 1).val, hl⟩) = _
    rw [hft]
    refine congrArg (OUT m d) ?_
    funext a
    match a with
    | ⟨0, _⟩ => apply Fin.ext; show chunkBase L k + ((j 0).val - chunkBase L k) = (j 0).val; omega
    | ⟨1, _⟩ => rfl

end Cert.Proof.KernelIdealRun

end
-- ==== Proof.TileBody.lean ====
/-
  One tile's task, run once at a symbolic tile: the launch theorem's obligation for the kernel's one call.

  A tile loops over its 128 chunks of 128 tokens. In chunk `k` it copies the chunk's flattened labels of the three label
  arrays into its index scratches, gathers the rows they name from the three tables into its three row scratches
  (the labels name rows because the precondition bounds them: `hin0`, `hin1`, `hin2`), adds the second and third
  scratch into the first row by row (a loop over the 128 rows, `invI`: rows below `r` hold the sum, the others the
  first table's gathered row), and copies the first scratch out to the chunk's 128 token rows of the result. The
  chunk loop's invariant `invO` says the tile's rows of the result agree with the sum of rows `OUT` on the chunks
  already written; a chunk's copy writes exactly its own 128 rows, with the sums, and leaves the others
  (`out_step`, `out_off`). After the last chunk the tile's rows are `OUT` throughout. The tile only reads the six
  input arrays, at its read share, and gives them back as it got them.
-/
import proofs.«203542_g13958643712200_cont_week2b_591_2_alg».proof.Proof.TileDefs
import proofs.«203542_g13958643712200_cont_week2b_591_2_alg».proof.Proof.RowTrip
import proofs.«203542_g13958643712200_cont_week2b_591_2_alg».proof.Proof.Launch1
import proofs.«203542_g13958643712200_cont_week2b_591_2_alg».proof.Proof.ChunkData

noncomputable section

namespace Cert.Proof.KernelIdealRun

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

local notation "f0V" => (Memref.whole Cert.KernelIdeal.main_v0_scv : Memref Cert.KernelIdeal.sig Kind.scVector Space.hbm Cert.KernelIdeal.S524288 EltTy.i32)
local notation "f1V" => (Memref.whole Cert.KernelIdeal.main_v1_scv : Memref Cert.KernelIdeal.sig Kind.scVector Space.hbm Cert.KernelIdeal.S524288 EltTy.i32)
local notation "f2V" => (Memref.whole Cert.KernelIdeal.main_v2_scv : Memref Cert.KernelIdeal.sig Kind.scVector Space.hbm Cert.KernelIdeal.S524288 EltTy.i32)
local notation "tkV" => (Memref.whole Cert.KernelIdeal.main_arg3_scv : Memref Cert.KernelIdeal.sig Kind.scVector Space.hbm Cert.KernelIdeal.S100000x128 EltTy.f32)
local notation "psV" => (Memref.whole Cert.KernelIdeal.main_arg4_scv : Memref Cert.KernelIdeal.sig Kind.scVector Space.hbm Cert.KernelIdeal.S512x128 EltTy.f32)
local notation "sgV" => (Memref.whole Cert.KernelIdeal.main_arg5_scv : Memref Cert.KernelIdeal.sig Kind.scVector Space.hbm Cert.KernelIdeal.S3x128 EltTy.f32)
local notation "oV" => (Memref.whole Cert.KernelIdeal.main_v3_scv : Memref Cert.KernelIdeal.sig Kind.scVector Space.hbm Cert.KernelIdeal.S524288x128 EltTy.f32)
local notation "i0V" => (Memref.whole Cert.KernelIdeal.cc0_scratch0 : Memref Cert.KernelIdeal.sig Kind.scVector Space.vmem Cert.KernelIdeal.S128 EltTy.i32)
local notation "i1V" => (Memref.whole Cert.KernelIdeal.cc0_scratch1 : Memref Cert.KernelIdeal.sig Kind.scVector Space.vmem Cert.KernelIdeal.S128 EltTy.i32)
local notation "i2V" => (Memref.whole Cert.KernelIdeal.cc0_scratch2 : Memref Cert.KernelIdeal.sig Kind.scVector Space.vmem Cert.KernelIdeal.S128 EltTy.i32)
local notation "b0V" => (Memref.whole Cert.KernelIdeal.cc0_scratch3 : Memref Cert.KernelIdeal.sig Kind.scVector Space.vmem Cert.KernelIdeal.S128x128 EltTy.f32)
local notation "b1V" => (Memref.whole Cert.KernelIdeal.cc0_scratch4 : Memref Cert.KernelIdeal.sig Kind.scVector Space.vmem Cert.KernelIdeal.S128x128 EltTy.f32)
local notation "b2V" => (Memref.whole Cert.KernelIdeal.cc0_scratch5 : Memref Cert.KernelIdeal.sig Kind.scVector Space.vmem Cert.KernelIdeal.S128x128 EltTy.f32)

variable [FloatOps F] [∀ e, Nonempty (Elt F e)]

section Tile

variable (d : Dev nD) (L : grid0.Coords)

/-- Labels in range: what the certificate's precondition gives of the launch memory (every device). -/
def PreOK : Prop := ∀ d : Dev nD, Cert.Embed.InRange (m (a0Loc d)) (m (a1Loc d)) (m (a2Loc d))

omit [FloatOps F] [∀ e, Nonempty (Elt F e)] in
theorem X0_lt (hpre : PreOK m) (j : S524288.Idx) : (X0 m d j).toNat < 100000 := by
  unfold X0 shapeCast; exact (hpre d).1 _
omit [FloatOps F] [∀ e, Nonempty (Elt F e)] in
theorem X1_lt (hpre : PreOK m) (j : S524288.Idx) : (X1 m d j).toNat < 512 := by
  unfold X1 shapeCast; exact (hpre d).2.1 _
omit [FloatOps F] [∀ e, Nonempty (Elt F e)] in
theorem X2_lt (hpre : PreOK m) (j : S524288.Idx) : (X2 m d j).toNat < 3 := by
  unfold X2 shapeCast; exact (hpre d).2.2 _

omit [FloatOps F] [∀ e, Nonempty (Elt F e)] in
/-- What a chunk's label fetch lands in its index scratch names rows of the token table. -/
theorem hin0 (hpre : PreOK m) (k : Fin k0_t1_loop.trips) (g0 : Buf (Elt F) ((i0V).view.loc (thr d L))) (pay : S128.Idx → Elt F .i32)
    (hpay : pay = (lab0 L k).view.read (Elt F) (X0 m d)) :
    ∀ x, ((i0V).view.read (Elt F) (View.write (Elt F) (i0V).view g0 pay Finset.univ) x).toNat < S100000x128.size gathers_S100000x128_S128x128.axis := by
  subst hpay; intro x
  rw [View.write_whole_univ]
  simp only [Memref.view_whole, View.read_whole]
  rw [show ∀ j, (lab0 L k).view.read (Elt F) (X0 m d) j = X0 m d ((lab0 L k).view.emb j) from fun j => (View.read_apply _ _).trans (cast_eq _ _)]
  exact X0_lt m d hpre _
omit [FloatOps F] [∀ e, Nonempty (Elt F e)] in
theorem hin1 (hpre : PreOK m) (k : Fin k0_t1_loop.trips) (g0 : Buf (Elt F) ((i1V).view.loc (thr d L))) (pay : S128.Idx → Elt F .i32)
    (hpay : pay = (lab1 L k).view.read (Elt F) (X1 m d)) :
    ∀ x, ((i1V).view.read (Elt F) (View.write (Elt F) (i1V).view g0 pay Finset.univ) x).toNat < S512x128.size gathers_S512x128_S128x128.axis := by
  subst hpay; intro x
  rw [View.write_whole_univ]
  simp only [Memref.view_whole, View.read_whole]
  rw [show ∀ j, (lab1 L k).view.read (Elt F) (X1 m d) j = X1 m d ((lab1 L k).view.emb j) from fun j => (View.read_apply _ _).trans (cast_eq _ _)]
  exact X1_lt m d hpre _
omit [FloatOps F] [∀ e, Nonempty (Elt F e)] in
theorem hin2 (hpre : PreOK m) (k : Fin k0_t1_loop.trips) (g0 : Buf (Elt F) ((i2V).view.loc (thr d L))) (pay : S128.Idx → Elt F .i32)
    (hpay : pay = (lab2 L k).view.read (Elt F) (X2 m d)) :
    ∀ x, ((i2V).view.read (Elt F) (View.write (Elt F) (i2V).view g0 pay Finset.univ) x).toNat < S3x128.size gathers_S3x128_S128x128.axis := by
  subst hpay; intro x
  rw [View.write_whole_univ]
  simp only [Memref.view_whole, View.read_whole]
  rw [show ∀ j, (lab2 L k).view.read (Elt F) (X2 m d) j = X2 m d ((lab2 L k).view.emb j) from fun j => (View.read_apply _ _).trans (cast_eq _ _)]
  exact X2_lt m d hpre _

/-- Before chunk `k` of a tile's task: the six arrays it reads at its read share; its rows of the result at some
    contents that agree with `OUT` on the rows of the chunks already written; its scratch buffers at some
    contents; its seven semaphores at zero; what it owes, with only waits at index none recorded since the start. -/
def invO (O : CellTallies nD τ sig (HIx 1)) (W : Waits sig (HIx 1)) (k : Nat) (_ : BitVec 32) : sProp 𝕄 :=
  iprop(Transfers.MayWaits (thr d L) (default : HIx 1) O
    ∗ ((f0V).view.loc (thr d L) ↦{shT (cL L) (sL L)} X0 m d)
    ∗ ((f1V).view.loc (thr d L) ↦{shT (cL L) (sL L)} X1 m d)
    ∗ ((f2V).view.loc (thr d L) ↦{shT (cL L) (sL L)} X2 m d)
    ∗ ((tkV).view.loc (thr d L) ↦{shT (cL L) (sL L)} m (tkLoc d))
    ∗ ((psV).view.loc (thr d L) ↦{shT (cL L) (sL L)} m (psLoc d))
    ∗ ((sgV).view.loc (thr d L) ↦{shT (cL L) (sL L)} m (sgLoc d))
    ∗ (∃ f : Buf (Elt F) (oLoc d), ⌜∀ j : S524288x128.Idx, j ∈ tileRows d (cL L) (sL L) → (j 0).val < tileBase (cL L) (sL L) + 128 * k → f j = OUT m d j⌝
        ∗ ((oV).view.loc (thr d L) ↦[tileRows d (cL L) (sL L)]{fullShare} f))
    ∗ (∃ g, (i0V).view.loc (thr d L) ↦{fullShare} g) ∗ (∃ g, (i1V).view.loc (thr d L) ↦{fullShare} g) ∗ (∃ g, (i2V).view.loc (thr d L) ↦{fullShare} g)
    ∗ (∃ g, (b0V).view.loc (thr d L) ↦{fullShare} g) ∗ (∃ g, (b1V).view.loc (thr d L) ↦{fullShare} g) ∗ (∃ g, (b2V).view.loc (thr d L) ↦{fullShare} g)
    ∗ semVal (cell d L cc0_scratch6) 0 ∗ semVal (cell d L cc0_scratch7) 0 ∗ semVal (cell d L cc0_scratch8) 0
    ∗ semVal (cell d L cc0_scoped0) 0 ∗ semVal (cell d L cc0_scoped1) 0 ∗ semVal (cell d L cc0_scoped2) 0 ∗ semVal (cell d L cc0_scoped3) 0
    ∗ ∃ W', ⌜∀ p ∈ W', p ∈ W ∨ p.2 = none⌝ ∗ owes (thr d L) O W')

/-- Before row `r` of a chunk's row loop: the sum scratch holds, in the rows already done, the sum of the three
    gathered rows, and in the others the first table's gathered row (`A0`, its contents at the loop's entry); the
    other two scratches are as gathered. -/
def invI (A0 : Buf (Elt F) ((b0V).view.loc (thr d L))) (B : Buf (Elt F) ((b1V).view.loc (thr d L))) (C : Buf (Elt F) ((b2V).view.loc (thr d L)))
    (r : Nat) (_ : BitVec 32) : sProp 𝕄 :=
  iprop((∃ ft : Buf (Elt F) ((b0V).view.loc (thr d L)),
      ⌜∀ (r' l : Fin 128), ft (ValueIdx.ix2 r' l) = if r'.val < r
          then FloatOps.addf (FloatOps.addf (A0 (ValueIdx.ix2 r' l)) (B (ValueIdx.ix2 r' l))) (C (ValueIdx.ix2 r' l)) else A0 (ValueIdx.ix2 r' l)⌝
      ∗ ((b0V).view.loc (thr d L) ↦{fullShare} ft))
    ∗ ((b1V).view.loc (thr d L) ↦{fullShare} B) ∗ ((b2V).view.loc (thr d L) ↦{fullShare} C))

/-- One row trip takes the row loop's invariant from `r` to `r + 1`. -/
theorem row_post (r : Fin k0_t2_loop.trips) (A0 : Buf (Elt F) ((b0V).view.loc (thr d L))) (B : Buf (Elt F) ((b1V).view.loc (thr d L)))
    (C : Buf (Elt F) ((b2V).view.loc (thr d L))) (ft : Buf (Elt F) ((b0V).view.loc (thr d L)))
    (hft : ∀ (r' l : Fin 128), ft (ValueIdx.ix2 r' l) = if r'.val < r.val
          then FloatOps.addf (FloatOps.addf (A0 (ValueIdx.ix2 r' l)) (B (ValueIdx.ix2 r' l))) (C (ValueIdx.ix2 r' l)) else A0 (ValueIdx.ix2 r' l))
    (a : BitVec 32) :
    iprop((∃ ft' : Buf (Elt F) ((b0V).view.loc (thr d L)),
              ⌜∀ (r' l : Fin 128), ft' (ValueIdx.ix2 r' l) = if r'.val = r.val
                  then FloatOps.addf (FloatOps.addf (ft (ValueIdx.ix2 r' l)) (B (ValueIdx.ix2 r' l))) (C (ValueIdx.ix2 r' l)) else ft (ValueIdx.ix2 r' l)⌝
              ∗ ((b0V).view.loc (thr d L) ↦{fullShare} ft'))
            ∗ ((b1V).view.loc (thr d L) ↦{fullShare} B) ∗ ((b2V).view.loc (thr d L) ↦{fullShare} C))
      ⊢ (invI d L A0 B C (r.val + 1) a : sProp 𝕄) := by
  unfold invI
  iintro ⟨⟨%ft', %hft', Hb0⟩, Hb1, Hb2⟩
  isplitl [Hb0]
  · iexists ft'; isplitr
    · ipureintro; intro r' l
      rw [hft' r' l]
      by_cases h1 : r'.val = r.val
      · rw [if_pos h1, if_pos (by omega), hft r' l, if_neg (by omega)]
      · rw [if_neg h1, hft r' l]
        by_cases h2 : r'.val < r.val
        · rw [if_pos h2, if_pos (by omega)]
        · rw [if_neg h2, if_neg (by omega)]
    · iexact Hb0
  isplitl [Hb1] <;> iassumption

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ goT m d (cL L) (sL L)
        ∗ scopedBufs (thr d L) ∗ scopedSems0 (thr d L) ∗ owes (thr d L) O W)
      ⊢ wp frame (wpE (defs₀ (F := F)) 𝒱₀ (thr d L) none) Set.univ
          (cc0__body L f0V (Memref.isWhole_whole _) f1V (Memref.isWhole_whole _) f2V (Memref.isWhole_whole _)
            tkV (Memref.isWhole_whole _) psV (Memref.isWhole_whole _) sgV (Memref.isWhole_whole _) oV (Memref.isWhole_whole _)
            i0V (Memref.isWhole_whole _) i1V (Memref.isWhole_whole _) i2V (Memref.isWhole_whole _)
            b0V (Memref.isWhole_whole _) b1V (Memref.isWhole_whole _) b2V (Memref.isWhole_whole _)
            cc0_scratch6 cc0_scratch7 cc0_scratch8 cc0_scoped0 cc0_scoped1 cc0_scoped2 cc0_scoped3)
          fun _ => iprop(tdT m d (cL L) (sL L)
            ∗ scopedBufs (thr d L) ∗ scopedSems0 (thr d L)
            ∗ ∃ W', ⌜∀ p ∈ W', p ∈ W ∨ p.2 = none⌝ ∗ owes (thr d L) O W') := by
  simp only [cc0__body_eq_skeleton]; unfold cc0__body_skel
  rw [(K (F := F)).scopedBufs_V hF d (cV L) (jV L), SparseCore.Cfg.scopedSems0_V (Val := Elt F) d (cV L) (jV L), ownSems0_V, ownBufs_V]
  unfold goT ins
  iintro ⟨#Hlv, -, ⟨⟨Hf0, Hf1, Hf2, Htk, Hps, Hsg⟩, Ho⟩, ⟨⟨%g0, Hi0⟩, ⟨%g1, Hi1⟩, ⟨%g2, Hi2⟩, ⟨%h0, Hb0⟩, ⟨%h1, Hb1⟩, ⟨%h2, Hb2⟩, Hbufs⟩,
    ⟨Hs6, Hs7, Hs8, Hc0, Hc1, Hc2, Hc3, Hsems⟩, HO⟩
  ihave Hmw := (show levAts (K (F := F)).L (K (F := F)).lev ⊢ Transfers.MayWaits (thr d L) (default : HIx 1) O from
    (K (F := F)).mayWaits_none (thr := thr d L) hO) $$ Hlv
  sl_exec

  sl_for (invO m d L O W) $$ [Hmw Hf0 Hf1 Hf2 Htk Hps Hsg Ho Hi0 Hi1 Hi2 Hb0 Hb1 Hb2 Hs6 Hs7 Hs8 Hc0 Hc1 Hc2 Hc3 HO]
  case region =>
    intro k acc
    unfold invO
    iintro ⟨#Hmw, Hf0, Hf1, Hf2, Htk, Hps, Hsg, ⟨%fo, %hfo, Ho⟩, ⟨%g0, Hi0⟩, ⟨%g1, Hi1⟩, ⟨%g2, Hi2⟩, ⟨%h0, Hb0⟩, ⟨%h1, Hb1⟩, ⟨%h2, Hb2⟩,
      Hs6, Hs7, Hs8, Hc0, Hc1, Hc2, Hc3, %W', %hW', HO⟩
    sl_exec

    have hin0' := hin0 m d L hpre k g0 (tile_body.sl.dma0 m d L k) rfl
    have hin1' := hin1 m d L hpre k g1 (tile_body.sl.dma0_1 m d L k) rfl
    have hin2' := hin2 m d L hpre k g2 (tile_body.sl.dma0_2 m d L k) rfl
    sl_exec
    sl_for (invI d L ((b0V).view.writes (Elt F) (b0V).view.junk [⟨Rect.whole _, tile_body.sl.gather0 m d L k g0 hin0'⟩])
        ((b1V).view.writes (Elt F) (b1V).view.junk [⟨Rect.whole _, tile_body.sl.gather1 m d L k g1 hin1'⟩])
        ((b2V).view.writes (Elt F) (b2V).view.junk [⟨Rect.whole _, tile_body.sl.gather2 m d L k g2 hin2'⟩])) $$ [Hb0 Hb1 Hb2]
    case region =>
      intro r acc2
      unfold invI
      iintro ⟨⟨%ft, %hft, Hb0⟩, Hb1, Hb2⟩
      iapply ((row_trip d L k r acc2 (tile_body.sl.v2 L) ft _ _).trans (wp_mono frame _ _ (row_post d L r _ _ _ ft hft))) $$ [Hb0 Hb1 Hb2]
      isplitl [Hb0]; · iexact Hb0
      isplitl [Hb1] <;> iassumption
    · unfold invI
      isplitl [Hb0]
      · iexists ((b0V).view.writes (Elt F) (b0V).view.junk [⟨Rect.whole _, tile_body.sl.gather0 m d L k g0 hin0'⟩]); isplitr
        · ipureintro; intro r' l; rw [if_neg (by omega)]
        · iexact Hb0
      isplitl [Hb1] <;> iassumption
    iintro %acc3 HI
    unfold invI
    icases HI with ⟨⟨%ft, %hft, Hb0⟩, Hb1, Hb2⟩
    ihave Ho2 := (pointsTo_split_subset (q := fullShare) (f := fo) (chunk_sub d L k)).1 $$ Ho
    icases Ho2 with ⟨Hoc, Hor⟩
    ihave Hoc' := (Entails.of_eq (show ((oV).view.loc (thr d L) ↦[(outChunk L k).view.set]{fullShare} fo : sProp 𝕄)
        = (outChunk L k).view.loc (thr d L) ↦[(outChunk L k).view.set]{fullShare} fo from rfl)) $$ Hoc
    sl_exec
    have htr : k0_t2_loop.trips = 128 := by decide
    have hft' : ∀ (r l : Fin 128), ft (ix2 r l) = OUT m d (ix2 ⟨chunkBase L k + r.val, chunk_row_lt L k r⟩ l) := by
      intro r l
      have e0 := gathered0 m d L k g0 (tile_body.sl.dma0 m d L k) rfl rfl hin0' (tile_body.sl.gather0 m d L k g0 hin0') rfl r l
      have e1 := gathered1 m d L k g1 (tile_body.sl.dma0_1 m d L k) rfl rfl hin1' (tile_body.sl.gather1 m d L k g1 hin1') rfl r l
      have e2 := gathered2 m d L k g2 (tile_body.sl.dma0_2 m d L k) rfl rfl hin2' (tile_body.sl.gather2 m d L k g2 hin2') rfl r l
      rw [hft r l, if_pos (show r.val < k0_t2_loop.trips by rw [htr]; exact r.isLt), e0, e1, e2]
      exact sum_is_OUT m d L k r l
    ihave Hoc2 := (Entails.of_eq (show ((outChunk L k).view.loc (thr d L) ↦[(outChunk L k).view.set]{fullShare}
          (outChunk L k).view.writes (Elt F) fo [⟨Rect.whole S128x128, tile_body.sl.dma0_3 d L ft⟩] : sProp 𝕄)
        = oLoc d ↦[(outChunk L k).view.set]{fullShare} (outChunk L k).view.writes (Elt F) fo [⟨Rect.whole S128x128, tile_body.sl.dma0_3 d L ft⟩] from rfl)) $$ Hoc'
    ihave Hor2 := (Entails.of_eq (pointsTo_congr (out_off d L k fo (tile_body.sl.dma0_3 d L ft)))) $$ Hor
    ihave Ho := (pointsTo_split_subset (ℓ := oLoc d) (q := fullShare)
        (f := (outChunk L k).view.writes (Elt F) fo [⟨Rect.whole S128x128, tile_body.sl.dma0_3 d L ft⟩]) (chunk_sub d L k)).2 $$ [Hoc2 Hor2]
    · isplitl [Hoc2] <;> iassumption
    sl_step
    isplitr; · iexact Hmw
    isplitl [Hf0]; · iexact Hf0
    isplitl [Hf1]; · iexact Hf1
    isplitl [Hf2]; · iexact Hf2
    isplitl [Htk]; · iexact Htk
    isplitl [Hps]; · iexact Hps
    isplitl [Hsg]; · iexact Hsg
    isplitl [Ho]
    · iexists ((outChunk L k).view.writes (Elt F) fo [⟨Rect.whole S128x128, tile_body.sl.dma0_3 d L ft⟩]); isplitr
      · ipureintro; exact out_step m d L k fo hfo ft hft' _ rfl
      · iexact Ho
    isplitl [Hi0]; · iexists _; iexact Hi0
    isplitl [Hi1]; · iexists _; iexact Hi1
    isplitl [Hi2]; · iexists _; iexact Hi2
    isplitl [Hb0]; · iexists _; iexact Hb0
    isplitl [Hb1]; · iexists _; iexact Hb1
    isplitl [Hb2]; · iexists _; iexact Hb2
    isplitl [Hs6]; · iexact Hs6
    isplitl [Hs7]; · iexact Hs7
    isplitl [Hs8]; · iexact Hs8
    isplitl [Hc0]; · iexact Hc0
    isplitl [Hc1]; · iexact Hc1
    isplitl [Hc2]; · iexact Hc2
    isplitl [Hc3]; · iexact Hc3
    iexists _; isplitr
    on_goal 2 => iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · unfold invO
    isplitr; · iexact Hmw
    isplitl [Hf0]; · iexact Hf0
    isplitl [Hf1]; · iexact Hf1
    isplitl [Hf2]; · iexact Hf2
    isplitl [Htk]; · iexact Htk
    isplitl [Hps]; · iexact Hps
    isplitl [Hsg]; · iexact Hsg
    isplitl [Ho]
    · iexists (m (oLoc d)); isplitr
      · ipureintro; intro j hj hlt
        have := (mem_tileRows d (cL L) (sL L) j).mp hj
        unfold tileBase at hlt
        omega
      · iexact Ho
    isplitl [Hi0]; · iexists _; iexact Hi0
    isplitl [Hi1]; · iexists _; iexact Hi1
    isplitl [Hi2]; · iexists _; iexact Hi2
    isplitl [Hb0]; · iexists _; iexact Hb0
    isplitl [Hb1]; · iexists _; iexact Hb1
    isplitl [Hb2]; · iexists _; iexact Hb2
    isplitl [Hs6]; · iexact Hs6
    isplitl [Hs7]; · iexact Hs7
    isplitl [Hs8]; · iexact Hs8
    isplitl [Hc0]; · iexact Hc0
    isplitl [Hc1]; · iexact Hc1
    isplitl [Hc2]; · iexact Hc2
    isplitl [Hc3]; · iexact Hc3
    iexists W; isplitr
    · ipureintro; exact fun p hp => .inl hp
    · iexact HO
  iintro %accF HI
  unfold invO
  icases HI with ⟨-, Hf0, Hf1, Hf2, Htk, Hps, Hsg, ⟨%fo, %hfo, Ho⟩, ⟨%g0, Hi0⟩, ⟨%g1, Hi1⟩, ⟨%g2, Hi2⟩, ⟨%h0, Hb0⟩, ⟨%h1, Hb1⟩, ⟨%h2, Hb2⟩,
      Hs6, Hs7, Hs8, Hc0, Hc1, Hc2, Hc3, %W', %hW', HO⟩
  sl_exec
  sl_step
  have htr1 : k0_t1_loop.trips = 128 := by decide
  unfold tdT ins
  isplitl [Hf0 Hf1 Hf2 Htk Hps Hsg Ho]
  · isplitl [Hf0 Hf1 Hf2 Htk Hps Hsg]
    · isplitl [Hf0]; · iexact Hf0
      isplitl [Hf1]; · iexact Hf1
      isplitl [Hf2]; · iexact Hf2
      isplitl [Htk]; · iexact Htk
      isplitl [Hps]; · iexact Hps
      iexact Hsg
    · iapply (Entails.of_eq (pointsTo_congr (fun j hj => hfo j hj (by
        have := (mem_tileRows d (cL L) (sL L) j).mp hj
        show (j 0).val < tileBase (cL L) (sL L) + 128 * k0_t1_loop.trips
        rw [htr1]; unfold tileBase; omega))))
      iexact Ho
  isplitl [Hi0 Hi1 Hi2 Hb0 Hb1 Hb2 Hbufs]
  · isplitl [Hi0]; · iexists _; iexact Hi0
    isplitl [Hi1]; · iexists _; iexact Hi1
    isplitl [Hi2]; · iexists _; iexact Hi2
    isplitl [Hb0]; · iexists _; iexact Hb0
    isplitl [Hb1]; · iexists _; iexact Hb1
    isplitl [Hb2]; · iexists _; iexact Hb2
    iexact Hbufs
  isplitl [Hs6 Hs7 Hs8 Hc0 Hc1 Hc2 Hc3 Hsems]
  · isplitl [Hs6]; · iexact Hs6
    isplitl [Hs7]; · iexact Hs7
    isplitl [Hs8]; · iexact Hs8
    isplitl [Hc0]; · iexact Hc0
    isplitl [Hc1]; · iexact Hc1
    isplitl [Hc2]; · iexact Hc2
    isplitl [Hc3]; · iexact Hc3
    iexact Hsems
  iexists W'; isplitr
  · ipureintro; exact hW'
  · iexact HO

end Tile

/-! ## The launch theorem's obligation for the one vector-subcore call -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
            f0V (Memref.isWhole_whole _) f1V (Memref.isWhole_whole _) f2V (Memref.isWhole_whole _)
            tkV (Memref.isWhole_whole _) psV (Memref.isWhole_whole _) sgV (Memref.isWhole_whole _) oV (Memref.isWhole_whole _)
            i0V (Memref.isWhole_whole _) i1V (Memref.isWhole_whole _) i2V (Memref.isWhole_whole _)
            b0V (Memref.isWhole_whole _) b1V (Memref.isWhole_whole _) b2V (Memref.isWhole_whole _)
            cc0_scratch6 cc0_scratch7 cc0_scratch8 cc0_scoped0 cc0_scoped1 cc0_scoped2 cc0_scoped3) ⟨⟩ c s := rfl

omit [FloatOps F] [∀ e, Nonempty (Elt F e)] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task meets the launch theorem's obligation: from its read shares and its rows of the result to
    the same shares and its rows at the sum of the three looked-up rows. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.KernelIdealRun

end
-- ==== Proof.Launch.lean ====
/-
  The launch side of the kernel's run, second part: the launch element of the ghost state, @main on the TensorCore,
  how the final memory reads the claim, and the run of the whole program from one tile's obligation.

  @main reshapes the three label arrays to [524288] (a reshape writes its result array and leaves its operand), calls
  the kernel, and reshapes the kernel's [524288, 128] result to [1024, 512, 128]. At the call the TensorCore splits the
  full share of each of the six arrays the tiles read into a remainder, which it keeps, and one read token per
  SparseCore; and the result array into the two SparseCores' rows. What comes back are the tokens and the rows at the
  sums; rejoined, the six arrays are whole again as they were and the result array is whole at the sums.
-/
import proofs.«203542_g13958643712200_cont_week2b_591_2_alg».proof.Proof.Launch1

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch element: the handshakes' rounds; nothing of the kernel's own -/

def u₀ : UU := (initOf (K (F := F)).hsCells (K (F := F)).hsToks, 1)

omit m [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev ra0 : DevRef τ sig := Proc.devRef .tc (main_arg0 : Ref sig .tc)
abbrev ra1 : DevRef τ sig := Proc.devRef .tc (main_arg1 : Ref sig .tc)
abbrev ra2 : DevRef τ sig := Proc.devRef .tc (main_arg2 : Ref sig .tc)
abbrev rf0 : DevRef τ sig := Proc.devRef .tc (main_v0 : Ref sig .tc)
abbrev rf1 : DevRef τ sig := Proc.devRef .tc (main_v1 : Ref sig .tc)
abbrev rf2 : DevRef τ sig := Proc.devRef .tc (main_v2 : Ref sig .tc)
abbrev ro : DevRef τ sig := Proc.devRef .tc (main_v3 : Ref sig .tc)
abbrev rr : DevRef τ sig := Proc.devRef .tc (main_v4 : Ref sig .tc)

/-- The four reshapes of @main. -/
abbrev op0 : HloOp τ sig (Elt F) := StableHlo.reshape main_arg0 main_v0 rfl Gen.shapeCasts_S1024x512_S524288
abbrev op1 : HloOp τ sig (Elt F) := StableHlo.reshape main_arg1 main_v1 rfl Gen.shapeCasts_S1024x512_S524288
abbrev op2 : HloOp τ sig (Elt F) := StableHlo.reshape main_arg2 main_v2 rfl Gen.shapeCasts_S1024x512_S524288
abbrev op4 : HloOp τ sig (Elt F) := StableHlo.reshape main_v3 main_v4 rfl Gen.shapeCasts_S524288x128_S1024x512x128

/-- The program's result: the kernel's, reshaped to [1024, 512, 128]. -/
def RES (d : Dev nD) : Buf (Elt F) (rLoc d) := shapeCast S1024x512x128 (OUT m d) Gen.shapeCasts_S524288x128_S1024x512x128

omit m [FloatOps F] in
/-- The TensorCore's eleven arrays, all unscoped. -/
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (tkLoc d ↦{fullShare} W main_arg3) ∗ (psLoc d ↦{fullShare} W main_arg4) ∗ (sgLoc d ↦{fullShare} W main_arg5)
      ∗ (f0Loc d ↦{fullShare} W main_v0) ∗ (f1Loc d ↦{fullShare} W main_v1) ∗ (f2Loc d ↦{fullShare} W main_v2)
      ∗ (oLoc d ↦{fullShare} W main_v3) ∗ (rLoc d ↦{fullShare} W main_v4)) := by
  unfold unscopedBufs
  rw [show (Finset.univ.filter fun b : Ref sig .tc => ¬ b.isScoped)
      = {main_arg0, main_arg1, main_arg2, main_arg3, main_arg4, main_arg5, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation; before the last reshape, the kernel's result array at the sums. -/
def V0 (d : Dev nD) : Valuation τ sig (Elt F) := fun b => m (d, b)
def V4 (d : Dev nD) : Valuation τ sig (Elt F) := Function.update (V0 m d) ro (OUT m d)

omit m [FloatOps F] in
/-- Two arrays held whole. -/
theorem held_pair (d : Dev nD) (x y : DevRef τ sig) (h : x ≠ y) (W : Valuation τ sig (Elt F)) :
    (held (T d) {x, y} W : sProp 𝕄) = iprop(((d, x) ↦{fullShare} W x) ∗ ((d, y) ↦{fullShare} W y)) := by
  unfold held
  rw [SparseCore.bigSep_insert' (by rw [Finset.mem_singleton]; exact h), bigSep_singleton]

omit [FloatOps F] in
theorem res0 (d : Dev nD) : (op0 (F := F)).result (V0 m d) rf0 = X0 m d :=
  StableHlo.reshape_result main_arg0 main_v0 rfl _ _ _ (V0 m d)
omit [FloatOps F] in
theorem res1 (d : Dev nD) : (op1 (F := F)).result (V0 m d) rf1 = X1 m d :=
  StableHlo.reshape_result main_arg1 main_v1 rfl _ _ _ (V0 m d)
omit [FloatOps F] in
theorem res2 (d : Dev nD) : (op2 (F := F)).result (V0 m d) rf2 = X2 m d :=
  StableHlo.reshape_result main_arg2 main_v2 rfl _ _ _ (V0 m d)
omit [FloatOps F] in
theorem res0_ne (d : Dev nD) : (op0 (F := F)).result (V0 m d) ra0 = m (a0Loc d) :=
  StableHlo.reshape_result_ne main_arg0 main_v0 rfl _ _ _ (V0 m d) (r := main_arg0) (by decide)
omit [FloatOps F] in
theorem res1_ne (d : Dev nD) : (op1 (F := F)).result (V0 m d) ra1 = m (a1Loc d) :=
  StableHlo.reshape_result_ne main_arg1 main_v1 rfl _ _ _ (V0 m d) (r := main_arg1) (by decide)
omit [FloatOps F] in
theorem res2_ne (d : Dev nD) : (op2 (F := F)).result (V0 m d) ra2 = m (a2Loc d) :=
  StableHlo.reshape_result_ne main_arg2 main_v2 rfl _ _ _ (V0 m d) (r := main_arg2) (by decide)

theorem V4_o (d : Dev nD) : V4 m d ro = OUT m d := Function.update_self _ _ _
theorem V4_r (d : Dev nD) : V4 m d rr = m (rLoc d) := Function.update_of_ne (show rr ≠ ro by decide) _ _
theorem res4 (d : Dev nD) : (op4 (F := F)).result (V4 m d) rr = RES m d := by
  refine (StableHlo.reshape_result main_v3 main_v4 rfl _ _ _ (V4 m d)).trans ?_
  unfold RES
  rw [← V4_o m d]
  rfl
theorem res4_ne (d : Dev nD) : (op4 (F := F)).result (V4 m d) ro = OUT m d :=
  (StableHlo.reshape_result_ne main_v3 main_v4 rfl _ _ _ (V4 m d) (r := main_v3) (by decide)).trans (V4_o m d)

/-- The call's operands for the two SparseCores, and what comes back. -/
theorem st0_eq (d : Dev nD) : (bigSep Finset.univ fun c : Fin ((K (F := F)).nCore 0) => (P m).st 0 d c)
    = iprop((bigSep Finset.univ fun c : Fin 2 => ins m d (shC c)) ∗ bigSep Finset.univ fun c : Fin 2 => oLoc d ↦[coreRows d c]{fullShare} m (oLoc d)) := by
  show (bigSep Finset.univ fun c : Fin ((K (F := F)).nCore 0) => stC m d (Fin.cast nCore_zero c)) = _
  rw [bigSep_cores (F := F) (fun c => stC m d c)]
  unfold stC
  rw [bigSep_sep']
theorem dn0_eq (d : Dev nD) : (bigSep Finset.univ fun c : Fin ((K (F := F)).nCore 0) => (P m).dn 0 d c)
    = iprop((bigSep Finset.univ fun c : Fin 2 => ins m d (shC c)) ∗ bigSep Finset.univ fun c : Fin 2 => oLoc d ↦[coreRows d c]{fullShare} OUT m d) := by
  show (bigSep Finset.univ fun c : Fin ((K (F := F)).nCore 0) => dnC m d (Fin.cast nCore_zero c)) = _
  rw [bigSep_cores (F := F) (fun c => dnC m d c)]
  unfold dnC
  rw [bigSep_sep']

/-- What @main leaves the claim: the result at the reshaped sums, the six argument arrays as launched. -/
abbrev FIN (d : Dev nD) : sProp 𝕄 :=
  iprop((rLoc d ↦{fullShare} RES m d) ∗ (a0Loc d ↦{fullShare} m (a0Loc d)) ∗ (a1Loc d ↦{fullShare} m (a1Loc d)) ∗ (a2Loc d ↦{fullShare} m (a2Loc d))
    ∗ (tkLoc d ↦{fullShare} m (tkLoc d)) ∗ (psLoc d ↦{fullShare} m (psLoc d)) ∗ (sgLoc d ↦{fullShare} m (sgLoc d)))

omit [FloatOps F] in
theorem held0 (d : Dev nD) : (held (T d) {ra0, rf0} (V0 m d) : sProp 𝕄) = iprop((a0Loc d ↦{fullShare} m (a0Loc d)) ∗ (f0Loc d ↦{fullShare} m (f0Loc d))) :=
  held_pair d ra0 rf0 (by decide) _
omit [FloatOps F] in
theorem held1 (d : Dev nD) : (held (T d) {ra1, rf1} (V0 m d) : sProp 𝕄) = iprop((a1Loc d ↦{fullShare} m (a1Loc d)) ∗ (f1Loc d ↦{fullShare} m (f1Loc d))) :=
  held_pair d ra1 rf1 (by decide) _
omit [FloatOps F] in
theorem held2 (d : Dev nD) : (held (T d) {ra2, rf2} (V0 m d) : sProp 𝕄) = iprop((a2Loc d ↦{fullShare} m (a2Loc d)) ∗ (f2Loc d ↦{fullShare} m (f2Loc d))) :=
  held_pair d ra2 rf2 (by decide) _
theorem held4 (d : Dev nD) : (held (T d) {ro, rr} (V4 m d) : sProp 𝕄) = iprop((oLoc d ↦{fullShare} OUT m d) ∗ (rLoc d ↦{fullShare} m (rLoc d))) := by
  rw [held_pair d ro rr (by decide), V4_o, V4_r]
omit [FloatOps F] in
theorem held0' (d : Dev nD) : (held (T d) {ra0, rf0} ((op0 (F := F)).result (V0 m d)) : sProp 𝕄)
    = iprop((a0Loc d ↦{fullShare} m (a0Loc d)) ∗ (f0Loc d ↦{fullShare} X0 m d)) := by
  rw [held_pair d ra0 rf0 (by decide), res0, res0_ne]
omit [FloatOps F] in
theorem held1' (d : Dev nD) : (held (T d) {ra1, rf1} ((op1 (F := F)).result (V0 m d)) : sProp 𝕄)
    = iprop((a1Loc d ↦{fullShare} m (a1Loc d)) ∗ (f1Loc d ↦{fullShare} X1 m d)) := by
  rw [held_pair d ra1 rf1 (by decide), res1, res1_ne]
omit [FloatOps F] in
theorem held2' (d : Dev nD) : (held (T d) {ra2, rf2} ((op2 (F := F)).result (V0 m d)) : sProp 𝕄)
    = iprop((a2Loc d ↦{fullShare} m (a2Loc d)) ∗ (f2Loc d ↦{fullShare} X2 m d)) := by
  rw [held_pair d ra2 rf2 (by decide), res2, res2_ne]
theorem held4' (d : Dev nD) : (held (T d) {ro, rr} ((op4 (F := F)).result (V4 m d)) : sProp 𝕄)
    = iprop((oLoc d ↦{fullShare} OUT m d) ∗ (rLoc d ↦{fullShare} RES m d)) := by
  rw [held_pair d ro rr (by decide), res4, res4_ne]

theorem ins_def (d : Dev nD) (q : PosShare TreeShare) : ins m d q
    = iprop((f0Loc d ↦{q} X0 m d) ∗ (f1Loc d ↦{q} X1 m d) ∗ (f2Loc d ↦{q} X2 m d)
      ∗ (tkLoc d ↦{q} m (tkLoc d)) ∗ (psLoc d ↦{q} m (psLoc d)) ∗ (sgLoc d ↦{q} m (sgLoc d))) := by
  unfold ins; rfl

/-- @main on device `d`'s TensorCore: the three reshapes of the labels, each over its own two arrays; the call, handing
    each SparseCore a read share of the flattened labels and the tables and its rows of the result array, the remainder
    shares kept here across it; the shares and rows rejoined, the result array then whole at the sums; the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Htk, Hps, Hsg, Hf0, Hf1, Hf2, Ho, Hr⟩, -, -⟩, -⟩
  -- the three reshapes of the labels
  iapply (wp_hlo_within 𝒱 (SparseCore.T d) none Set.univ (op := op0) (S := {ra0, rf0}) (Finset.Subset.refl _) (V := V0 m d)) $$ [Hb Ha0 Hf0]
  · isplitl [Hb]; · iexact Hb
    rw [held0]
    isplitl [Ha0]; · iexact Ha0
    iexact Hf0
  iintro ⟨Hb, Hh⟩
  ihave Hh' := (Entails.of_eq (held0' m d)) $$ Hh
  icases Hh' with ⟨Ha0, Hf0⟩
  rw [wp_ret]; imodintro
  iapply (wp_hlo_within 𝒱 (SparseCore.T d) none Set.univ (op := op1) (S := {ra1, rf1}) (Finset.Subset.refl _) (V := V0 m d)) $$ [Hb Ha1 Hf1]
  · isplitl [Hb]; · iexact Hb
    rw [held1]
    isplitl [Ha1]; · iexact Ha1
    iexact Hf1
  iintro ⟨Hb, Hh⟩
  ihave Hh' := (Entails.of_eq (held1' m d)) $$ Hh
  icases Hh' with ⟨Ha1, Hf1⟩
  rw [wp_ret]; imodintro
  iapply (wp_hlo_within 𝒱 (SparseCore.T d) none Set.univ (op := op2) (S := {ra2, rf2}) (Finset.Subset.refl _) (V := V0 m d)) $$ [Hb Ha2 Hf2]
  · isplitl [Hb]; · iexact Hb
    rw [held2]
    isplitl [Ha2]; · iexact Ha2
    iexact Hf2
  iintro ⟨Hb, Hh⟩
  ihave Hh' := (Entails.of_eq (held2' m d)) $$ Hh
  icases Hh' with ⟨Ha2, Hf2⟩
  rw [wp_ret]; imodintro
  -- the six read arrays' full shares: a remainder kept here and a token per SparseCore; the result array by SparseCores
  ihave Hins := (ins_split m d fullShare 2) $$ [Hf0 Hf1 Hf2 Htk Hps Hsg]
  · rw [ins_def]
    isplitl [Hf0]; · iexact Hf0
    isplitl [Hf1]; · iexact Hf1
    isplitl [Hf2]; · iexact Hf2
    isplitl [Htk]; · iexact Htk
    isplitl [Hps]; · iexact Hps
    iexact Hsg
  icases Hins with ⟨Hdrop, Htoks⟩
  ihave Ho' := (Entails.of_eq (oPts_cores d (m (oLoc d)))) $$ Ho
  -- the call
  iapply ((K (F := F)).wp_run (D (F := F)) 𝒱 (EH := EH) (P := P m) κ d 0) $$ [Hst Htoks Ho' Hb Hdrop Ha0 Ha1 Ha2 Hr]
  isplitr; · iexact Hctx
  isplitl [Hst]; · iexact Hst
  isplitl [Htoks Ho']
  · rw [st0_eq]
    isplitl [Htoks]; · iexact Htoks
    iexact Ho'
  iintro ⟨Hst, Hdn⟩
  ihave Hdn' := (Entails.of_eq (dn0_eq m d)) $$ Hdn
  icases Hdn' with ⟨Htoks, Ho⟩
  ihave Hins := (ins_join m d fullShare 2) $$ [Hdrop Htoks]
  · isplitl [Hdrop]; · iexact Hdrop
    iexact Htoks
  ihave Hins' := (Entails.of_eq (ins_def m d fullShare)) $$ Hins
  icases Hins' with ⟨-, -, -, Htk, Hps, Hsg⟩
  ihave Ho' := (Entails.of_eq (oPts_cores d (OUT m d)).symm) $$ Ho
  -- the last reshape
  iapply (wp_hlo_within 𝒱 (SparseCore.T d) none Set.univ (op := op4) (S := {ro, rr}) (Finset.Subset.refl _) (V := V4 m d)) $$ [Hb Ho' Hr]
  · isplitl [Hb]; · iexact Hb
    rw [held4]
    isplitl [Ho']; · iexact Ho'
    iexact Hr
  iintro ⟨Hb, Hh⟩
  ihave Hh' := (Entails.of_eq (held4' m d)) $$ Hh
  icases Hh' with ⟨-, Hr⟩
  rw [wp_ret]; imodintro; imodintro
  isplitl [Hst]; · iexact Hst
  isplitl [Hr]; · iexact Hr
  isplitl [Ha0]; · iexact Ha0
  isplitl [Ha1]; · iexact Ha1
  isplitl [Ha2]; · iexact Ha2
  isplitl [Htk]; · iexact Htk
  isplitl [Hps]; · iexact Hps
  iexact Hsg

/-! ## The final memory, and the run -/

def fq (d : Dev nD) (s' : Phys nD τ sig (Elt F)) : Prop :=
  s'.mem.mem (rLoc d) = RES m d
  ∧ s'.mem.mem (a0Loc d) = m (a0Loc d) ∧ s'.mem.mem (a1Loc d) = m (a1Loc d) ∧ s'.mem.mem (a2Loc d) = m (a2Loc d)
  ∧ s'.mem.mem (tkLoc d) = m (tkLoc d) ∧ s'.mem.mem (psLoc d) = m (psLoc d) ∧ s'.mem.mem (sgLoc d) = m (sgLoc d)

set_option maxRecDepth 16384 in
theorem hfin (d : Dev nD) (s' : Phys nD τ sig (Elt F)) : iprop(FIN m d ∗ SI s') ⊢ (⌜fq m d s'⌝ : sProp 𝕄) := by
  iintro ⟨⟨Hr, Ha0, Ha1, Ha2, Htk, Hps, Hsg⟩, HSI⟩
  ihave H := (persistent_entails_right (SI_pointsTo_agree (st := s') (ℓ := rLoc d) (I := Finset.univ) (q := fullShare) (f := RES m d))) $$ [HSI Hr]
  · isplitl [HSI] <;> iassumption
  icases H with ⟨%h1, HSI, -⟩
  ihave H := (persistent_entails_right (SI_pointsTo_agree (st := s') (ℓ := a0Loc d) (I := Finset.univ) (q := fullShare) (f := m (a0Loc d)))) $$ [HSI Ha0]
  · isplitl [HSI] <;> iassumption
  icases H with ⟨%h2, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h3, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h4, HSI, -⟩
  ihave H := (persistent_entails_right (SI_pointsTo_agree (st := s') (ℓ := tkLoc d) (I := Finset.univ) (q := fullShare) (f := m (tkLoc d)))) $$ [HSI Htk]
  · isplitl [HSI] <;> iassumption
  icases H with ⟨%h5, HSI, -⟩
  ihave H := (persistent_entails_right (SI_pointsTo_agree (st := s') (ℓ := psLoc d) (I := Finset.univ) (q := fullShare) (f := m (psLoc d)))) $$ [HSI Hps]
  · isplitl [HSI] <;> iassumption
  icases H with ⟨%h6, HSI, -⟩
  ihave H := (SI_pointsTo_agree (st := s') (ℓ := sgLoc d) (I := Finset.univ) (q := fullShare) (f := m (sgLoc d))) $$ [HSI Hsg]
  · isplitl [HSI] <;> iassumption
  icases H with %h7
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i), funext fun i => h6 i (Finset.mem_univ i),
    funext fun i => h7 i (Finset.mem_univ i)⟩

def QC : PUnit × MemSt nD τ sig (Elt F) → Prop := fun r => ∀ c : Dev nD,
  r.2.mem (rLoc c) = shapeCast S1024x512x128 (OUT m c) Gen.shapeCasts_S524288x128_S1024x512x128
  ∧ r.2.mem (a0Loc c) = m (a0Loc c) ∧ r.2.mem (a1Loc c) = m (a1Loc c) ∧ r.2.mem (a2Loc c) = m (a2Loc c)
  ∧ r.2.mem (tkLoc c) = m (tkLoc c) ∧ r.2.mem (psLoc c) = m (psLoc c) ∧ r.2.mem (sgLoc c) = m (sgLoc c)

theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelIdealRun

end
-- ==== Proof.KCommon.lean ====
/-
  The kernel, read at any float instance F, as the SparseCore launch theorem sees it, and what its handshakes carry.

  The program flattens the three label arrays to [524288], runs one vector-subcore kernel on 2 SparseCores x 16
  tiles, and reshapes the [524288, 128] result to [1024, 512, 128]. Tile (c, s) owns the 16384 consecutive token
  rows starting at 32768 * s + 16384 * c (`tileRows`), SparseCore c the union of its tiles' rows (`coreRows`);
  the sets are pairwise disjoint and cover the result. Every tile READS the flattened labels and the three tables
  whole, so each of those six arrays goes out as read shares: one share per SparseCore, split again into one per
  tile. A tile hands back its rows of the result at the sum of the three looked-up rows (`OUT`, the function
  `Cert.Embed.Gflat` of the flattened labels and the tables).
-/
import proofs.«203542_g13958643712200_cont_week2b_591_2_alg».proof.Defs
import proofs.«203542_g13958643712200_cont_week2b_591_2_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«203542_g13958643712200_cont_week2b_591_2_alg».proof.Proof.Gen.Kernel
import proofs.«203542_g13958643712200_cont_week2b_591_2_alg».proof.Proof.Gen.Kernel.Skeleton

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The labels as given ([1024, 512]), flattened ([524288]), the three tables, the kernel's result ([524288, 128]) and
    the program's ([1024, 512, 128]), as locations of device `d`. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev tkLoc (d : Dev nD) : Loc nD τ sig := (SparseCore.T d).loc main_arg3
abbrev psLoc (d : Dev nD) : Loc nD τ sig := (SparseCore.T d).loc main_arg4
abbrev sgLoc (d : Dev nD) : Loc nD τ sig := (SparseCore.T d).loc main_arg5
abbrev f0Loc (d : Dev nD) : Loc nD τ sig := (SparseCore.T d).loc main_v0
abbrev f1Loc (d : Dev nD) : Loc nD τ sig := (SparseCore.T d).loc main_v1
abbrev f2Loc (d : Dev nD) : Loc nD τ sig := (SparseCore.T d).loc main_v2
abbrev oLoc (d : Dev nD) : Loc nD τ sig := (SparseCore.T d).loc main_v3
abbrev rLoc (d : Dev nD) : Loc nD τ sig := (SparseCore.T d).loc main_v4

/-- The flattened labels: what the three reshapes before the call leave in `main_v0`, `main_v1`, `main_v2`. -/
def X0 (d : Dev nD) : Buf (Elt F) (f0Loc d) := shapeCast S524288 (m (a0Loc d)) Gen.shapeCasts_S1024x512_S524288
def X1 (d : Dev nD) : Buf (Elt F) (f1Loc d) := shapeCast S524288 (m (a1Loc d)) Gen.shapeCasts_S1024x512_S524288
def X2 (d : Dev nD) : Buf (Elt F) (f2Loc d) := shapeCast S524288 (m (a2Loc d)) Gen.shapeCasts_S1024x512_S524288

variable [FloatOps F]

/-- What the kernel leaves in its result array: the sum of the three looked-up rows, token by token. -/
def OUT (d : Dev nD) : Buf (Elt F) (oLoc d) :=
  Cert.Embed.Gflat (F := F) (X0 m d) (X1 m d) (X2 m d) (m (tkLoc d)) (m (psLoc d)) (m (sgLoc d))

/-! ## Who owns which rows of the result -/

/-- The first token row of tile `(c, s)`. -/
def tileBase (c : Fin 2) (s : Fin 16) : ℕ := 32768 * s.val + 16384 * c.val
/-- Tile `(c, s)`'s elements of the result on device `d`: its 16384 token rows, all lanes. -/
def tileRows (d : Dev nD) (c : Fin 2) (s : Fin 16) : Finset (Idx (oLoc d)) :=
  Finset.univ.filter fun j : S524288x128.Idx => tileBase c s ≤ (j 0).val ∧ (j 0).val < tileBase c s + 16384
/-- SparseCore `c`'s elements: its sixteen tiles'. -/
def coreRows (d : Dev nD) (c : Fin 2) : Finset (Idx (oLoc d)) := (Finset.univ : Finset (Fin 16)).biUnion (tileRows d c)

/-! ## Read shares -/

/-- SparseCore `c`'s read share of an array the TensorCore holds whole, and tile `(c, s)`'s of that. -/
abbrev shC (c : Fin 2) : PosShare TreeShare := Transfers.shareTok fullShare 2 c
abbrev shT (c : Fin 2) (s : Fin 16) : PosShare TreeShare := Transfers.shareTok (shC c) 16 s

/-- The six arrays every tile reads, at share `q`: the flattened labels and the tables. -/
def ins (d : Dev nD) (q : PosShare TreeShare) : sProp 𝕄 :=
  iprop((f0Loc d ↦{q} X0 m d) ∗ (f1Loc d ↦{q} X1 m d) ∗ (f2Loc d ↦{q} X2 m d)
    ∗ (tkLoc d ↦{q} m (tkLoc d)) ∗ (psLoc d ↦{q} m (psLoc d)) ∗ (sgLoc d ↦{q} m (sgLoc d)))

/-- What the call hands SparseCore `c` and what comes back; what the sequencer hands tile `(c, s)` and what comes back. -/
def stC (d : Dev nD) (c : Fin 2) : sProp 𝕄 := iprop(ins m d (shC c) ∗ (oLoc d ↦[coreRows d c]{fullShare} m (oLoc d)))
def dnC (d : Dev nD) (c : Fin 2) : sProp 𝕄 := iprop(ins m d (shC c) ∗ (oLoc d ↦[coreRows d c]{fullShare} OUT m d))
def goT (d : Dev nD) (c : Fin 2) (s : Fin 16) : sProp 𝕄 := iprop(ins m d (shT c s) ∗ (oLoc d ↦[tileRows d c s]{fullShare} m (oLoc d)))
def tdT (d : Dev nD) (c : Fin 2) (s : Fin 16) : sProp 𝕄 := iprop(ins m d (shT c s) ∗ (oLoc d ↦[tileRows d c s]{fullShare} OUT m d))

def P : (K (F := F)).Pay (nD := nD) (Val := Elt F) (Name := ℕ) (U := UU) where
  st := fun q d c => match q with | 0 => stC m d (Fin.cast nCore_zero c)
  dn := fun q d c => match q with | 0 => dnC m d (Fin.cast nCore_zero c)
  go := fun q d c i => match q with | 0 => goT m d (Fin.cast nCore_zero c) (Fin.cast nSub_zero i)
  td := fun q d c i => match q with | 0 => tdT m d (Fin.cast nCore_zero c) (Fin.cast nSub_zero i)
  x := fun _ _ => iprop(emp)

instance P_storable : (P (F := F) m).IsStorable where
  st q d c := match q with | 0 => by unfold P stC ins; dsimp only; infer_instance
  dn q d c := match q with | 0 => by unfold P dnC ins; dsimp only; infer_instance
  go q d c i := match q with | 0 => by unfold P goT ins; dsimp only; infer_instance
  td q d c i := match q with | 0 => by unfold P tdT ins; dsimp only; infer_instance

end Cert.Proof.KernelRun

end
-- ==== Proof.KTileDefs.lean ====
/-
  One tile's task: the thread that runs it, its seven DMA semaphores as cells, the slices of the arrays it
  addresses, and its own scoped storage split into the buffers and cells the task names and the rest.

  Tile `(c, s)` of the grid (`L 0 = c`, `L 1 = s`) runs on vector subcore `s` of SparseCore `c`. Per chunk `k` it
  addresses the 128 flattened labels `[base + 128 k, base + 128 k + 128)` of each label array (`lab0`, `lab1`,
  `lab2`), the three tables whole (`tkAll`, `psAll`, `sgAll`: a gather's source), and the same 128 token rows of the
  result (`outChunk`), where `base = 32768 s + 16384 c`.
-/
import proofs.«203542_g13958643712200_cont_week2b_591_2_alg».proof.Proof.KCommon

noncomputable section

namespace Cert.Proof.KernelRun

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "f0V" => (Memref.whole Cert.Kernel.main_v0_scv : Memref Cert.Kernel.sig Kind.scVector Space.hbm Cert.Kernel.S524288 EltTy.i32)
local notation "f1V" => (Memref.whole Cert.Kernel.main_v1_scv : Memref Cert.Kernel.sig Kind.scVector Space.hbm Cert.Kernel.S524288 EltTy.i32)
local notation "f2V" => (Memref.whole Cert.Kernel.main_v2_scv : Memref Cert.Kernel.sig Kind.scVector Space.hbm Cert.Kernel.S524288 EltTy.i32)
local notation "tkV" => (Memref.whole Cert.Kernel.main_arg3_scv : Memref Cert.Kernel.sig Kind.scVector Space.hbm Cert.Kernel.S100000x128 EltTy.f32)
local notation "psV" => (Memref.whole Cert.Kernel.main_arg4_scv : Memref Cert.Kernel.sig Kind.scVector Space.hbm Cert.Kernel.S512x128 EltTy.f32)
local notation "sgV" => (Memref.whole Cert.Kernel.main_arg5_scv : Memref Cert.Kernel.sig Kind.scVector Space.hbm Cert.Kernel.S3x128 EltTy.f32)
local notation "oV" => (Memref.whole Cert.Kernel.main_v3_scv : Memref Cert.Kernel.sig Kind.scVector Space.hbm Cert.Kernel.S524288x128 EltTy.f32)
local notation "i0V" => (Memref.whole Cert.Kernel.cc0_scratch0 : Memref Cert.Kernel.sig Kind.scVector Space.vmem Cert.Kernel.S128 EltTy.i32)
local notation "i1V" => (Memref.whole Cert.Kernel.cc0_scratch1 : Memref Cert.Kernel.sig Kind.scVector Space.vmem Cert.Kernel.S128 EltTy.i32)
local notation "i2V" => (Memref.whole Cert.Kernel.cc0_scratch2 : Memref Cert.Kernel.sig Kind.scVector Space.vmem Cert.Kernel.S128 EltTy.i32)
local notation "b0V" => (Memref.whole Cert.Kernel.cc0_scratch3 : Memref Cert.Kernel.sig Kind.scVector Space.vmem Cert.Kernel.S128x128 EltTy.f32)
local notation "b1V" => (Memref.whole Cert.Kernel.cc0_scratch4 : Memref Cert.Kernel.sig Kind.scVector Space.vmem Cert.Kernel.S128x128 EltTy.f32)
local notation "b2V" => (Memref.whole Cert.Kernel.cc0_scratch5 : Memref Cert.Kernel.sig Kind.scVector Space.vmem Cert.Kernel.S128x128 EltTy.f32)

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)
/-- The thread of tile `L` on device `d`. -/
abbrev thr (d : Dev nD) (L : grid0.Coords) : Thread nD τ := V d (cV L) (jV L)

/-- A tile's DMA semaphore as a cell. -/
abbrev cell (d : Dev nD) (L : grid0.Coords) (x : DmaSems sig S_) : GSem nD τ sig := (thr d L, .dma x.sem)

/-- The tables as the kernel slices them for a gather (whole). -/
abbrev tkAll : Memref sig .scVector .hbm S100000x128 .f32 := (tkV).slice (Rect.unit (s := S100000x128) ![0, 0] S100000x128.size inb_S100000x128_S100000x128_0_0) (fun _ => rfl)
abbrev psAll : Memref sig .scVector .hbm S512x128 .f32 := (psV).slice (Rect.unit (s := S512x128) ![0, 0] S512x128.size inb_S512x128_S512x128_0_0) (fun _ => rfl)
abbrev sgAll : Memref sig .scVector .hbm S3x128 .f32 := (sgV).slice (Rect.unit (s := S3x128) ![0, 0] S3x128.size inb_S3x128_S3x128_0_0) (fun _ => rfl)
/-- Chunk `k`'s 128 flattened labels of an array, as the kernel slices them. -/
abbrev lab0 (L : grid0.Coords) (k : Fin k0_t1_loop.trips) : Memref sig .scVector .hbm S128 .i32 := (f0V).slice (Rect.unit (s := S524288) (k0_off1 L k) S128.size (k0_off1_inb L k)) (fun _ => rfl)
abbrev lab1 (L : grid0.Coords) (k : Fin k0_t1_loop.trips) : Memref sig .scVector .hbm S128 .i32 := (f1V).slice (Rect.unit (s := S524288) (k0_off1 L k) S128.size (k0_off1_inb L k)) (fun _ => rfl)
abbrev lab2 (L : grid0.Coords) (k : Fin k0_t1_loop.trips) : Memref sig .scVector .hbm S128 .i32 := (f2V).slice (Rect.unit (s := S524288) (k0_off1 L k) S128.size (k0_off1_inb L k)) (fun _ => rfl)

/-- Chunk `k`'s 128 token rows of the result, as the kernel slices them. -/
abbrev outChunk (L : grid0.Coords) (k : Fin k0_t1_loop.trips) : Memref sig .scVector .hbm S128x128 .f32 :=
  (oV).slice (Rect.unit (s := S524288x128) (k0_off10 L k) S128x128.size (k0_off10_inb L k)) (fun _ => rfl)

theorem cell_ne {x y : DmaSems sig S_} (h : (x.sem : DmaSem sig) ≠ y.sem) : cell d L x ≠ cell d L y :=
  fun e => h (SemLoc.dma.inj (Prod.mk.inj e).2)

/-- The tile's seven DMA semaphores are among its own scoped cells: they at zero, and the rest. -/
theorem ownSems0_V :
    (ownSems0 (thr d L) : sProp 𝕄)
      = iprop(semVal (cell d L cc0_scratch6) 0 ∗ semVal (cell d L cc0_scratch7) 0 ∗ semVal (cell d L cc0_scratch8) 0 ∗ semVal (cell d L cc0_scoped0) 0 ∗ semVal (cell d L cc0_scoped1) 0 ∗ semVal (cell d L cc0_scoped2) 0 ∗ semVal (cell d L cc0_scoped3) 0
          ∗ bigSep ((((((((ownCells (thr d L)).erase (cell d L cc0_scratch6)).erase (cell d L cc0_scratch7)).erase (cell d L cc0_scratch8)).erase (cell d L cc0_scoped0)).erase (cell d L cc0_scoped1)).erase (cell d L cc0_scoped2)).erase (cell d L cc0_scoped3)) fun g => semVal g 0) := by
  unfold SparseCore.Cfg.ownSems0
  rw [SparseCore.bigSep_erase' ((mem_ownCells (g := cell d L cc0_scratch6)).mpr ⟨rfl, by show (SemLoc.dma cc0_scratch6.sem : SemLoc sig).isScoped .scVector = true; decide⟩),
    SparseCore.bigSep_erase' (Finset.mem_erase.mpr ⟨cell_ne d L (show (cc0_scratch7.sem : DmaSem sig) ≠ cc0_scratch6.sem by decide), (mem_ownCells (g := cell d L cc0_scratch7)).mpr ⟨rfl, by show (SemLoc.dma cc0_scratch7.sem : SemLoc sig).isScoped .scVector = true; decide⟩⟩),
    SparseCore.bigSep_erase' (Finset.mem_erase.mpr ⟨cell_ne d L (show (cc0_scratch8.sem : DmaSem sig) ≠ cc0_scratch7.sem by decide), Finset.mem_erase.mpr ⟨cell_ne d L (show (cc0_scratch8.sem : DmaSem sig) ≠ cc0_scratch6.sem by decide), (mem_ownCells (g := cell d L cc0_scratch8)).mpr ⟨rfl, by show (SemLoc.dma cc0_scratch8.sem : SemLoc sig).isScoped .scVector = true; decide⟩⟩⟩),
    SparseCore.bigSep_erase' (Finset.mem_erase.mpr ⟨cell_ne d L (show (cc0_scoped0.sem : DmaSem sig) ≠ cc0_scratch8.sem by decide), Finset.mem_erase.mpr ⟨cell_ne d L (show (cc0_scoped0.sem : DmaSem sig) ≠ cc0_scratch7.sem by decide), Finset.mem_erase.mpr ⟨cell_ne d L (show (cc0_scoped0.sem : DmaSem sig) ≠ cc0_scratch6.sem by decide), (mem_ownCells (g := cell d L cc0_scoped0)).mpr ⟨rfl, by show (SemLoc.dma cc0_scoped0.sem : SemLoc sig).isScoped .scVector = true; decide⟩⟩⟩⟩),
    SparseCore.bigSep_erase' (Finset.mem_erase.mpr ⟨cell_ne d L (show (cc0_scoped1.sem : DmaSem sig) ≠ cc0_scoped0.sem by decide), Finset.mem_erase.mpr ⟨cell_ne d L (show (cc0_scoped1.sem : DmaSem sig) ≠ cc0_scratch8.sem by decide), Finset.mem_erase.mpr ⟨cell_ne d L (show (cc0_scoped1.sem : DmaSem sig) ≠ cc0_scratch7.sem by decide), Finset.mem_erase.mpr ⟨cell_ne d L (show (cc0_scoped1.sem : DmaSem sig) ≠ cc0_scratch6.sem by decide), (mem_ownCells (g := cell d L cc0_scoped1)).mpr ⟨rfl, by show (SemLoc.dma cc0_scoped1.sem : SemLoc sig).isScoped .scVector = true; decide⟩⟩⟩⟩⟩),
    SparseCore.bigSep_erase' (Finset.mem_erase.mpr ⟨cell_ne d L (show (cc0_scoped2.sem : DmaSem sig) ≠ cc0_scoped1.sem by decide), Finset.mem_erase.mpr ⟨cell_ne d L (show (cc0_scoped2.sem : DmaSem sig) ≠ cc0_scoped0.sem by decide), Finset.mem_erase.mpr ⟨cell_ne d L (show (cc0_scoped2.sem : DmaSem sig) ≠ cc0_scratch8.sem by decide), Finset.mem_erase.mpr ⟨cell_ne d L (show (cc0_scoped2.sem : DmaSem sig) ≠ cc0_scratch7.sem by decide), Finset.mem_erase.mpr ⟨cell_ne d L (show (cc0_scoped2.sem : DmaSem sig) ≠ cc0_scratch6.sem by decide), (mem_ownCells (g := cell d L cc0_scoped2)).mpr ⟨rfl, by show (SemLoc.dma cc0_scoped2.sem : SemLoc sig).isScoped .scVector = true; decide⟩⟩⟩⟩⟩⟩),
    SparseCore.bigSep_erase' (Finset.mem_erase.mpr ⟨cell_ne d L (show (cc0_scoped3.sem : DmaSem sig) ≠ cc0_scoped2.sem by decide), Finset.mem_erase.mpr ⟨cell_ne d L (show (cc0_scoped3.sem : DmaSem sig) ≠ cc0_scoped1.sem by decide), Finset.mem_erase.mpr ⟨cell_ne d L (show (cc0_scoped3.sem : DmaSem sig) ≠ cc0_scoped0.sem by decide), Finset.mem_erase.mpr ⟨cell_ne d L (show (cc0_scoped3.sem : DmaSem sig) ≠ cc0_scratch8.sem by decide), Finset.mem_erase.mpr ⟨cell_ne d L (show (cc0_scoped3.sem : DmaSem sig) ≠ cc0_scratch7.sem by decide), Finset.mem_erase.mpr ⟨cell_ne d L (show (cc0_scoped3.sem : DmaSem sig) ≠ cc0_scratch6.sem by decide), (mem_ownCells (g := cell d L cc0_scoped3)).mpr ⟨rfl, by show (SemLoc.dma cc0_scoped3.sem : SemLoc sig).isScoped .scVector = true; decide⟩⟩⟩⟩⟩⟩⟩)]

/-- The tile's six scratch buffers are among its own: they at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩)]

end Cert.Proof.KernelRun

end
-- ==== Proof.KRowTrip.lean ====
/-
  One trip of the row loop. A tile holds three [128,128] buffers; trip r reads row r of each in eight lane groups
  of 16, and stores (first + second) + third back into row r of the first buffer, lane group by lane group. Each
  store goes to lanes no later load of the trip reads (a later group's loads touch other lanes of row r), so after
  the trip row r of the first buffer is the elementwise sum and every other row is what it was.

  The stores are kept as a list of (rectangle, payload) pieces over the buffer's prior contents. The pure part
  reads that list at one element: an element of row r lies in exactly the piece of its lane group and reads that
  piece's payload there; an element of another row lies in no piece and reads the prior contents.
-/
import proofs.«203542_g13958643712200_cont_week2b_591_2_alg».proof.Proof.KTileDefs
import Idealize.ShloMosaic.Lib.ValueLayout

noncomputable section

namespace Cert.Proof.KernelRun

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "f0V" => (Memref.whole Cert.Kernel.main_v0_scv : Memref Cert.Kernel.sig Kind.scVector Space.hbm Cert.Kernel.S524288 EltTy.i32)
local notation "f1V" => (Memref.whole Cert.Kernel.main_v1_scv : Memref Cert.Kernel.sig Kind.scVector Space.hbm Cert.Kernel.S524288 EltTy.i32)
local notation "f2V" => (Memref.whole Cert.Kernel.main_v2_scv : Memref Cert.Kernel.sig Kind.scVector Space.hbm Cert.Kernel.S524288 EltTy.i32)
local notation "tkV" => (Memref.whole Cert.Kernel.main_arg3_scv : Memref Cert.Kernel.sig Kind.scVector Space.hbm Cert.Kernel.S100000x128 EltTy.f32)
local notation "psV" => (Memref.whole Cert.Kernel.main_arg4_scv : Memref Cert.Kernel.sig Kind.scVector Space.hbm Cert.Kernel.S512x128 EltTy.f32)
local notation "sgV" => (Memref.whole Cert.Kernel.main_arg5_scv : Memref Cert.Kernel.sig Kind.scVector Space.hbm Cert.Kernel.S3x128 EltTy.f32)
local notation "oV" => (Memref.whole Cert.Kernel.main_v3_scv : Memref Cert.Kernel.sig Kind.scVector Space.hbm Cert.Kernel.S524288x128 EltTy.f32)
local notation "i0V" => (Memref.whole Cert.Kernel.cc0_scratch0 : Memref Cert.Kernel.sig Kind.scVector Space.vmem Cert.Kernel.S128 EltTy.i32)
local notation "i1V" => (Memref.whole Cert.Kernel.cc0_scratch1 : Memref Cert.Kernel.sig Kind.scVector Space.vmem Cert.Kernel.S128 EltTy.i32)
local notation "i2V" => (Memref.whole Cert.Kernel.cc0_scratch2 : Memref Cert.Kernel.sig Kind.scVector Space.vmem Cert.Kernel.S128 EltTy.i32)
local notation "b0V" => (Memref.whole Cert.Kernel.cc0_scratch3 : Memref Cert.Kernel.sig Kind.scVector Space.vmem Cert.Kernel.S128x128 EltTy.f32)
local notation "b1V" => (Memref.whole Cert.Kernel.cc0_scratch4 : Memref Cert.Kernel.sig Kind.scVector Space.vmem Cert.Kernel.S128x128 EltTy.f32)
local notation "b2V" => (Memref.whole Cert.Kernel.cc0_scratch5 : Memref Cert.Kernel.sig Kind.scVector Space.vmem Cert.Kernel.S128x128 EltTy.f32)

variable [FloatOps F]

section Pure

open Idealize.ShloMosaic.ValueIdx

omit [FloatOps F] in
/-- A predicate holds of every member of an eight-element list when it holds of each of the eight. -/
theorem forall_mem_eight {α : Type _} {P : α → Prop} {a7 a6 a5 a4 a3 a2 a1 a0 : α}
    (h7 : P a7) (h6 : P a6) (h5 : P a5) (h4 : P a4) (h3 : P a3) (h2 : P a2) (h1 : P a1) (h0 : P a0) :
    ∀ p ∈ [a7, a6, a5, a4, a3, a2, a1, a0], P p :=
  List.forall_mem_cons.2 ⟨h7, List.forall_mem_cons.2 ⟨h6, List.forall_mem_cons.2 ⟨h5, List.forall_mem_cons.2 ⟨h4,
    List.forall_mem_cons.2 ⟨h3, List.forall_mem_cons.2 ⟨h2, List.forall_mem_cons.2 ⟨h1, List.forall_mem_cons.2 ⟨h0,
      fun _ h => absurd h List.not_mem_nil⟩⟩⟩⟩⟩⟩⟩⟩

/-- One lane group's stored value at one element: the [1,16] block is flattened to [16], the three operands are
    added left to right, and the sum is put back under the unit axis, so element (0, i) of the result is
    (a + b) + c at (0, i). -/
theorem pay_raw_apply (h1 : S1x16.ShapeCasts S16) (h2 : S16.ShapeCasts S1x16) (a b c : Vec F S1x16 .f32) (x : S1x16.Idx) :
    (shapeCast S1x16 (addf (addf (shapeCast S16 a h1 : FVec F S16 .f32) (shapeCast S16 b h1 : FVec F S16 .f32))
        (shapeCast S16 c h1 : FVec F S16 .f32)) h2 : FVec F S1x16 .f32) x
      = FloatOps.addf (FloatOps.addf (a x) (b x)) (c x) := by
  obtain ⟨u, i, rfl⟩ : ∃ (u : Fin 1) (i : Fin 16), x = ix2 u i := ⟨x 0, x 1, eq_ix2 x⟩
  have hu : u = 0 := Subsingleton.elim _ _
  subst hu
  refine (shapeCast_a_1a_apply _ h2 0 i).trans ?_
  show FloatOps.addf (FloatOps.addf ((shapeCast S16 a h1 : FVec F S16 .f32) (ix1 i)) ((shapeCast S16 b h1 : FVec F S16 .f32) (ix1 i)))
      ((shapeCast S16 c h1 : FVec F S16 .f32) (ix1 i)) = _
  rw [shapeCast_1a_a_apply a h1 i, shapeCast_1a_a_apply b h1 i, shapeCast_1a_a_apply c h1 i]

/-- Lane group 1's stored value at one element. -/
theorem pay1_apply (a b c : Vec F S1x16 .f32) (x : S1x16.Idx) :
    k0_pay1 a b c x = FloatOps.addf (FloatOps.addf (a x) (b x)) (c x) :=
  pay_raw_apply _ _ a b c x

/-- Lane group 2's stored value at one element. -/
theorem pay2_apply (a b c : Vec F S1x16 .f32) (x : S1x16.Idx) :
    k0_pay2 a b c x = FloatOps.addf (FloatOps.addf (a x) (b x)) (c x) :=
  pay_raw_apply _ _ a b c x

/-- Lane group 3's stored value at one element. -/
theorem pay3_apply (a b c : Vec F S1x16 .f32) (x : S1x16.Idx) :
    k0_pay3 a b c x = FloatOps.addf (FloatOps.addf (a x) (b x)) (c x) :=
  pay_raw_apply _ _ a b c x

/-- Lane group 4's stored value at one element. -/
theorem pay4_apply (a b c : Vec F S1x16 .f32) (x : S1x16.Idx) :
    k0_pay4 a b c x = FloatOps.addf (FloatOps.addf (a x) (b x)) (c x) :=
  pay_raw_apply _ _ a b c x

/-- Lane group 5's stored value at one element. -/
theorem pay5_apply (a b c : Vec F S1x16 .f32) (x : S1x16.Idx) :
    k0_pay5 a b c x = FloatOps.addf (FloatOps.addf (a x) (b x)) (c x) :=
  pay_raw_apply _ _ a b c x

/-- Lane group 6's stored value at one element. -/
theorem pay6_apply (a b c : Vec F S1x16 .f32) (x : S1x16.Idx) :
    k0_pay6 a b c x = FloatOps.addf (FloatOps.addf (a x) (b x)) (c x) :=
  pay_raw_apply _ _ a b c x

/-- Lane group 7's stored value at one element. -/
theorem pay7_apply (a b c : Vec F S1x16 .f32) (x : S1x16.Idx) :
    k0_pay7 a b c x = FloatOps.addf (FloatOps.addf (a x) (b x)) (c x) :=
  pay_raw_apply _ _ a b c x

/-- Lane group 8's stored value at one element. -/
theorem pay8_apply (a b c : Vec F S1x16 .f32) (x : S1x16.Idx) :
    k0_pay8 a b c x = FloatOps.addf (FloatOps.addf (a x) (b x)) (c x) :=
  pay_raw_apply _ _ a b c x

omit [FloatOps F] in
/-- A [1,16] unit-stride rectangle of the [128,128] buffer at offsets (r, c) holds exactly the elements of row r
    whose lane lies in [c, c + 16). -/
theorem mem_unit_row {off : Fin 2 → ℕ} (inb : ∀ a, off a + S1x16.size a ≤ S128x128.size a) {r c : ℕ}
    (h : off = ![r, c]) (y : S128x128.Idx) :
    y ∈ (Rect.unit (s := S128x128) off S1x16.size inb).set ↔ (y 0).val = r ∧ c ≤ (y 1).val ∧ (y 1).val < c + 16 := by
  subst h
  refine Rect.mem_set_unit.trans ⟨fun hy => ?_, fun hy a => ?_⟩
  · have h0 : r ≤ (y 0).val ∧ (y 0).val < r + 1 := hy 0
    have h1 : c ≤ (y 1).val ∧ (y 1).val < c + 16 := hy 1
    omega
  · match a with
    | ⟨0, _⟩ => exact (show r ≤ (y 0).val ∧ (y 0).val < r + 1 from ⟨by omega, by omega⟩)
    | ⟨1, _⟩ => exact (show c ≤ (y 1).val ∧ (y 1).val < c + 16 from ⟨hy.2.1, hy.2.2⟩)

/-- The buffer after a list of stores all of which lie in row r, which together cover row r, and each of which
    stores the function G of the element it writes: row r holds G, every other row is unchanged. -/
theorem writes_row_apply (f : (b0V).view.ty.Contents (Elt F)) (G : S128x128.Idx → Elt F .f32) (r : ℕ)
    (Lst : List (View.Piece (Elt F) S128x128 .f32))
    (hG : ∀ p ∈ Lst, ∀ x : p.1.shape.Idx, p.2 x = G (p.1.emb x))
    (hrow : ∀ p ∈ Lst, ∀ y ∈ p.1.set, (y 0).val = r)
    (hcov : ∀ y : S128x128.Idx, (y 0).val = r → ∃ p ∈ Lst, y ∈ p.1.set) (y : S128x128.Idx) :
    (b0V).view.writes (Elt F) f Lst y = if (y 0).val = r then G y else f y := by
  by_cases h : (y 0).val = r
  · rw [if_pos h]
    exact View.read_writes_apply_of_pieces (b0V).view f G Lst hG y (hcov y h)
  · rw [if_neg h]
    exact View.read_writes_apply_of_forall_not_mem (b0V).view f y Lst (fun p hp hy => h (hrow p hp y hy))

end Pure

section Tile

variable (d : Dev nD) (L : grid0.Coords)

set_option maxHeartbeats 4000000 in
/-- One trip of the row loop: row r of the first buffer becomes (itself + the second buffer's row r) + the third
    buffer's row r, lane by lane; every other row of it, and the other two buffers, are unchanged. -/
theorem row_trip (k : Fin k0_t1_loop.trips) (r : Fin k0_t2_loop.trips) (acc v3 : BitVec 32)
    (ft : Buf (Elt F) ((b0V).view.loc (thr d L))) (A : Buf (Elt F) ((b1V).view.loc (thr d L))) (B : Buf (Elt F) ((b2V).view.loc (thr d L))) :
    (iprop(((b0V).view.loc (thr d L) ↦{fullShare} ft) ∗ ((b1V).view.loc (thr d L) ↦{fullShare} A) ∗ ((b2V).view.loc (thr d L) ↦{fullShare} B)) : sProp 𝕄)
      ⊢ wp frame (wpE (defs₀ (F := F)) 𝒱₀ (thr d L) none) Set.univ
          (k0_t2_body L f0V (Memref.isWhole_whole _) f1V (Memref.isWhole_whole _) f2V (Memref.isWhole_whole _)
            tkV (Memref.isWhole_whole _) psV (Memref.isWhole_whole _) sgV (Memref.isWhole_whole _) oV (Memref.isWhole_whole _)
            i0V (Memref.isWhole_whole _) i1V (Memref.isWhole_whole _) i2V (Memref.isWhole_whole _)
            b0V (Memref.isWhole_whole _) b1V (Memref.isWhole_whole _) b2V (Memref.isWhole_whole _)
            cc0_scratch6 cc0_scratch7 cc0_scratch8 cc0_scoped0 cc0_scoped1 cc0_scoped2 cc0_scoped3 v3 (0#32) (1#32) k r acc)
          fun _ => iprop((∃ ft' : Buf (Elt F) ((b0V).view.loc (thr d L)),
              ⌜∀ (r' l : Fin 128), ft' (ValueIdx.ix2 r' l) = if r'.val = r.val
                  then FloatOps.addf (FloatOps.addf (ft (ValueIdx.ix2 r' l)) (A (ValueIdx.ix2 r' l))) (B (ValueIdx.ix2 r' l)) else ft (ValueIdx.ix2 r' l)⌝
              ∗ ((b0V).view.loc (thr d L) ↦{fullShare} ft'))
            ∗ ((b1V).view.loc (thr d L) ↦{fullShare} A) ∗ ((b2V).view.loc (thr d L) ↦{fullShare} B)) := by
  iintro ⟨Hb0, Hb1, Hb2⟩
  unfold k0_t2_body
  sl_exec
  sl_step
  isplitl [Hb0]
  · iexists _
    isplitr
    on_goal 2 => iexact Hb0
    ipureintro
    intro r' l
    sl_unfold_run_names
    refine (writes_row_apply ft (fun y => FloatOps.addf (FloatOps.addf (ft y) (A y)) (B y)) r.val _ ?_ ?_ ?_
      (ValueIdx.ix2 r' l)).trans rfl
    · -- each store writes the sum of the three buffers at the element it writes
      exact forall_mem_eight
          (fun x => pay8_apply _ _ _ x)
          (fun x => pay7_apply _ _ _ x)
          (fun x => pay6_apply _ _ _ x)
          (fun x => pay5_apply _ _ _ x)
          (fun x => pay4_apply _ _ _ x)
          (fun x => pay3_apply _ _ _ x)
          (fun x => pay2_apply _ _ _ x)
          (fun x => pay1_apply _ _ _ x)
    · -- each store lies in row r
      exact forall_mem_eight
          (fun y hy => ((mem_unit_row (Gen.k0_off9_inb r) (Gen.k0_off9_eq r) y).1 hy).1)
          (fun y hy => ((mem_unit_row (Gen.k0_off8_inb r) (Gen.k0_off8_eq r) y).1 hy).1)
          (fun y hy => ((mem_unit_row (Gen.k0_off7_inb r) (Gen.k0_off7_eq r) y).1 hy).1)
          (fun y hy => ((mem_unit_row (Gen.k0_off6_inb r) (Gen.k0_off6_eq r) y).1 hy).1)
          (fun y hy => ((mem_unit_row (Gen.k0_off5_inb r) (Gen.k0_off5_eq r) y).1 hy).1)
          (fun y hy => ((mem_unit_row (Gen.k0_off4_inb r) (Gen.k0_off4_eq r) y).1 hy).1)
          (fun y hy => ((mem_unit_row (Gen.k0_off3_inb r) (Gen.k0_off3_eq r) y).1 hy).1)
          (fun y hy => ((mem_unit_row (Gen.k0_off2_inb r) (Gen.k0_off2_eq r) y).1 hy).1)
    · -- the eight lane groups cover row r
      intro y h0
      have hl : (y 1).val < 128 := ValueIdx.idx2_lt1 y
      by_cases h9 : 112 ≤ (y 1).val
      · exact ⟨_, List.mem_cons_self, (mem_unit_row (Gen.k0_off9_inb r) (Gen.k0_off9_eq r) y).2 ⟨h0, h9, by omega⟩⟩
      by_cases h8 : 96 ≤ (y 1).val
      · exact ⟨_, List.mem_cons_of_mem _ (List.mem_cons_self), (mem_unit_row (Gen.k0_off8_inb r) (Gen.k0_off8_eq r) y).2 ⟨h0, h8, by omega⟩⟩
      by_cases h7 : 80 ≤ (y 1).val
      · exact ⟨_, List.mem_cons_of_mem _ (List.mem_cons_of_mem _ (List.mem_cons_self)), (mem_unit_row (Gen.k0_off7_inb r) (Gen.k0_off7_eq r) y).2 ⟨h0, h7, by omega⟩⟩
      by_cases h6 : 64 ≤ (y 1).val
      · exact ⟨_, List.mem_cons_of_mem _ (List.mem_cons_of_mem _ (List.mem_cons_of_mem _ (List.mem_cons_self))), (mem_unit_row (Gen.k0_off6_inb r) (Gen.k0_off6_eq r) y).2 ⟨h0, h6, by omega⟩⟩
      by_cases h5 : 48 ≤ (y 1).val
      · exact ⟨_, List.mem_cons_of_mem _ (List.mem_cons_of_mem _ (List.mem_cons_of_mem _ (List.mem_cons_of_mem _ (List.mem_cons_self)))), (mem_unit_row (Gen.k0_off5_inb r) (Gen.k0_off5_eq r) y).2 ⟨h0, h5, by omega⟩⟩
      by_cases h4 : 32 ≤ (y 1).val
      · exact ⟨_, List.mem_cons_of_mem _ (List.mem_cons_of_mem _ (List.mem_cons_of_mem _ (List.mem_cons_of_mem _ (List.mem_cons_of_mem _ (List.mem_cons_self))))), (mem_unit_row (Gen.k0_off4_inb r) (Gen.k0_off4_eq r) y).2 ⟨h0, h4, by omega⟩⟩
      by_cases h3 : 16 ≤ (y 1).val
      · exact ⟨_, List.mem_cons_of_mem _ (List.mem_cons_of_mem _ (List.mem_cons_of_mem _ (List.mem_cons_of_mem _ (List.mem_cons_of_mem _ (List.mem_cons_of_mem _ (List.mem_cons_self)))))), (mem_unit_row (Gen.k0_off3_inb r) (Gen.k0_off3_eq r) y).2 ⟨h0, h3, by omega⟩⟩
      exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (mem_unit_row (Gen.k0_off2_inb r) (Gen.k0_off2_eq r) y).2 ⟨h0, Nat.zero_le _, by omega⟩⟩
  isplitl [Hb1]
  · iexact Hb1
  iexact Hb2

end Tile

end Cert.Proof.KernelRun

end
-- ==== Proof.KLaunch1.lean ====
/-
  The launch side of the kernel's run, first part: who owns which rows of the result, how the read shares of the six
  arrays every tile reads split and join, and how a SparseCore's operands split among its sixteen tiles.

  Tile (c, s) owns the token rows [32768 s + 16384 c, 32768 s + 16384 c + 16384): row x belongs to the tile with
  s = x / 32768 and c = (x / 16384) mod 2, and to no other, so the thirty-two row sets are pairwise disjoint and cover
  the 524288 rows. A points-to over a disjoint union is the separating conjunction of the points-tos over the parts,
  whatever the contents; a points-to at a share is the remainder share beside n read tokens.
-/
import proofs.«203542_g13958643712200_cont_week2b_591_2_alg».proof.Proof.KCommon

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The row sets -/

omit m in
theorem mem_tileRows (d : Dev nD) (c : Fin 2) (s : Fin 16) (j : S524288x128.Idx) :
    j ∈ tileRows d c s ↔ 32768 * s.val + 16384 * c.val ≤ (j 0).val ∧ (j 0).val < 32768 * s.val + 16384 * c.val + 16384 := by
  unfold tileRows tileBase
  exact ⟨fun h => (Finset.mem_filter.1 h).2, fun h => Finset.mem_filter.2 ⟨Finset.mem_univ _, h⟩⟩

omit m in
theorem mem_coreRows (d : Dev nD) (c : Fin 2) (j : S524288x128.Idx) : j ∈ coreRows d c ↔ ∃ s : Fin 16, j ∈ tileRows d c s := by
  unfold coreRows
  rw [Finset.mem_biUnion]
  exact ⟨fun ⟨s, _, h⟩ => ⟨s, h⟩, fun ⟨s, h⟩ => ⟨s, Finset.mem_univ _, h⟩⟩

omit m in
/-- The sixteen tiles of one SparseCore own disjoint rows. -/
theorem tileRows_disjoint (d : Dev nD) (c : Fin 2) :
    ∀ s ∈ (Finset.univ : Finset (Fin 16)), ∀ s' ∈ (Finset.univ : Finset (Fin 16)), s ≠ s' → Disjoint (tileRows d c s) (tileRows d c s') := by
  intro s _ s' _ hne
  rw [Finset.disjoint_left]
  intro j hj hj'
  rw [mem_tileRows] at hj hj'
  have hv : s.val ≠ s'.val := fun h => hne (Fin.ext h)
  omega

omit m in
/-- The two SparseCores own disjoint rows. -/
theorem coreRows_disjoint (d : Dev nD) :
    ∀ c ∈ (Finset.univ : Finset (Fin 2)), ∀ c' ∈ (Finset.univ : Finset (Fin 2)), c ≠ c' → Disjoint (coreRows d c) (coreRows d c') := by
  intro c _ c' _ hne
  rw [Finset.disjoint_left]
  intro j hj hj'
  obtain ⟨s, hs⟩ := (mem_coreRows d c j).1 hj
  obtain ⟨s', hs'⟩ := (mem_coreRows d c' j).1 hj'
  rw [mem_tileRows] at hs hs'
  have hv : c.val ≠ c'.val := fun h => hne (Fin.ext h)
  have h1 := c.isLt
  have h2 := c'.isLt
  omega

omit m in
/-- Between them they own every row: row x is tile (x / 16384 mod 2, x / 32768)'s. -/
theorem coreRows_cover (d : Dev nD) : (Finset.univ : Finset (Fin 2)).biUnion (coreRows d) = Finset.univ := by
  refine Finset.eq_univ_iff_forall.2 fun j => ?_
  have hx : (j 0).val < 524288 := (j 0).isLt
  rw [Finset.mem_biUnion]
  refine ⟨⟨(j 0).val / 16384 % 2, by omega⟩, Finset.mem_univ _, ?_⟩
  rw [mem_coreRows]
  refine ⟨⟨(j 0).val / 32768, by omega⟩, ?_⟩
  rw [mem_tileRows]
  show 32768 * ((j 0).val / 32768) + 16384 * ((j 0).val / 16384 % 2) ≤ (j 0).val
    ∧ (j 0).val < 32768 * ((j 0).val / 32768) + 16384 * ((j 0).val / 16384 % 2) + 16384
  omega

omit m in
/-- The result array whole is the two SparseCores' rows of it, -/
theorem oPts_cores (d : Dev nD) (f : Buf (Elt F) (oLoc d)) :
    (oLoc d ↦{fullShare} f : sProp 𝕄) = bigSep Finset.univ fun c : Fin 2 => oLoc d ↦[coreRows d c]{fullShare} f := by
  rw [← pointsTo_biUnion Finset.univ (ℓ := oLoc d) (coreRows d) (coreRows_disjoint d), coreRows_cover]; try rfl

omit m in
/-- and a SparseCore's rows are its sixteen tiles'. -/
theorem oPts_tiles (d : Dev nD) (c : Fin 2) (f : Buf (Elt F) (oLoc d)) :
    (oLoc d ↦[coreRows d c]{fullShare} f : sProp 𝕄) = bigSep Finset.univ fun s : Fin 16 => oLoc d ↦[tileRows d c s]{fullShare} f := by
  unfold coreRows
  exact pointsTo_biUnion Finset.univ (tileRows d c) (tileRows_disjoint d c)

/-! ## The read shares -/

/-- The six read arrays at share `q` are the same at the remainder share beside `n` read tokens of each. -/
theorem ins_split (d : Dev nD) (q : PosShare TreeShare) (n : ℕ) :
    ins m d q ⊢ iprop(ins m d (Transfers.shareDrop q n) ∗ bigSep Finset.univ fun i : Fin n => ins m d (Transfers.shareTok q n i)) := by
  unfold ins
  rw [bigSep_sep', bigSep_sep', bigSep_sep', bigSep_sep', bigSep_sep']
  iintro ⟨H0, H1, H2, H3, H4, H5⟩
  ihave H0 := (Transfers.pointsTo_toks_split q n) $$ H0
  ihave H1 := (Transfers.pointsTo_toks_split q n) $$ H1
  ihave H2 := (Transfers.pointsTo_toks_split q n) $$ H2
  ihave H3 := (Transfers.pointsTo_toks_split q n) $$ H3
  ihave H4 := (Transfers.pointsTo_toks_split q n) $$ H4
  ihave H5 := (Transfers.pointsTo_toks_split q n) $$ H5
  icases H0 with ⟨D0, T0⟩
  icases H1 with ⟨D1, T1⟩
  icases H2 with ⟨D2, T2⟩
  icases H3 with ⟨D3, T3⟩
  icases H4 with ⟨D4, T4⟩
  icases H5 with ⟨D5, T5⟩
  isplitl [D0 D1 D2 D3 D4 D5]
  · isplitl [D0]; · iexact D0
    isplitl [D1]; · iexact D1
    isplitl [D2]; · iexact D2
    isplitl [D3]; · iexact D3
    isplitl [D4]; · iexact D4
    iexact D5
  · isplitl [T0]; · iexact T0
    isplitl [T1]; · iexact T1
    isplitl [T2]; · iexact T2
    isplitl [T3]; · iexact T3
    isplitl [T4]; · iexact T4
    iexact T5

/-- Joined back. -/
theorem ins_join (d : Dev nD) (q : PosShare TreeShare) (n : ℕ) :
    iprop(ins m d (Transfers.shareDrop q n) ∗ bigSep Finset.univ fun i : Fin n => ins m d (Transfers.shareTok q n i)) ⊢ ins m d q := by
  unfold ins
  rw [bigSep_sep', bigSep_sep', bigSep_sep', bigSep_sep', bigSep_sep']
  iintro ⟨⟨D0, D1, D2, D3, D4, D5⟩, T0, T1, T2, T3, T4, T5⟩
  isplitl [D0 T0]
  · iapply (Transfers.pointsTo_toks_join q n); isplitl [D0]; · iexact D0
    iexact T0
  isplitl [D1 T1]
  · iapply (Transfers.pointsTo_toks_join q n); isplitl [D1]; · iexact D1
    iexact T1
  isplitl [D2 T2]
  · iapply (Transfers.pointsTo_toks_join q n); isplitl [D2]; · iexact D2
    iexact T2
  isplitl [D3 T3]
  · iapply (Transfers.pointsTo_toks_join q n); isplitl [D3]; · iexact D3
    iexact T3
  isplitl [D4 T4]
  · iapply (Transfers.pointsTo_toks_join q n); isplitl [D4]; · iexact D4
    iexact T4
  iapply (Transfers.pointsTo_toks_join q n); isplitl [D5]; · iexact D5
  iexact T5

/-! ## A SparseCore's operands among its tiles -/

omit m in
/-- A family over the call's sixteen tasks is the family over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit m in
/-- A family over the call's two SparseCores is the family over `Fin 2`. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F]

/-- SparseCore `c`'s read shares split into a remainder and one token per tile, its rows of the result into its tiles';
    the tokens and the tiles' rows at the sums come back, the tokens rejoin the remainder, the rows join. -/
theorem vecSplit : (K (F := F)).VecSplit' (P m) 0 := by
  intro d c
  show stC m d (Fin.cast nCore_zero c) ⊢ |={Set.univ}=> iprop(
      (bigSep Finset.univ fun i : Fin ((K (F := F)).nSub 0) => goT m d (Fin.cast nCore_zero c) (Fin.cast nSub_zero i))
      ∗ ((bigSep Finset.univ fun i : Fin ((K (F := F)).nSub 0) => tdT m d (Fin.cast nCore_zero c) (Fin.cast nSub_zero i))
          -∗ dnC m d (Fin.cast nCore_zero c)))
  generalize Fin.cast nCore_zero c = c'
  rw [bigSep_tasks (F := F) (fun s => goT m d c' s), bigSep_tasks (F := F) (fun s => tdT m d c' s)]
  unfold stC goT tdT dnC
  rw [bigSep_sep', bigSep_sep', oPts_tiles, oPts_tiles]
  iintro ⟨Hin, Ho⟩
  ihave Hin' := (ins_split m d (shC c') 16) $$ Hin
  icases Hin' with ⟨Hdrop, Htoks⟩
  imodintro
  isplitl [Htoks Ho]
  · isplitl [Htoks]; · iexact Htoks
    iexact Ho
  iintro ⟨Htoks, Ho⟩
  isplitl [Hdrop Htoks]
  · iapply (ins_join m d (shC c') 16)
    isplitl [Hdrop]; · iexact Hdrop
    iexact Htoks
  iexact Ho

end Cert.Proof.KernelRun

end
-- ==== Proof.KChunkData.lean ====
/-
  One chunk of a tile's task, as data. Tile (c, s) handles in chunk k the 128 flattened tokens starting at
  base = 32768 s + 16384 c + 128 k. The chunk's rows of the result lie inside the tile's rows. A gather through the
  chunk's labels delivers, at row r and lane l, the table's entry at the row the label of token base + r names and
  lane l. The sum of the three gathered entries is the specification's entry at (base + r, l). Writing the chunk's 128
  rows leaves every other element of the result as it was, so after chunk k every row of the tile below base + 128
  holds the specification's entries if every row below base did before.
-/
import proofs.«203542_g13958643712200_cont_week2b_591_2_alg».proof.Proof.KTileDefs
import proofs.«203542_g13958643712200_cont_week2b_591_2_alg».proof.Proof.KLaunch1

noncomputable section

namespace Cert.Proof.KernelRun

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "f0V" => (Memref.whole Cert.Kernel.main_v0_scv : Memref Cert.Kernel.sig Kind.scVector Space.hbm Cert.Kernel.S524288 EltTy.i32)
local notation "f1V" => (Memref.whole Cert.Kernel.main_v1_scv : Memref Cert.Kernel.sig Kind.scVector Space.hbm Cert.Kernel.S524288 EltTy.i32)
local notation "f2V" => (Memref.whole Cert.Kernel.main_v2_scv : Memref Cert.Kernel.sig Kind.scVector Space.hbm Cert.Kernel.S524288 EltTy.i32)
local notation "tkV" => (Memref.whole Cert.Kernel.main_arg3_scv : Memref Cert.Kernel.sig Kind.scVector Space.hbm Cert.Kernel.S100000x128 EltTy.f32)
local notation "psV" => (Memref.whole Cert.Kernel.main_arg4_scv : Memref Cert.Kernel.sig Kind.scVector Space.hbm Cert.Kernel.S512x128 EltTy.f32)
local notation "sgV" => (Memref.whole Cert.Kernel.main_arg5_scv : Memref Cert.Kernel.sig Kind.scVector Space.hbm Cert.Kernel.S3x128 EltTy.f32)
local notation "oV" => (Memref.whole Cert.Kernel.main_v3_scv : Memref Cert.Kernel.sig Kind.scVector Space.hbm Cert.Kernel.S524288x128 EltTy.f32)
local notation "i0V" => (Memref.whole Cert.Kernel.cc0_scratch0 : Memref Cert.Kernel.sig Kind.scVector Space.vmem Cert.Kernel.S128 EltTy.i32)
local notation "i1V" => (Memref.whole Cert.Kernel.cc0_scratch1 : Memref Cert.Kernel.sig Kind.scVector Space.vmem Cert.Kernel.S128 EltTy.i32)
local notation "i2V" => (Memref.whole Cert.Kernel.cc0_scratch2 : Memref Cert.Kernel.sig Kind.scVector Space.vmem Cert.Kernel.S128 EltTy.i32)
local notation "b0V" => (Memref.whole Cert.Kernel.cc0_scratch3 : Memref Cert.Kernel.sig Kind.scVector Space.vmem Cert.Kernel.S128x128 EltTy.f32)
local notation "b1V" => (Memref.whole Cert.Kernel.cc0_scratch4 : Memref Cert.Kernel.sig Kind.scVector Space.vmem Cert.Kernel.S128x128 EltTy.f32)
local notation "b2V" => (Memref.whole Cert.Kernel.cc0_scratch5 : Memref Cert.Kernel.sig Kind.scVector Space.vmem Cert.Kernel.S128x128 EltTy.f32)

variable (m : (ℓ : Loc nD τ sig) → Buf (Elt F) ℓ) (ρ : Dev nD → PrngReg)
variable [FloatOps F]
variable (d : Dev nD) (L : grid0.Coords)

/-! ## The chunk's rows -/

/-- The first token of chunk `k` of tile `L`. -/
def chunkBase (L : grid0.Coords) (k : Fin k0_t1_loop.trips) : ℕ := tileBase (cL L) (sL L) + 128 * k.val

theorem chunk_k_lt (k : Fin k0_t1_loop.trips) : k.val < 128 := Nat.lt_of_lt_of_le k.isLt Gen.k0_t1_abs.2.1

theorem chunkBase_eq (k : Fin k0_t1_loop.trips) : chunkBase L k = 32768 * (L 1).val + 16384 * (L 0).val + 128 * k.val := by
  unfold chunkBase tileBase; rfl

/-- Every token of the chunk is a token: the last tile's last chunk ends at 524288. -/
theorem chunk_row_lt (k : Fin k0_t1_loop.trips) (r : Fin 128) : chunkBase L k + r.val < 524288 := by
  have h0 := (cL L).isLt
  have h1 := (sL L).isLt
  have hk := chunk_k_lt k
  have hr := r.isLt
  unfold chunkBase tileBase
  omega

/-- The chunk's elements of the result: rows `[base, base + 128)`, every lane. -/
theorem mem_outChunk (k : Fin k0_t1_loop.trips) (j : S524288x128.Idx) :
    j ∈ (outChunk L k).view.set ↔ chunkBase L k ≤ (j 0).val ∧ (j 0).val < chunkBase L k + 128 := by
  have hs : (outChunk L k).view.set = (Rect.unit (s := S524288x128) (k0_off10 L k) S128x128.size (k0_off10_inb L k)).set :=
    View.set_slice_whole (main_v3_scv : Ref sig .scVector) _
  rw [hs, Rect.mem_set_unit, Gen.k0_off10_eq, chunkBase_eq]
  constructor
  · intro h
    exact h 0
  · intro h a
    match a with
    | ⟨0, _⟩ => exact h
    | ⟨1, _⟩ =>
      have hl : (j 1).val < 128 := (j 1).isLt
      exact ⟨Nat.zero_le _, by show (j 1).val < 0 + 128; omega⟩

/-- The chunk's rows are rows of its tile. -/
theorem chunk_sub (k : Fin k0_t1_loop.trips) : (outChunk L k).view.set ⊆ tileRows d (cL L) (sL L) := by
  intro j hj
  rw [mem_outChunk] at hj
  rw [mem_tileRows]
  have hk := chunk_k_lt k
  unfold chunkBase tileBase at hj
  omega

/-! ## Writing one chunk -/

/-- A write of the whole of a slice lands exactly on the slice's elements. -/
theorem set_slice_whole_rect {κ : Kind} {sp : Space} {s : Shape} {e : EltTy} (v : View sig κ sp s e) :
    (v.slice (Rect.whole s)).set = v.set := by
  rw [View.set_slice, Rect.set_whole]; rfl

/-- Off the chunk's rows the result array keeps its contents. -/
theorem out_off (k : Fin k0_t1_loop.trips) (fo : Buf (Elt F) (oLoc d)) (W : S128x128.Idx → Elt F .f32) :
    ∀ i ∈ tileRows d (cL L) (sL L) \ (outChunk L k).view.set, fo i = (outChunk L k).view.writes (Elt F) fo [⟨Rect.whole S128x128, W⟩] i := by
  intro i hi
  have hn : i ∉ (outChunk L k).view.set := (Finset.mem_sdiff.1 hi).2
  refine (View.write_of_not_mem (v := (outChunk L k).view.slice (Rect.whole S128x128)) fo W Finset.univ ?_).symm
  rw [View.setOn_univ, set_slice_whole_rect]
  exact hn

/-! ## The sum of the three gathered entries -/

theorem sum_is_OUT (k : Fin k0_t1_loop.trips) (r l : Fin 128) :
    FloatOps.addf (FloatOps.addf (m (tkLoc d) (ix2 (Cert.Embed.rowAt 100000 (by decide) (X0 m d (ix1 ⟨chunkBase L k + r.val, chunk_row_lt L k r⟩))) l))
        (m (psLoc d) (ix2 (Cert.Embed.rowAt 512 (by decide) (X1 m d (ix1 ⟨chunkBase L k + r.val, chunk_row_lt L k r⟩))) l)))
      (m (sgLoc d) (ix2 (Cert.Embed.rowAt 3 (by decide) (X2 m d (ix1 ⟨chunkBase L k + r.val, chunk_row_lt L k r⟩))) l))
      = OUT m d (ix2 ⟨chunkBase L k + r.val, chunk_row_lt L k r⟩ l) := by
  unfold OUT Cert.Embed.Gflat Cert.Embed.entry
  rfl

/-! ## The three gathers -/

/-- Chunk `k`'s label of array 0 at an index whose coordinate is `r` is the flattened label of token `base + r`. -/
theorem lab0_read (k : Fin k0_t1_loop.trips) (x : S128.Idx) (r : Fin 128) (hx : (x 0).val = r.val) :
    (lab0 L k).view.read (Elt F) (X0 m d) x = X0 m d (ix1 ⟨chunkBase L k + r.val, chunk_row_lt L k r⟩) := by
  refine (View.read_apply _ _).trans ((cast_eq _ _).trans (congrArg (X0 m d) ?_))
  funext a
  match a with
  | ⟨0, _⟩ =>
    apply Fin.ext
    show k0_off1 L k 0 + 1 * (x 0).val = chunkBase L k + r.val
    rw [Gen.k0_off1_eq, chunkBase_eq, hx]
    show 32768 * (L 1).val + 16384 * (L 0).val + 128 * k.val + 1 * r.val = 32768 * (L 1).val + 16384 * (L 0).val + 128 * k.val + r.val
    omega

/-- The tk table as the kernel slices it (whole) reads the table. -/
theorem tkAll_read (y : S100000x128.Idx) : View.read (Elt F) (tkAll).view (m (tkLoc d)) y = m (tkLoc d) y := by
  refine (View.read_apply _ _).trans ((cast_eq _ _).trans (congrArg (m (tkLoc d)) ?_))
  funext a
  match a with
  | ⟨0, _⟩ => apply Fin.ext; show 0 + 1 * (y 0).val = (y 0).val; omega
  | ⟨1, _⟩ => apply Fin.ext; show 0 + 1 * (y 1).val = (y 1).val; omega

/-- A whole write into scratch buffer 0 leaves the payload. -/
theorem b0_writes (fj : (b0V).view.ty.Contents (Elt F)) (w : S128x128.Idx → Elt F .f32) (x : S128x128.Idx) :
    (b0V).view.writes (Elt F) fj [⟨Rect.whole _, w⟩] x = w x := by
  have he : (((b0V).view).slice (Rect.whole S128x128)).emb x = x := Rect.emb_whole_apply _ _
  refine (congrArg ((b0V).view.writes (Elt F) fj [⟨Rect.whole _, w⟩]) he.symm).trans ?_
  exact (View.write_emb_of_mem (v := (b0V).view.slice (Rect.whole S128x128)) fj w (Finset.mem_univ x)).trans (cast_eq _ _)

/-- The gather through chunk `k`'s labels of array 0: row `r`, lane `l` of the scratch buffer is the table's entry at
    the row the label of token `base + r` names, lane `l` (whatever the buffer held before). -/
theorem gathered0' (k : Fin k0_t1_loop.trips) (g0 : Buf (Elt F) ((i0V).view.loc (thr d L))) (pay : S128.Idx → Elt F .i32)
    (hpay : pay = (lab0 L k).view.read (Elt F) (X0 m d))
    (hn : S128.numel = S128x128.size gathers_S100000x128_S128x128.axis')
    (hin : ∀ x, ((i0V).view.read (Elt F) (View.write (Elt F) (i0V).view g0 pay Finset.univ) x).toNat < S100000x128.size gathers_S100000x128_S128x128.axis)
    (w : S128x128.Idx → Elt F .f32)
    (hw : w = SparseCore.gatherPayload gathers_S100000x128_S128x128 (View.read (Elt F) (tkAll).view (m (tkLoc d)))
      (SparseCore.rows (View.read (Elt F) (i0V).view (View.write (Elt F) (i0V).view g0 pay Finset.univ)) hn hin))
    (fj : (b0V).view.ty.Contents (Elt F)) (r l : Fin 128) :
    (b0V).view.writes (Elt F) fj [⟨Rect.whole _, w⟩] (ix2 r l)
      = m (tkLoc d) (ix2 (Cert.Embed.rowAt 100000 (by decide) (X0 m d (ix1 ⟨chunkBase L k + r.val, chunk_row_lt L k r⟩))) l) := by
  -- the index scratch, just written whole with the labels, reads the labels
  have hidx : View.read (Elt F) (i0V).view (View.write (Elt F) (i0V).view g0 pay Finset.univ) = pay := View.read_write_univ _ _
  -- the word the list names for row `r`: the label of token `base + r`
  have hword : ∀ x : S128.Idx, (x 0).val = r.val →
      View.read (Elt F) (i0V).view (View.write (Elt F) (i0V).view g0 pay Finset.univ) x = X0 m d (ix1 ⟨chunkBase L k + r.val, chunk_row_lt L k r⟩) := by
    intro x hx
    rw [hidx, hpay]
    exact lab0_read m d L k x r hx
  refine (b0_writes fj w (ix2 r l)).trans ?_
  rw [hw]
  show View.read (Elt F) (tkAll).view (m (tkLoc d)) (gathers_S100000x128_S128x128.idx
      (SparseCore.rows (View.read (Elt F) (i0V).view (View.write (Elt F) (i0V).view g0 pay Finset.univ)) hn hin) (ix2 r l)) = _
  rw [tkAll_read]
  refine congrArg (m (tkLoc d)) ?_
  -- the row-major position `r` of the list is its index `r`
  have hsymm : ((S128.rowMajor.symm ((((ix2 r l : S128x128.Idx) gathers_S100000x128_S128x128.axis')).cast hn.symm)) 0).val = r.val :=
    (Shape.rowMajor_val_one (S128.rowMajor.symm _)).symm.trans (congrArg Fin.val (Equiv.apply_symm_apply S128.rowMajor _))
  funext a
  match a with
  | ⟨0, _⟩ =>
    apply Fin.ext
    refine (congrArg Fin.val (Shape.Gathers.idx_axis gathers_S100000x128_S128x128 _ (ix2 r l))).trans ?_
    show (View.read (Elt F) (i0V).view (View.write (Elt F) (i0V).view g0 pay Finset.univ)
      (S128.rowMajor.symm ((((ix2 r l : S128x128.Idx) gathers_S100000x128_S128x128.axis')).cast hn.symm))).toNat = _
    have hlt := hin (S128.rowMajor.symm ((((ix2 r l : S128x128.Idx) gathers_S100000x128_S128x128.axis')).cast hn.symm))
    rw [hword _ hsymm] at hlt ⊢
    exact (Cert.Embed.rowAt_val _ _ hlt).symm
  | ⟨1, _⟩ =>
    apply Fin.ext
    exact Shape.Gathers.idx_of_ne gathers_S100000x128_S128x128 _ (ix2 r l) ⟨1, by decide⟩ (by decide)

/-- The same over the contents a covered load is stated over. -/
theorem gathered0 [∀ e, Nonempty (Elt F e)] (k : Fin k0_t1_loop.trips) (g0 : Buf (Elt F) ((i0V).view.loc (thr d L))) (pay : S128.Idx → Elt F .i32)
    (hpay : pay = (lab0 L k).view.read (Elt F) (X0 m d))
    (hn : S128.numel = S128x128.size gathers_S100000x128_S128x128.axis')
    (hin : ∀ x, ((i0V).view.read (Elt F) (View.write (Elt F) (i0V).view g0 pay Finset.univ) x).toNat < S100000x128.size gathers_S100000x128_S128x128.axis)
    (w : S128x128.Idx → Elt F .f32)
    (hw : w = SparseCore.gatherPayload gathers_S100000x128_S128x128 (View.read (Elt F) (tkAll).view (m (tkLoc d)))
      (SparseCore.rows (View.read (Elt F) (i0V).view (View.write (Elt F) (i0V).view g0 pay Finset.univ)) hn hin))
    (r l : Fin 128) :
    (b0V).view.writes (Elt F) (b0V).view.junk [⟨Rect.whole _, w⟩] (ix2 r l)
      = m (tkLoc d) (ix2 (Cert.Embed.rowAt 100000 (by decide) (X0 m d (ix1 ⟨chunkBase L k + r.val, chunk_row_lt L k r⟩))) l) :=
  gathered0' m d L k g0 pay hpay hn hin w hw _ r l

/-- Chunk `k`'s label of array 1 at an index whose coordinate is `r` is the flattened label of token `base + r`. -/
theorem lab1_read (k : Fin k0_t1_loop.trips) (x : S128.Idx) (r : Fin 128) (hx : (x 0).val = r.val) :
    (lab1 L k).view.read (Elt F) (X1 m d) x = X1 m d (ix1 ⟨chunkBase L k + r.val, chunk_row_lt L k r⟩) := by
  refine (View.read_apply _ _).trans ((cast_eq _ _).trans (congrArg (X1 m d) ?_))
  funext a
  match a with
  | ⟨0, _⟩ =>
    apply Fin.ext
    show k0_off1 L k 0 + 1 * (x 0).val = chunkBase L k + r.val
    rw [Gen.k0_off1_eq, chunkBase_eq, hx]
    show 32768 * (L 1).val + 16384 * (L 0).val + 128 * k.val + 1 * r.val = 32768 * (L 1).val + 16384 * (L 0).val + 128 * k.val + r.val
    omega

/-- The ps table as the kernel slices it (whole) reads the table. -/
theorem psAll_read (y : S512x128.Idx) : View.read (Elt F) (psAll).view (m (psLoc d)) y = m (psLoc d) y := by
  refine (View.read_apply _ _).trans ((cast_eq _ _).trans (congrArg (m (psLoc d)) ?_))
  funext a
  match a with
  | ⟨0, _⟩ => apply Fin.ext; show 0 + 1 * (y 0).val = (y 0).val; omega
  | ⟨1, _⟩ => apply Fin.ext; show 0 + 1 * (y 1).val = (y 1).val; omega

/-- A whole write into scratch buffer 1 leaves the payload. -/
theorem b1_writes (fj : (b1V).view.ty.Contents (Elt F)) (w : S128x128.Idx → Elt F .f32) (x : S128x128.Idx) :
    (b1V).view.writes (Elt F) fj [⟨Rect.whole _, w⟩] x = w x := by
  have he : (((b1V).view).slice (Rect.whole S128x128)).emb x = x := Rect.emb_whole_apply _ _
  refine (congrArg ((b1V).view.writes (Elt F) fj [⟨Rect.whole _, w⟩]) he.symm).trans ?_
  exact (View.write_emb_of_mem (v := (b1V).view.slice (Rect.whole S128x128)) fj w (Finset.mem_univ x)).trans (cast_eq _ _)

/-- The gather through chunk `k`'s labels of array 1: row `r`, lane `l` of the scratch buffer is the table's entry at
    the row the label of token `base + r` names, lane `l` (whatever the buffer held before). -/
theorem gathered1' (k : Fin k0_t1_loop.trips) (g0 : Buf (Elt F) ((i1V).view.loc (thr d L))) (pay : S128.Idx → Elt F .i32)
    (hpay : pay = (lab1 L k).view.read (Elt F) (X1 m d))
    (hn : S128.numel = S128x128.size gathers_S512x128_S128x128.axis')
    (hin : ∀ x, ((i1V).view.read (Elt F) (View.write (Elt F) (i1V).view g0 pay Finset.univ) x).toNat < S512x128.size gathers_S512x128_S128x128.axis)
    (w : S128x128.Idx → Elt F .f32)
    (hw : w = SparseCore.gatherPayload gathers_S512x128_S128x128 (View.read (Elt F) (psAll).view (m (psLoc d)))
      (SparseCore.rows (View.read (Elt F) (i1V).view (View.write (Elt F) (i1V).view g0 pay Finset.univ)) hn hin))
    (fj : (b1V).view.ty.Contents (Elt F)) (r l : Fin 128) :
    (b1V).view.writes (Elt F) fj [⟨Rect.whole _, w⟩] (ix2 r l)
      = m (psLoc d) (ix2 (Cert.Embed.rowAt 512 (by decide) (X1 m d (ix1 ⟨chunkBase L k + r.val, chunk_row_lt L k r⟩))) l) := by
  -- the index scratch, just written whole with the labels, reads the labels
  have hidx : View.read (Elt F) (i1V).view (View.write (Elt F) (i1V).view g0 pay Finset.univ) = pay := View.read_write_univ _ _
  -- the word the list names for row `r`: the label of token `base + r`
  have hword : ∀ x : S128.Idx, (x 0).val = r.val →
      View.read (Elt F) (i1V).view (View.write (Elt F) (i1V).view g0 pay Finset.univ) x = X1 m d (ix1 ⟨chunkBase L k + r.val, chunk_row_lt L k r⟩) := by
    intro x hx
    rw [hidx, hpay]
    exact lab1_read m d L k x r hx
  refine (b1_writes fj w (ix2 r l)).trans ?_
  rw [hw]
  show View.read (Elt F) (psAll).view (m (psLoc d)) (gathers_S512x128_S128x128.idx
      (SparseCore.rows (View.read (Elt F) (i1V).view (View.write (Elt F) (i1V).view g0 pay Finset.univ)) hn hin) (ix2 r l)) = _
  rw [psAll_read]
  refine congrArg (m (psLoc d)) ?_
  -- the row-major position `r` of the list is its index `r`
  have hsymm : ((S128.rowMajor.symm ((((ix2 r l : S128x128.Idx) gathers_S512x128_S128x128.axis')).cast hn.symm)) 0).val = r.val :=
    (Shape.rowMajor_val_one (S128.rowMajor.symm _)).symm.trans (congrArg Fin.val (Equiv.apply_symm_apply S128.rowMajor _))
  funext a
  match a with
  | ⟨0, _⟩ =>
    apply Fin.ext
    refine (congrArg Fin.val (Shape.Gathers.idx_axis gathers_S512x128_S128x128 _ (ix2 r l))).trans ?_
    show (View.read (Elt F) (i1V).view (View.write (Elt F) (i1V).view g0 pay Finset.univ)
      (S128.rowMajor.symm ((((ix2 r l : S128x128.Idx) gathers_S512x128_S128x128.axis')).cast hn.symm))).toNat = _
    have hlt := hin (S128.rowMajor.symm ((((ix2 r l : S128x128.Idx) gathers_S512x128_S128x128.axis')).cast hn.symm))
    rw [hword _ hsymm] at hlt ⊢
    exact (Cert.Embed.rowAt_val _ _ hlt).symm
  | ⟨1, _⟩ =>
    apply Fin.ext
    exact Shape.Gathers.idx_of_ne gathers_S512x128_S128x128 _ (ix2 r l) ⟨1, by decide⟩ (by decide)

/-- The same over the contents a covered load is stated over. -/
theorem gathered1 [∀ e, Nonempty (Elt F e)] (k : Fin k0_t1_loop.trips) (g0 : Buf (Elt F) ((i1V).view.loc (thr d L))) (pay : S128.Idx → Elt F .i32)
    (hpay : pay = (lab1 L k).view.read (Elt F) (X1 m d))
    (hn : S128.numel = S128x128.size gathers_S512x128_S128x128.axis')
    (hin : ∀ x, ((i1V).view.read (Elt F) (View.write (Elt F) (i1V).view g0 pay Finset.univ) x).toNat < S512x128.size gathers_S512x128_S128x128.axis)
    (w : S128x128.Idx → Elt F .f32)
    (hw : w = SparseCore.gatherPayload gathers_S512x128_S128x128 (View.read (Elt F) (psAll).view (m (psLoc d)))
      (SparseCore.rows (View.read (Elt F) (i1V).view (View.write (Elt F) (i1V).view g0 pay Finset.univ)) hn hin))
    (r l : Fin 128) :
    (b1V).view.writes (Elt F) (b1V).view.junk [⟨Rect.whole _, w⟩] (ix2 r l)
      = m (psLoc d) (ix2 (Cert.Embed.rowAt 512 (by decide) (X1 m d (ix1 ⟨chunkBase L k + r.val, chunk_row_lt L k r⟩))) l) :=
  gathered1' m d L k g0 pay hpay hn hin w hw _ r l

/-- Chunk `k`'s label of array 2 at an index whose coordinate is `r` is the flattened label of token `base + r`. -/
theorem lab2_read (k : Fin k0_t1_loop.trips) (x : S128.Idx) (r : Fin 128) (hx : (x 0).val = r.val) :
    (lab2 L k).view.read (Elt F) (X2 m d) x = X2 m d (ix1 ⟨chunkBase L k + r.val, chunk_row_lt L k r⟩) := by
  refine (View.read_apply _ _).trans ((cast_eq _ _).trans (congrArg (X2 m d) ?_))
  funext a
  match a with
  | ⟨0, _⟩ =>
    apply Fin.ext
    show k0_off1 L k 0 + 1 * (x 0).val = chunkBase L k + r.val
    rw [Gen.k0_off1_eq, chunkBase_eq, hx]
    show 32768 * (L 1).val + 16384 * (L 0).val + 128 * k.val + 1 * r.val = 32768 * (L 1).val + 16384 * (L 0).val + 128 * k.val + r.val
    omega

/-- The sg table as the kernel slices it (whole) reads the table. -/
theorem sgAll_read (y : S3x128.Idx) : View.read (Elt F) (sgAll).view (m (sgLoc d)) y = m (sgLoc d) y := by
  refine (View.read_apply _ _).trans ((cast_eq _ _).trans (congrArg (m (sgLoc d)) ?_))
  funext a
  match a with
  | ⟨0, _⟩ => apply Fin.ext; show 0 + 1 * (y 0).val = (y 0).val; omega
  | ⟨1, _⟩ => apply Fin.ext; show 0 + 1 * (y 1).val = (y 1).val; omega

/-- A whole write into scratch buffer 2 leaves the payload. -/
theorem b2_writes (fj : (b2V).view.ty.Contents (Elt F)) (w : S128x128.Idx → Elt F .f32) (x : S128x128.Idx) :
    (b2V).view.writes (Elt F) fj [⟨Rect.whole _, w⟩] x = w x := by
  have he : (((b2V).view).slice (Rect.whole S128x128)).emb x = x := Rect.emb_whole_apply _ _
  refine (congrArg ((b2V).view.writes (Elt F) fj [⟨Rect.whole _, w⟩]) he.symm).trans ?_
  exact (View.write_emb_of_mem (v := (b2V).view.slice (Rect.whole S128x128)) fj w (Finset.mem_univ x)).trans (cast_eq _ _)

/-- The gather through chunk `k`'s labels of array 2: row `r`, lane `l` of the scratch buffer is the table's entry at
    the row the label of token `base + r` names, lane `l` (whatever the buffer held before). -/
theorem gathered2' (k : Fin k0_t1_loop.trips) (g0 : Buf (Elt F) ((i2V).view.loc (thr d L))) (pay : S128.Idx → Elt F .i32)
    (hpay : pay = (lab2 L k).view.read (Elt F) (X2 m d))
    (hn : S128.numel = S128x128.size gathers_S3x128_S128x128.axis')
    (hin : ∀ x, ((i2V).view.read (Elt F) (View.write (Elt F) (i2V).view g0 pay Finset.univ) x).toNat < S3x128.size gathers_S3x128_S128x128.axis)
    (w : S128x128.Idx → Elt F .f32)
    (hw : w = SparseCore.gatherPayload gathers_S3x128_S128x128 (View.read (Elt F) (sgAll).view (m (sgLoc d)))
      (SparseCore.rows (View.read (Elt F) (i2V).view (View.write (Elt F) (i2V).view g0 pay Finset.univ)) hn hin))
    (fj : (b2V).view.ty.Contents (Elt F)) (r l : Fin 128) :
    (b2V).view.writes (Elt F) fj [⟨Rect.whole _, w⟩] (ix2 r l)
      = m (sgLoc d) (ix2 (Cert.Embed.rowAt 3 (by decide) (X2 m d (ix1 ⟨chunkBase L k + r.val, chunk_row_lt L k r⟩))) l) := by
  -- the index scratch, just written whole with the labels, reads the labels
  have hidx : View.read (Elt F) (i2V).view (View.write (Elt F) (i2V).view g0 pay Finset.univ) = pay := View.read_write_univ _ _
  -- the word the list names for row `r`: the label of token `base + r`
  have hword : ∀ x : S128.Idx, (x 0).val = r.val →
      View.read (Elt F) (i2V).view (View.write (Elt F) (i2V).view g0 pay Finset.univ) x = X2 m d (ix1 ⟨chunkBase L k + r.val, chunk_row_lt L k r⟩) := by
    intro x hx
    rw [hidx, hpay]
    exact lab2_read m d L k x r hx
  refine (b2_writes fj w (ix2 r l)).trans ?_
  rw [hw]
  show View.read (Elt F) (sgAll).view (m (sgLoc d)) (gathers_S3x128_S128x128.idx
      (SparseCore.rows (View.read (Elt F) (i2V).view (View.write (Elt F) (i2V).view g0 pay Finset.univ)) hn hin) (ix2 r l)) = _
  rw [sgAll_read]
  refine congrArg (m (sgLoc d)) ?_
  -- the row-major position `r` of the list is its index `r`
  have hsymm : ((S128.rowMajor.symm ((((ix2 r l : S128x128.Idx) gathers_S3x128_S128x128.axis')).cast hn.symm)) 0).val = r.val :=
    (Shape.rowMajor_val_one (S128.rowMajor.symm _)).symm.trans (congrArg Fin.val (Equiv.apply_symm_apply S128.rowMajor _))
  funext a
  match a with
  | ⟨0, _⟩ =>
    apply Fin.ext
    refine (congrArg Fin.val (Shape.Gathers.idx_axis gathers_S3x128_S128x128 _ (ix2 r l))).trans ?_
    show (View.read (Elt F) (i2V).view (View.write (Elt F) (i2V).view g0 pay Finset.univ)
      (S128.rowMajor.symm ((((ix2 r l : S128x128.Idx) gathers_S3x128_S128x128.axis')).cast hn.symm))).toNat = _
    have hlt := hin (S128.rowMajor.symm ((((ix2 r l : S128x128.Idx) gathers_S3x128_S128x128.axis')).cast hn.symm))
    rw [hword _ hsymm] at hlt ⊢
    exact (Cert.Embed.rowAt_val _ _ hlt).symm
  | ⟨1, _⟩ =>
    apply Fin.ext
    exact Shape.Gathers.idx_of_ne gathers_S3x128_S128x128 _ (ix2 r l) ⟨1, by decide⟩ (by decide)

/-- The same over the contents a covered load is stated over. -/
theorem gathered2 [∀ e, Nonempty (Elt F e)] (k : Fin k0_t1_loop.trips) (g0 : Buf (Elt F) ((i2V).view.loc (thr d L))) (pay : S128.Idx → Elt F .i32)
    (hpay : pay = (lab2 L k).view.read (Elt F) (X2 m d))
    (hn : S128.numel = S128x128.size gathers_S3x128_S128x128.axis')
    (hin : ∀ x, ((i2V).view.read (Elt F) (View.write (Elt F) (i2V).view g0 pay Finset.univ) x).toNat < S3x128.size gathers_S3x128_S128x128.axis)
    (w : S128x128.Idx → Elt F .f32)
    (hw : w = SparseCore.gatherPayload gathers_S3x128_S128x128 (View.read (Elt F) (sgAll).view (m (sgLoc d)))
      (SparseCore.rows (View.read (Elt F) (i2V).view (View.write (Elt F) (i2V).view g0 pay Finset.univ)) hn hin))
    (r l : Fin 128) :
    (b2V).view.writes (Elt F) (b2V).view.junk [⟨Rect.whole _, w⟩] (ix2 r l)
      = m (sgLoc d) (ix2 (Cert.Embed.rowAt 3 (by decide) (X2 m d (ix1 ⟨chunkBase L k + r.val, chunk_row_lt L k r⟩))) l) :=
  gathered2' m d L k g0 pay hpay hn hin w hw _ r l

/-! ## One chunk's rows written -/

/-- After chunk `k`'s rows are written with the specification's entries, every row of the tile below `base + 128` holds
    them, if every row below `base` did: the rows below `base` are off the chunk and keep their contents; a row of the
    chunk is written with the scratch buffer's row at the same offset. -/
theorem out_step (k : Fin k0_t1_loop.trips) (fo : Buf (Elt F) (oLoc d))
    (hfo : ∀ j : S524288x128.Idx, j ∈ tileRows d (cL L) (sL L) → (j 0).val < tileBase (cL L) (sL L) + 128 * k.val → fo j = OUT m d j)
    (ft : Buf (Elt F) ((b0V).view.loc (thr d L)))
    (hft : ∀ (r l : Fin 128), ft (ix2 r l) = OUT m d (ix2 ⟨chunkBase L k + r.val, chunk_row_lt L k r⟩ l))
    (W : S128x128.Idx → Elt F .f32) (hW : W = (b0V).view.read (Elt F) ft) :
    ∀ j : S524288x128.Idx, j ∈ tileRows d (cL L) (sL L) → (j 0).val < tileBase (cL L) (sL L) + 128 * (k.val + 1) →
      (outChunk L k).view.writes (Elt F) fo [⟨Rect.whole S128x128, W⟩] j = OUT m d j := by
  intro j hj hlt
  by_cases hlo : (j 0).val < chunkBase L k
  · -- a row below the chunk
    have hn : j ∉ (outChunk L k).view.set := by
      rw [mem_outChunk]; omega
    rw [← out_off d L k fo W j (Finset.mem_sdiff.2 ⟨hj, hn⟩)]
    exact hfo j hj hlo
  · -- a row of the chunk: row `(j 0) - base` of the scratch buffer
    have hhi : (j 0).val < chunkBase L k + 128 := by unfold chunkBase; omega
    have hl : (j 1).val < 128 := (j 1).isLt
    have hr : (j 0).val - chunkBase L k < 128 := by omega
    have hy : ((outChunk L k).view.slice (Rect.whole S128x128)).emb (ix2 ⟨(j 0).val - chunkBase L k, hr⟩ ⟨(j 1).val, hl⟩) = j := by
      funext a
      match a with
      | ⟨0, _⟩ =>
        apply Fin.ext
        show k0_off10 L k 0 + 1 * (0 + 1 * ((j 0).val - chunkBase L k)) = (j 0).val
        rw [Gen.k0_off10_eq, ← chunkBase_eq]
        show chunkBase L k + 1 * (0 + 1 * ((j 0).val - chunkBase L k)) = (j 0).val
        omega
      | ⟨1, _⟩ =>
        apply Fin.ext
        show k0_off10 L k 1 + 1 * (0 + 1 * (j 1).val) = (j 1).val
        rw [Gen.k0_off10_eq]
        show 0 + 1 * (0 + 1 * (j 1).val) = (j 1).val
        omega
    refine (congrArg ((outChunk L k).view.writes (Elt F) fo [⟨Rect.whole S128x128, W⟩]) hy.symm).trans ?_
    refine (View.write_emb_of_mem (v := (outChunk L k).view.slice (Rect.whole S128x128)) fo W (Finset.mem_univ _)).trans ((cast_eq _ _).trans ?_)
    rw [hW]
    show ft (ix2 ⟨(j 0).val - chunkBase L k, hr⟩ ⟨(j 1).val, hl⟩) = _
    rw [hft]
    refine congrArg (OUT m d) ?_
    funext a
    match a with
    | ⟨0, _⟩ => apply Fin.ext; show chunkBase L k + ((j 0).val - chunkBase L k) = (j 0).val; omega
    | ⟨1, _⟩ => rfl

end Cert.Proof.KernelRun

end
-- ==== Proof.KTileBody.lean ====
/-
  One tile's task, run once at a symbolic tile: the launch theorem's obligation for the kernel's one call.

  A tile loops over its 128 chunks of 128 tokens. In chunk `k` it copies the chunk's flattened labels of the three label
  arrays into its index scratches, gathers the rows they name from the three tables into its three row scratches
  (the labels name rows because the precondition bounds them: `hin0`, `hin1`, `hin2`), adds the second and third
  scratch into the first row by row (a loop over the 128 rows, `invI`: rows below `r` hold the sum, the others the
  first table's gathered row), and copies the first scratch out to the chunk's 128 token rows of the result. The
  chunk loop's invariant `invO` says the tile's rows of the result agree with the sum of rows `OUT` on the chunks
  already written; a chunk's copy writes exactly its own 128 rows, with the sums, and leaves the others
  (`out_step`, `out_off`). After the last chunk the tile's rows are `OUT` throughout. The tile only reads the six
  input arrays, at its read share, and gives them back as it got them.
-/
import proofs.«203542_g13958643712200_cont_week2b_591_2_alg».proof.Proof.KTileDefs
import proofs.«203542_g13958643712200_cont_week2b_591_2_alg».proof.Proof.KRowTrip
import proofs.«203542_g13958643712200_cont_week2b_591_2_alg».proof.Proof.KLaunch1
import proofs.«203542_g13958643712200_cont_week2b_591_2_alg».proof.Proof.KChunkData

noncomputable section

namespace Cert.Proof.KernelRun

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

local notation "f0V" => (Memref.whole Cert.Kernel.main_v0_scv : Memref Cert.Kernel.sig Kind.scVector Space.hbm Cert.Kernel.S524288 EltTy.i32)
local notation "f1V" => (Memref.whole Cert.Kernel.main_v1_scv : Memref Cert.Kernel.sig Kind.scVector Space.hbm Cert.Kernel.S524288 EltTy.i32)
local notation "f2V" => (Memref.whole Cert.Kernel.main_v2_scv : Memref Cert.Kernel.sig Kind.scVector Space.hbm Cert.Kernel.S524288 EltTy.i32)
local notation "tkV" => (Memref.whole Cert.Kernel.main_arg3_scv : Memref Cert.Kernel.sig Kind.scVector Space.hbm Cert.Kernel.S100000x128 EltTy.f32)
local notation "psV" => (Memref.whole Cert.Kernel.main_arg4_scv : Memref Cert.Kernel.sig Kind.scVector Space.hbm Cert.Kernel.S512x128 EltTy.f32)
local notation "sgV" => (Memref.whole Cert.Kernel.main_arg5_scv : Memref Cert.Kernel.sig Kind.scVector Space.hbm Cert.Kernel.S3x128 EltTy.f32)
local notation "oV" => (Memref.whole Cert.Kernel.main_v3_scv : Memref Cert.Kernel.sig Kind.scVector Space.hbm Cert.Kernel.S524288x128 EltTy.f32)
local notation "i0V" => (Memref.whole Cert.Kernel.cc0_scratch0 : Memref Cert.Kernel.sig Kind.scVector Space.vmem Cert.Kernel.S128 EltTy.i32)
local notation "i1V" => (Memref.whole Cert.Kernel.cc0_scratch1 : Memref Cert.Kernel.sig Kind.scVector Space.vmem Cert.Kernel.S128 EltTy.i32)
local notation "i2V" => (Memref.whole Cert.Kernel.cc0_scratch2 : Memref Cert.Kernel.sig Kind.scVector Space.vmem Cert.Kernel.S128 EltTy.i32)
local notation "b0V" => (Memref.whole Cert.Kernel.cc0_scratch3 : Memref Cert.Kernel.sig Kind.scVector Space.vmem Cert.Kernel.S128x128 EltTy.f32)
local notation "b1V" => (Memref.whole Cert.Kernel.cc0_scratch4 : Memref Cert.Kernel.sig Kind.scVector Space.vmem Cert.Kernel.S128x128 EltTy.f32)
local notation "b2V" => (Memref.whole Cert.Kernel.cc0_scratch5 : Memref Cert.Kernel.sig Kind.scVector Space.vmem Cert.Kernel.S128x128 EltTy.f32)

variable [FloatOps F] [∀ e, Nonempty (Elt F e)]

section Tile

variable (d : Dev nD) (L : grid0.Coords)

/-- Labels in range: what the certificate's precondition gives of the launch memory (every device). -/
def PreOK : Prop := ∀ d : Dev nD, Cert.Embed.InRange (m (a0Loc d)) (m (a1Loc d)) (m (a2Loc d))

omit [FloatOps F] [∀ e, Nonempty (Elt F e)] in
theorem X0_lt (hpre : PreOK m) (j : S524288.Idx) : (X0 m d j).toNat < 100000 := by
  unfold X0 shapeCast; exact (hpre d).1 _
omit [FloatOps F] [∀ e, Nonempty (Elt F e)] in
theorem X1_lt (hpre : PreOK m) (j : S524288.Idx) : (X1 m d j).toNat < 512 := by
  unfold X1 shapeCast; exact (hpre d).2.1 _
omit [FloatOps F] [∀ e, Nonempty (Elt F e)] in
theorem X2_lt (hpre : PreOK m) (j : S524288.Idx) : (X2 m d j).toNat < 3 := by
  unfold X2 shapeCast; exact (hpre d).2.2 _

omit [FloatOps F] [∀ e, Nonempty (Elt F e)] in
/-- What a chunk's label fetch lands in its index scratch names rows of the token table. -/
theorem hin0 (hpre : PreOK m) (k : Fin k0_t1_loop.trips) (g0 : Buf (Elt F) ((i0V).view.loc (thr d L))) (pay : S128.Idx → Elt F .i32)
    (hpay : pay = (lab0 L k).view.read (Elt F) (X0 m d)) :
    ∀ x, ((i0V).view.read (Elt F) (View.write (Elt F) (i0V).view g0 pay Finset.univ) x).toNat < S100000x128.size gathers_S100000x128_S128x128.axis := by
  subst hpay; intro x
  rw [View.write_whole_univ]
  simp only [Memref.view_whole, View.read_whole]
  rw [show ∀ j, (lab0 L k).view.read (Elt F) (X0 m d) j = X0 m d ((lab0 L k).view.emb j) from fun j => (View.read_apply _ _).trans (cast_eq _ _)]
  exact X0_lt m d hpre _
omit [FloatOps F] [∀ e, Nonempty (Elt F e)] in
theorem hin1 (hpre : PreOK m) (k : Fin k0_t1_loop.trips) (g0 : Buf (Elt F) ((i1V).view.loc (thr d L))) (pay : S128.Idx → Elt F .i32)
    (hpay : pay = (lab1 L k).view.read (Elt F) (X1 m d)) :
    ∀ x, ((i1V).view.read (Elt F) (View.write (Elt F) (i1V).view g0 pay Finset.univ) x).toNat < S512x128.size gathers_S512x128_S128x128.axis := by
  subst hpay; intro x
  rw [View.write_whole_univ]
  simp only [Memref.view_whole, View.read_whole]
  rw [show ∀ j, (lab1 L k).view.read (Elt F) (X1 m d) j = X1 m d ((lab1 L k).view.emb j) from fun j => (View.read_apply _ _).trans (cast_eq _ _)]
  exact X1_lt m d hpre _
omit [FloatOps F] [∀ e, Nonempty (Elt F e)] in
theorem hin2 (hpre : PreOK m) (k : Fin k0_t1_loop.trips) (g0 : Buf (Elt F) ((i2V).view.loc (thr d L))) (pay : S128.Idx → Elt F .i32)
    (hpay : pay = (lab2 L k).view.read (Elt F) (X2 m d)) :
    ∀ x, ((i2V).view.read (Elt F) (View.write (Elt F) (i2V).view g0 pay Finset.univ) x).toNat < S3x128.size gathers_S3x128_S128x128.axis := by
  subst hpay; intro x
  rw [View.write_whole_univ]
  simp only [Memref.view_whole, View.read_whole]
  rw [show ∀ j, (lab2 L k).view.read (Elt F) (X2 m d) j = X2 m d ((lab2 L k).view.emb j) from fun j => (View.read_apply _ _).trans (cast_eq _ _)]
  exact X2_lt m d hpre _

/-- Before chunk `k` of a tile's task: the six arrays it reads at its read share; its rows of the result at some
    contents that agree with `OUT` on the rows of the chunks already written; its scratch buffers at some
    contents; its seven semaphores at zero; what it owes, with only waits at index none recorded since the start. -/
def invO (O : CellTallies nD τ sig (HIx 1)) (W : Waits sig (HIx 1)) (k : Nat) (_ : BitVec 32) : sProp 𝕄 :=
  iprop(Transfers.MayWaits (thr d L) (default : HIx 1) O
    ∗ ((f0V).view.loc (thr d L) ↦{shT (cL L) (sL L)} X0 m d)
    ∗ ((f1V).view.loc (thr d L) ↦{shT (cL L) (sL L)} X1 m d)
    ∗ ((f2V).view.loc (thr d L) ↦{shT (cL L) (sL L)} X2 m d)
    ∗ ((tkV).view.loc (thr d L) ↦{shT (cL L) (sL L)} m (tkLoc d))
    ∗ ((psV).view.loc (thr d L) ↦{shT (cL L) (sL L)} m (psLoc d))
    ∗ ((sgV).view.loc (thr d L) ↦{shT (cL L) (sL L)} m (sgLoc d))
    ∗ (∃ f : Buf (Elt F) (oLoc d), ⌜∀ j : S524288x128.Idx, j ∈ tileRows d (cL L) (sL L) → (j 0).val < tileBase (cL L) (sL L) + 128 * k → f j = OUT m d j⌝
        ∗ ((oV).view.loc (thr d L) ↦[tileRows d (cL L) (sL L)]{fullShare} f))
    ∗ (∃ g, (i0V).view.loc (thr d L) ↦{fullShare} g) ∗ (∃ g, (i1V).view.loc (thr d L) ↦{fullShare} g) ∗ (∃ g, (i2V).view.loc (thr d L) ↦{fullShare} g)
    ∗ (∃ g, (b0V).view.loc (thr d L) ↦{fullShare} g) ∗ (∃ g, (b1V).view.loc (thr d L) ↦{fullShare} g) ∗ (∃ g, (b2V).view.loc (thr d L) ↦{fullShare} g)
    ∗ semVal (cell d L cc0_scratch6) 0 ∗ semVal (cell d L cc0_scratch7) 0 ∗ semVal (cell d L cc0_scratch8) 0
    ∗ semVal (cell d L cc0_scoped0) 0 ∗ semVal (cell d L cc0_scoped1) 0 ∗ semVal (cell d L cc0_scoped2) 0 ∗ semVal (cell d L cc0_scoped3) 0
    ∗ ∃ W', ⌜∀ p ∈ W', p ∈ W ∨ p.2 = none⌝ ∗ owes (thr d L) O W')

/-- Before row `r` of a chunk's row loop: the sum scratch holds, in the rows already done, the sum of the three
    gathered rows, and in the others the first table's gathered row (`A0`, its contents at the loop's entry); the
    other two scratches are as gathered. -/
def invI (A0 : Buf (Elt F) ((b0V).view.loc (thr d L))) (B : Buf (Elt F) ((b1V).view.loc (thr d L))) (C : Buf (Elt F) ((b2V).view.loc (thr d L)))
    (r : Nat) (_ : BitVec 32) : sProp 𝕄 :=
  iprop((∃ ft : Buf (Elt F) ((b0V).view.loc (thr d L)),
      ⌜∀ (r' l : Fin 128), ft (ValueIdx.ix2 r' l) = if r'.val < r
          then FloatOps.addf (FloatOps.addf (A0 (ValueIdx.ix2 r' l)) (B (ValueIdx.ix2 r' l))) (C (ValueIdx.ix2 r' l)) else A0 (ValueIdx.ix2 r' l)⌝
      ∗ ((b0V).view.loc (thr d L) ↦{fullShare} ft))
    ∗ ((b1V).view.loc (thr d L) ↦{fullShare} B) ∗ ((b2V).view.loc (thr d L) ↦{fullShare} C))

/-- One row trip takes the row loop's invariant from `r` to `r + 1`. -/
theorem row_post (r : Fin k0_t2_loop.trips) (A0 : Buf (Elt F) ((b0V).view.loc (thr d L))) (B : Buf (Elt F) ((b1V).view.loc (thr d L)))
    (C : Buf (Elt F) ((b2V).view.loc (thr d L))) (ft : Buf (Elt F) ((b0V).view.loc (thr d L)))
    (hft : ∀ (r' l : Fin 128), ft (ValueIdx.ix2 r' l) = if r'.val < r.val
          then FloatOps.addf (FloatOps.addf (A0 (ValueIdx.ix2 r' l)) (B (ValueIdx.ix2 r' l))) (C (ValueIdx.ix2 r' l)) else A0 (ValueIdx.ix2 r' l))
    (a : BitVec 32) :
    iprop((∃ ft' : Buf (Elt F) ((b0V).view.loc (thr d L)),
              ⌜∀ (r' l : Fin 128), ft' (ValueIdx.ix2 r' l) = if r'.val = r.val
                  then FloatOps.addf (FloatOps.addf (ft (ValueIdx.ix2 r' l)) (B (ValueIdx.ix2 r' l))) (C (ValueIdx.ix2 r' l)) else ft (ValueIdx.ix2 r' l)⌝
              ∗ ((b0V).view.loc (thr d L) ↦{fullShare} ft'))
            ∗ ((b1V).view.loc (thr d L) ↦{fullShare} B) ∗ ((b2V).view.loc (thr d L) ↦{fullShare} C))
      ⊢ (invI d L A0 B C (r.val + 1) a : sProp 𝕄) := by
  unfold invI
  iintro ⟨⟨%ft', %hft', Hb0⟩, Hb1, Hb2⟩
  isplitl [Hb0]
  · iexists ft'; isplitr
    · ipureintro; intro r' l
      rw [hft' r' l]
      by_cases h1 : r'.val = r.val
      · rw [if_pos h1, if_pos (by omega), hft r' l, if_neg (by omega)]
      · rw [if_neg h1, hft r' l]
        by_cases h2 : r'.val < r.val
        · rw [if_pos h2, if_pos (by omega)]
        · rw [if_neg h2, if_neg (by omega)]
    · iexact Hb0
  isplitl [Hb1] <;> iassumption

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ goT m d (cL L) (sL L)
        ∗ scopedBufs (thr d L) ∗ scopedSems0 (thr d L) ∗ owes (thr d L) O W)
      ⊢ wp frame (wpE (defs₀ (F := F)) 𝒱₀ (thr d L) none) Set.univ
          (cc0__body L f0V (Memref.isWhole_whole _) f1V (Memref.isWhole_whole _) f2V (Memref.isWhole_whole _)
            tkV (Memref.isWhole_whole _) psV (Memref.isWhole_whole _) sgV (Memref.isWhole_whole _) oV (Memref.isWhole_whole _)
            i0V (Memref.isWhole_whole _) i1V (Memref.isWhole_whole _) i2V (Memref.isWhole_whole _)
            b0V (Memref.isWhole_whole _) b1V (Memref.isWhole_whole _) b2V (Memref.isWhole_whole _)
            cc0_scratch6 cc0_scratch7 cc0_scratch8 cc0_scoped0 cc0_scoped1 cc0_scoped2 cc0_scoped3)
          fun _ => iprop(tdT m d (cL L) (sL L)
            ∗ scopedBufs (thr d L) ∗ scopedSems0 (thr d L)
            ∗ ∃ W', ⌜∀ p ∈ W', p ∈ W ∨ p.2 = none⌝ ∗ owes (thr d L) O W') := by
  simp only [cc0__body_eq_skeleton]; unfold cc0__body_skel
  rw [(K (F := F)).scopedBufs_V hF d (cV L) (jV L), SparseCore.Cfg.scopedSems0_V (Val := Elt F) d (cV L) (jV L), ownSems0_V, ownBufs_V]
  unfold goT ins
  iintro ⟨#Hlv, -, ⟨⟨Hf0, Hf1, Hf2, Htk, Hps, Hsg⟩, Ho⟩, ⟨⟨%g0, Hi0⟩, ⟨%g1, Hi1⟩, ⟨%g2, Hi2⟩, ⟨%h0, Hb0⟩, ⟨%h1, Hb1⟩, ⟨%h2, Hb2⟩, Hbufs⟩,
    ⟨Hs6, Hs7, Hs8, Hc0, Hc1, Hc2, Hc3, Hsems⟩, HO⟩
  ihave Hmw := (show levAts (K (F := F)).L (K (F := F)).lev ⊢ Transfers.MayWaits (thr d L) (default : HIx 1) O from
    (K (F := F)).mayWaits_none (thr := thr d L) hO) $$ Hlv
  sl_exec

  sl_for (invO m d L O W) $$ [Hmw Hf0 Hf1 Hf2 Htk Hps Hsg Ho Hi0 Hi1 Hi2 Hb0 Hb1 Hb2 Hs6 Hs7 Hs8 Hc0 Hc1 Hc2 Hc3 HO]
  case region =>
    intro k acc
    unfold invO
    iintro ⟨#Hmw, Hf0, Hf1, Hf2, Htk, Hps, Hsg, ⟨%fo, %hfo, Ho⟩, ⟨%g0, Hi0⟩, ⟨%g1, Hi1⟩, ⟨%g2, Hi2⟩, ⟨%h0, Hb0⟩, ⟨%h1, Hb1⟩, ⟨%h2, Hb2⟩,
      Hs6, Hs7, Hs8, Hc0, Hc1, Hc2, Hc3, %W', %hW', HO⟩
    sl_exec

    have hin0' := hin0 m d L hpre k g0 (tile_body.sl.dma0 m d L k) rfl
    have hin1' := hin1 m d L hpre k g1 (tile_body.sl.dma0_1 m d L k) rfl
    have hin2' := hin2 m d L hpre k g2 (tile_body.sl.dma0_2 m d L k) rfl
    sl_exec
    sl_for (invI d L ((b0V).view.writes (Elt F) (b0V).view.junk [⟨Rect.whole _, tile_body.sl.gather0 m d L k g0 hin0'⟩])
        ((b1V).view.writes (Elt F) (b1V).view.junk [⟨Rect.whole _, tile_body.sl.gather1 m d L k g1 hin1'⟩])
        ((b2V).view.writes (Elt F) (b2V).view.junk [⟨Rect.whole _, tile_body.sl.gather2 m d L k g2 hin2'⟩])) $$ [Hb0 Hb1 Hb2]
    case region =>
      intro r acc2
      unfold invI
      iintro ⟨⟨%ft, %hft, Hb0⟩, Hb1, Hb2⟩
      iapply ((row_trip d L k r acc2 (tile_body.sl.v2 L) ft _ _).trans (wp_mono frame _ _ (row_post d L r _ _ _ ft hft))) $$ [Hb0 Hb1 Hb2]
      isplitl [Hb0]; · iexact Hb0
      isplitl [Hb1] <;> iassumption
    · unfold invI
      isplitl [Hb0]
      · iexists ((b0V).view.writes (Elt F) (b0V).view.junk [⟨Rect.whole _, tile_body.sl.gather0 m d L k g0 hin0'⟩]); isplitr
        · ipureintro; intro r' l; rw [if_neg (by omega)]
        · iexact Hb0
      isplitl [Hb1] <;> iassumption
    iintro %acc3 HI
    unfold invI
    icases HI with ⟨⟨%ft, %hft, Hb0⟩, Hb1, Hb2⟩
    ihave Ho2 := (pointsTo_split_subset (q := fullShare) (f := fo) (chunk_sub d L k)).1 $$ Ho
    icases Ho2 with ⟨Hoc, Hor⟩
    ihave Hoc' := (Entails.of_eq (show ((oV).view.loc (thr d L) ↦[(outChunk L k).view.set]{fullShare} fo : sProp 𝕄)
        = (outChunk L k).view.loc (thr d L) ↦[(outChunk L k).view.set]{fullShare} fo from rfl)) $$ Hoc
    sl_exec
    have htr : k0_t2_loop.trips = 128 := by decide
    have hft' : ∀ (r l : Fin 128), ft (ix2 r l) = OUT m d (ix2 ⟨chunkBase L k + r.val, chunk_row_lt L k r⟩ l) := by
      intro r l
      have e0 := gathered0 m d L k g0 (tile_body.sl.dma0 m d L k) rfl rfl hin0' (tile_body.sl.gather0 m d L k g0 hin0') rfl r l
      have e1 := gathered1 m d L k g1 (tile_body.sl.dma0_1 m d L k) rfl rfl hin1' (tile_body.sl.gather1 m d L k g1 hin1') rfl r l
      have e2 := gathered2 m d L k g2 (tile_body.sl.dma0_2 m d L k) rfl rfl hin2' (tile_body.sl.gather2 m d L k g2 hin2') rfl r l
      rw [hft r l, if_pos (show r.val < k0_t2_loop.trips by rw [htr]; exact r.isLt), e0, e1, e2]
      exact sum_is_OUT m d L k r l
    ihave Hoc2 := (Entails.of_eq (show ((outChunk L k).view.loc (thr d L) ↦[(outChunk L k).view.set]{fullShare}
          (outChunk L k).view.writes (Elt F) fo [⟨Rect.whole S128x128, tile_body.sl.dma0_3 d L ft⟩] : sProp 𝕄)
        = oLoc d ↦[(outChunk L k).view.set]{fullShare} (outChunk L k).view.writes (Elt F) fo [⟨Rect.whole S128x128, tile_body.sl.dma0_3 d L ft⟩] from rfl)) $$ Hoc'
    ihave Hor2 := (Entails.of_eq (pointsTo_congr (out_off d L k fo (tile_body.sl.dma0_3 d L ft)))) $$ Hor
    ihave Ho := (pointsTo_split_subset (ℓ := oLoc d) (q := fullShare)
        (f := (outChunk L k).view.writes (Elt F) fo [⟨Rect.whole S128x128, tile_body.sl.dma0_3 d L ft⟩]) (chunk_sub d L k)).2 $$ [Hoc2 Hor2]
    · isplitl [Hoc2] <;> iassumption
    sl_step
    isplitr; · iexact Hmw
    isplitl [Hf0]; · iexact Hf0
    isplitl [Hf1]; · iexact Hf1
    isplitl [Hf2]; · iexact Hf2
    isplitl [Htk]; · iexact Htk
    isplitl [Hps]; · iexact Hps
    isplitl [Hsg]; · iexact Hsg
    isplitl [Ho]
    · iexists ((outChunk L k).view.writes (Elt F) fo [⟨Rect.whole S128x128, tile_body.sl.dma0_3 d L ft⟩]); isplitr
      · ipureintro; exact out_step m d L k fo hfo ft hft' _ rfl
      · iexact Ho
    isplitl [Hi0]; · iexists _; iexact Hi0
    isplitl [Hi1]; · iexists _; iexact Hi1
    isplitl [Hi2]; · iexists _; iexact Hi2
    isplitl [Hb0]; · iexists _; iexact Hb0
    isplitl [Hb1]; · iexists _; iexact Hb1
    isplitl [Hb2]; · iexists _; iexact Hb2
    isplitl [Hs6]; · iexact Hs6
    isplitl [Hs7]; · iexact Hs7
    isplitl [Hs8]; · iexact Hs8
    isplitl [Hc0]; · iexact Hc0
    isplitl [Hc1]; · iexact Hc1
    isplitl [Hc2]; · iexact Hc2
    isplitl [Hc3]; · iexact Hc3
    iexists _; isplitr
    on_goal 2 => iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · unfold invO
    isplitr; · iexact Hmw
    isplitl [Hf0]; · iexact Hf0
    isplitl [Hf1]; · iexact Hf1
    isplitl [Hf2]; · iexact Hf2
    isplitl [Htk]; · iexact Htk
    isplitl [Hps]; · iexact Hps
    isplitl [Hsg]; · iexact Hsg
    isplitl [Ho]
    · iexists (m (oLoc d)); isplitr
      · ipureintro; intro j hj hlt
        have := (mem_tileRows d (cL L) (sL L) j).mp hj
        unfold tileBase at hlt
        omega
      · iexact Ho
    isplitl [Hi0]; · iexists _; iexact Hi0
    isplitl [Hi1]; · iexists _; iexact Hi1
    isplitl [Hi2]; · iexists _; iexact Hi2
    isplitl [Hb0]; · iexists _; iexact Hb0
    isplitl [Hb1]; · iexists _; iexact Hb1
    isplitl [Hb2]; · iexists _; iexact Hb2
    isplitl [Hs6]; · iexact Hs6
    isplitl [Hs7]; · iexact Hs7
    isplitl [Hs8]; · iexact Hs8
    isplitl [Hc0]; · iexact Hc0
    isplitl [Hc1]; · iexact Hc1
    isplitl [Hc2]; · iexact Hc2
    isplitl [Hc3]; · iexact Hc3
    iexists W; isplitr
    · ipureintro; exact fun p hp => .inl hp
    · iexact HO
  iintro %accF HI
  unfold invO
  icases HI with ⟨-, Hf0, Hf1, Hf2, Htk, Hps, Hsg, ⟨%fo, %hfo, Ho⟩, ⟨%g0, Hi0⟩, ⟨%g1, Hi1⟩, ⟨%g2, Hi2⟩, ⟨%h0, Hb0⟩, ⟨%h1, Hb1⟩, ⟨%h2, Hb2⟩,
      Hs6, Hs7, Hs8, Hc0, Hc1, Hc2, Hc3, %W', %hW', HO⟩
  sl_exec
  sl_step
  have htr1 : k0_t1_loop.trips = 128 := by decide
  unfold tdT ins
  isplitl [Hf0 Hf1 Hf2 Htk Hps Hsg Ho]
  · isplitl [Hf0 Hf1 Hf2 Htk Hps Hsg]
    · isplitl [Hf0]; · iexact Hf0
      isplitl [Hf1]; · iexact Hf1
      isplitl [Hf2]; · iexact Hf2
      isplitl [Htk]; · iexact Htk
      isplitl [Hps]; · iexact Hps
      iexact Hsg
    · iapply (Entails.of_eq (pointsTo_congr (fun j hj => hfo j hj (by
        have := (mem_tileRows d (cL L) (sL L) j).mp hj
        show (j 0).val < tileBase (cL L) (sL L) + 128 * k0_t1_loop.trips
        rw [htr1]; unfold tileBase; omega))))
      iexact Ho
  isplitl [Hi0 Hi1 Hi2 Hb0 Hb1 Hb2 Hbufs]
  · isplitl [Hi0]; · iexists _; iexact Hi0
    isplitl [Hi1]; · iexists _; iexact Hi1
    isplitl [Hi2]; · iexists _; iexact Hi2
    isplitl [Hb0]; · iexists _; iexact Hb0
    isplitl [Hb1]; · iexists _; iexact Hb1
    isplitl [Hb2]; · iexists _; iexact Hb2
    iexact Hbufs
  isplitl [Hs6 Hs7 Hs8 Hc0 Hc1 Hc2 Hc3 Hsems]
  · isplitl [Hs6]; · iexact Hs6
    isplitl [Hs7]; · iexact Hs7
    isplitl [Hs8]; · iexact Hs8
    isplitl [Hc0]; · iexact Hc0
    isplitl [Hc1]; · iexact Hc1
    isplitl [Hc2]; · iexact Hc2
    isplitl [Hc3]; · iexact Hc3
    iexact Hsems
  iexists W'; isplitr
  · ipureintro; exact hW'
  · iexact HO

end Tile

/-! ## The launch theorem's obligation for the one vector-subcore call -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
            f0V (Memref.isWhole_whole _) f1V (Memref.isWhole_whole _) f2V (Memref.isWhole_whole _)
            tkV (Memref.isWhole_whole _) psV (Memref.isWhole_whole _) sgV (Memref.isWhole_whole _) oV (Memref.isWhole_whole _)
            i0V (Memref.isWhole_whole _) i1V (Memref.isWhole_whole _) i2V (Memref.isWhole_whole _)
            b0V (Memref.isWhole_whole _) b1V (Memref.isWhole_whole _) b2V (Memref.isWhole_whole _)
            cc0_scratch6 cc0_scratch7 cc0_scratch8 cc0_scoped0 cc0_scoped1 cc0_scoped2 cc0_scoped3) ⟨⟩ c s := rfl

omit [FloatOps F] [∀ e, Nonempty (Elt F e)] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task meets the launch theorem's obligation: from its read shares and its rows of the result to
    the same shares and its rows at the sum of the three looked-up rows. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.KernelRun

end
-- ==== Proof.KLaunch.lean ====
/-
  The launch side of the kernel's run, second part: the launch element of the ghost state, @main on the TensorCore,
  how the final memory reads the claim, and the run of the whole program from one tile's obligation.

  @main reshapes the three label arrays to [524288] (a reshape writes its result array and leaves its operand), calls
  the kernel, and reshapes the kernel's [524288, 128] result to [1024, 512, 128]. At the call the TensorCore splits the
  full share of each of the six arrays the tiles read into a remainder, which it keeps, and one read token per
  SparseCore; and the result array into the two SparseCores' rows. What comes back are the tokens and the rows at the
  sums; rejoined, the six arrays are whole again as they were and the result array is whole at the sums.
-/
import proofs.«203542_g13958643712200_cont_week2b_591_2_alg».proof.Proof.KLaunch1

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch element: the handshakes' rounds; nothing of the kernel's own -/

def u₀ : UU := (initOf (K (F := F)).hsCells (K (F := F)).hsToks, 1)

omit m [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev ra0 : DevRef τ sig := Proc.devRef .tc (main_arg0 : Ref sig .tc)
abbrev ra1 : DevRef τ sig := Proc.devRef .tc (main_arg1 : Ref sig .tc)
abbrev ra2 : DevRef τ sig := Proc.devRef .tc (main_arg2 : Ref sig .tc)
abbrev rf0 : DevRef τ sig := Proc.devRef .tc (main_v0 : Ref sig .tc)
abbrev rf1 : DevRef τ sig := Proc.devRef .tc (main_v1 : Ref sig .tc)
abbrev rf2 : DevRef τ sig := Proc.devRef .tc (main_v2 : Ref sig .tc)
abbrev ro : DevRef τ sig := Proc.devRef .tc (main_v3 : Ref sig .tc)
abbrev rr : DevRef τ sig := Proc.devRef .tc (main_v4 : Ref sig .tc)

/-- The four reshapes of @main. -/
abbrev op0 : HloOp τ sig (Elt F) := StableHlo.reshape main_arg0 main_v0 rfl Gen.shapeCasts_S1024x512_S524288
abbrev op1 : HloOp τ sig (Elt F) := StableHlo.reshape main_arg1 main_v1 rfl Gen.shapeCasts_S1024x512_S524288
abbrev op2 : HloOp τ sig (Elt F) := StableHlo.reshape main_arg2 main_v2 rfl Gen.shapeCasts_S1024x512_S524288
abbrev op4 : HloOp τ sig (Elt F) := StableHlo.reshape main_v3 main_v4 rfl Gen.shapeCasts_S524288x128_S1024x512x128

/-- The program's result: the kernel's, reshaped to [1024, 512, 128]. -/
def RES (d : Dev nD) : Buf (Elt F) (rLoc d) := shapeCast S1024x512x128 (OUT m d) Gen.shapeCasts_S524288x128_S1024x512x128

omit m [FloatOps F] in
/-- The TensorCore's eleven arrays, all unscoped. -/
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (tkLoc d ↦{fullShare} W main_arg3) ∗ (psLoc d ↦{fullShare} W main_arg4) ∗ (sgLoc d ↦{fullShare} W main_arg5)
      ∗ (f0Loc d ↦{fullShare} W main_v0) ∗ (f1Loc d ↦{fullShare} W main_v1) ∗ (f2Loc d ↦{fullShare} W main_v2)
      ∗ (oLoc d ↦{fullShare} W main_v3) ∗ (rLoc d ↦{fullShare} W main_v4)) := by
  unfold unscopedBufs
  rw [show (Finset.univ.filter fun b : Ref sig .tc => ¬ b.isScoped)
      = {main_arg0, main_arg1, main_arg2, main_arg3, main_arg4, main_arg5, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation; before the last reshape, the kernel's result array at the sums. -/
def V0 (d : Dev nD) : Valuation τ sig (Elt F) := fun b => m (d, b)
def V4 (d : Dev nD) : Valuation τ sig (Elt F) := Function.update (V0 m d) ro (OUT m d)

omit m [FloatOps F] in
/-- Two arrays held whole. -/
theorem held_pair (d : Dev nD) (x y : DevRef τ sig) (h : x ≠ y) (W : Valuation τ sig (Elt F)) :
    (held (T d) {x, y} W : sProp 𝕄) = iprop(((d, x) ↦{fullShare} W x) ∗ ((d, y) ↦{fullShare} W y)) := by
  unfold held
  rw [SparseCore.bigSep_insert' (by rw [Finset.mem_singleton]; exact h), bigSep_singleton]

omit [FloatOps F] in
theorem res0 (d : Dev nD) : (op0 (F := F)).result (V0 m d) rf0 = X0 m d :=
  StableHlo.reshape_result main_arg0 main_v0 rfl _ _ _ (V0 m d)
omit [FloatOps F] in
theorem res1 (d : Dev nD) : (op1 (F := F)).result (V0 m d) rf1 = X1 m d :=
  StableHlo.reshape_result main_arg1 main_v1 rfl _ _ _ (V0 m d)
omit [FloatOps F] in
theorem res2 (d : Dev nD) : (op2 (F := F)).result (V0 m d) rf2 = X2 m d :=
  StableHlo.reshape_result main_arg2 main_v2 rfl _ _ _ (V0 m d)
omit [FloatOps F] in
theorem res0_ne (d : Dev nD) : (op0 (F := F)).result (V0 m d) ra0 = m (a0Loc d) :=
  StableHlo.reshape_result_ne main_arg0 main_v0 rfl _ _ _ (V0 m d) (r := main_arg0) (by decide)
omit [FloatOps F] in
theorem res1_ne (d : Dev nD) : (op1 (F := F)).result (V0 m d) ra1 = m (a1Loc d) :=
  StableHlo.reshape_result_ne main_arg1 main_v1 rfl _ _ _ (V0 m d) (r := main_arg1) (by decide)
omit [FloatOps F] in
theorem res2_ne (d : Dev nD) : (op2 (F := F)).result (V0 m d) ra2 = m (a2Loc d) :=
  StableHlo.reshape_result_ne main_arg2 main_v2 rfl _ _ _ (V0 m d) (r := main_arg2) (by decide)

theorem V4_o (d : Dev nD) : V4 m d ro = OUT m d := Function.update_self _ _ _
theorem V4_r (d : Dev nD) : V4 m d rr = m (rLoc d) := Function.update_of_ne (show rr ≠ ro by decide) _ _
theorem res4 (d : Dev nD) : (op4 (F := F)).result (V4 m d) rr = RES m d := by
  refine (StableHlo.reshape_result main_v3 main_v4 rfl _ _ _ (V4 m d)).trans ?_
  unfold RES
  rw [← V4_o m d]
  rfl
theorem res4_ne (d : Dev nD) : (op4 (F := F)).result (V4 m d) ro = OUT m d :=
  (StableHlo.reshape_result_ne main_v3 main_v4 rfl _ _ _ (V4 m d) (r := main_v3) (by decide)).trans (V4_o m d)

/-- The call's operands for the two SparseCores, and what comes back. -/
theorem st0_eq (d : Dev nD) : (bigSep Finset.univ fun c : Fin ((K (F := F)).nCore 0) => (P m).st 0 d c)
    = iprop((bigSep Finset.univ fun c : Fin 2 => ins m d (shC c)) ∗ bigSep Finset.univ fun c : Fin 2 => oLoc d ↦[coreRows d c]{fullShare} m (oLoc d)) := by
  show (bigSep Finset.univ fun c : Fin ((K (F := F)).nCore 0) => stC m d (Fin.cast nCore_zero c)) = _
  rw [bigSep_cores (F := F) (fun c => stC m d c)]
  unfold stC
  rw [bigSep_sep']
theorem dn0_eq (d : Dev nD) : (bigSep Finset.univ fun c : Fin ((K (F := F)).nCore 0) => (P m).dn 0 d c)
    = iprop((bigSep Finset.univ fun c : Fin 2 => ins m d (shC c)) ∗ bigSep Finset.univ fun c : Fin 2 => oLoc d ↦[coreRows d c]{fullShare} OUT m d) := by
  show (bigSep Finset.univ fun c : Fin ((K (F := F)).nCore 0) => dnC m d (Fin.cast nCore_zero c)) = _
  rw [bigSep_cores (F := F) (fun c => dnC m d c)]
  unfold dnC
  rw [bigSep_sep']

/-- What @main leaves the claim: the result at the reshaped sums, the six argument arrays as launched. -/
abbrev FIN (d : Dev nD) : sProp 𝕄 :=
  iprop((rLoc d ↦{fullShare} RES m d) ∗ (a0Loc d ↦{fullShare} m (a0Loc d)) ∗ (a1Loc d ↦{fullShare} m (a1Loc d)) ∗ (a2Loc d ↦{fullShare} m (a2Loc d))
    ∗ (tkLoc d ↦{fullShare} m (tkLoc d)) ∗ (psLoc d ↦{fullShare} m (psLoc d)) ∗ (sgLoc d ↦{fullShare} m (sgLoc d)))

omit [FloatOps F] in
theorem held0 (d : Dev nD) : (held (T d) {ra0, rf0} (V0 m d) : sProp 𝕄) = iprop((a0Loc d ↦{fullShare} m (a0Loc d)) ∗ (f0Loc d ↦{fullShare} m (f0Loc d))) :=
  held_pair d ra0 rf0 (by decide) _
omit [FloatOps F] in
theorem held1 (d : Dev nD) : (held (T d) {ra1, rf1} (V0 m d) : sProp 𝕄) = iprop((a1Loc d ↦{fullShare} m (a1Loc d)) ∗ (f1Loc d ↦{fullShare} m (f1Loc d))) :=
  held_pair d ra1 rf1 (by decide) _
omit [FloatOps F] in
theorem held2 (d : Dev nD) : (held (T d) {ra2, rf2} (V0 m d) : sProp 𝕄) = iprop((a2Loc d ↦{fullShare} m (a2Loc d)) ∗ (f2Loc d ↦{fullShare} m (f2Loc d))) :=
  held_pair d ra2 rf2 (by decide) _
theorem held4 (d : Dev nD) : (held (T d) {ro, rr} (V4 m d) : sProp 𝕄) = iprop((oLoc d ↦{fullShare} OUT m d) ∗ (rLoc d ↦{fullShare} m (rLoc d))) := by
  rw [held_pair d ro rr (by decide), V4_o, V4_r]
omit [FloatOps F] in
theorem held0' (d : Dev nD) : (held (T d) {ra0, rf0} ((op0 (F := F)).result (V0 m d)) : sProp 𝕄)
    = iprop((a0Loc d ↦{fullShare} m (a0Loc d)) ∗ (f0Loc d ↦{fullShare} X0 m d)) := by
  rw [held_pair d ra0 rf0 (by decide), res0, res0_ne]
omit [FloatOps F] in
theorem held1' (d : Dev nD) : (held (T d) {ra1, rf1} ((op1 (F := F)).result (V0 m d)) : sProp 𝕄)
    = iprop((a1Loc d ↦{fullShare} m (a1Loc d)) ∗ (f1Loc d ↦{fullShare} X1 m d)) := by
  rw [held_pair d ra1 rf1 (by decide), res1, res1_ne]
omit [FloatOps F] in
theorem held2' (d : Dev nD) : (held (T d) {ra2, rf2} ((op2 (F := F)).result (V0 m d)) : sProp 𝕄)
    = iprop((a2Loc d ↦{fullShare} m (a2Loc d)) ∗ (f2Loc d ↦{fullShare} X2 m d)) := by
  rw [held_pair d ra2 rf2 (by decide), res2, res2_ne]
theorem held4' (d : Dev nD) : (held (T d) {ro, rr} ((op4 (F := F)).result (V4 m d)) : sProp 𝕄)
    = iprop((oLoc d ↦{fullShare} OUT m d) ∗ (rLoc d ↦{fullShare} RES m d)) := by
  rw [held_pair d ro rr (by decide), res4, res4_ne]

theorem ins_def (d : Dev nD) (q : PosShare TreeShare) : ins m d q
    = iprop((f0Loc d ↦{q} X0 m d) ∗ (f1Loc d ↦{q} X1 m d) ∗ (f2Loc d ↦{q} X2 m d)
      ∗ (tkLoc d ↦{q} m (tkLoc d)) ∗ (psLoc d ↦{q} m (psLoc d)) ∗ (sgLoc d ↦{q} m (sgLoc d))) := by
  unfold ins; rfl

/-- @main on device `d`'s TensorCore: the three reshapes of the labels, each over its own two arrays; the call, handing
    each SparseCore a read share of the flattened labels and the tables and its rows of the result array, the remainder
    shares kept here across it; the shares and rows rejoined, the result array then whole at the sums; the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Htk, Hps, Hsg, Hf0, Hf1, Hf2, Ho, Hr⟩, -, -⟩, -⟩
  -- the three reshapes of the labels
  iapply (wp_hlo_within 𝒱 (SparseCore.T d) none Set.univ (op := op0) (S := {ra0, rf0}) (Finset.Subset.refl _) (V := V0 m d)) $$ [Hb Ha0 Hf0]
  · isplitl [Hb]; · iexact Hb
    rw [held0]
    isplitl [Ha0]; · iexact Ha0
    iexact Hf0
  iintro ⟨Hb, Hh⟩
  ihave Hh' := (Entails.of_eq (held0' m d)) $$ Hh
  icases Hh' with ⟨Ha0, Hf0⟩
  rw [wp_ret]; imodintro
  iapply (wp_hlo_within 𝒱 (SparseCore.T d) none Set.univ (op := op1) (S := {ra1, rf1}) (Finset.Subset.refl _) (V := V0 m d)) $$ [Hb Ha1 Hf1]
  · isplitl [Hb]; · iexact Hb
    rw [held1]
    isplitl [Ha1]; · iexact Ha1
    iexact Hf1
  iintro ⟨Hb, Hh⟩
  ihave Hh' := (Entails.of_eq (held1' m d)) $$ Hh
  icases Hh' with ⟨Ha1, Hf1⟩
  rw [wp_ret]; imodintro
  iapply (wp_hlo_within 𝒱 (SparseCore.T d) none Set.univ (op := op2) (S := {ra2, rf2}) (Finset.Subset.refl _) (V := V0 m d)) $$ [Hb Ha2 Hf2]
  · isplitl [Hb]; · iexact Hb
    rw [held2]
    isplitl [Ha2]; · iexact Ha2
    iexact Hf2
  iintro ⟨Hb, Hh⟩
  ihave Hh' := (Entails.of_eq (held2' m d)) $$ Hh
  icases Hh' with ⟨Ha2, Hf2⟩
  rw [wp_ret]; imodintro
  -- the six read arrays' full shares: a remainder kept here and a token per SparseCore; the result array by SparseCores
  ihave Hins := (ins_split m d fullShare 2) $$ [Hf0 Hf1 Hf2 Htk Hps Hsg]
  · rw [ins_def]
    isplitl [Hf0]; · iexact Hf0
    isplitl [Hf1]; · iexact Hf1
    isplitl [Hf2]; · iexact Hf2
    isplitl [Htk]; · iexact Htk
    isplitl [Hps]; · iexact Hps
    iexact Hsg
  icases Hins with ⟨Hdrop, Htoks⟩
  ihave Ho' := (Entails.of_eq (oPts_cores d (m (oLoc d)))) $$ Ho
  -- the call
  iapply ((K (F := F)).wp_run (D (F := F)) 𝒱 (EH := EH) (P := P m) κ d 0) $$ [Hst Htoks Ho' Hb Hdrop Ha0 Ha1 Ha2 Hr]
  isplitr; · iexact Hctx
  isplitl [Hst]; · iexact Hst
  isplitl [Htoks Ho']
  · rw [st0_eq]
    isplitl [Htoks]; · iexact Htoks
    iexact Ho'
  iintro ⟨Hst, Hdn⟩
  ihave Hdn' := (Entails.of_eq (dn0_eq m d)) $$ Hdn
  icases Hdn' with ⟨Htoks, Ho⟩
  ihave Hins := (ins_join m d fullShare 2) $$ [Hdrop Htoks]
  · isplitl [Hdrop]; · iexact Hdrop
    iexact Htoks
  ihave Hins' := (Entails.of_eq (ins_def m d fullShare)) $$ Hins
  icases Hins' with ⟨-, -, -, Htk, Hps, Hsg⟩
  ihave Ho' := (Entails.of_eq (oPts_cores d (OUT m d)).symm) $$ Ho
  -- the last reshape
  iapply (wp_hlo_within 𝒱 (SparseCore.T d) none Set.univ (op := op4) (S := {ro, rr}) (Finset.Subset.refl _) (V := V4 m d)) $$ [Hb Ho' Hr]
  · isplitl [Hb]; · iexact Hb
    rw [held4]
    isplitl [Ho']; · iexact Ho'
    iexact Hr
  iintro ⟨Hb, Hh⟩
  ihave Hh' := (Entails.of_eq (held4' m d)) $$ Hh
  icases Hh' with ⟨-, Hr⟩
  rw [wp_ret]; imodintro; imodintro
  isplitl [Hst]; · iexact Hst
  isplitl [Hr]; · iexact Hr
  isplitl [Ha0]; · iexact Ha0
  isplitl [Ha1]; · iexact Ha1
  isplitl [Ha2]; · iexact Ha2
  isplitl [Htk]; · iexact Htk
  isplitl [Hps]; · iexact Hps
  iexact Hsg

/-! ## The final memory, and the run -/

def fq (d : Dev nD) (s' : Phys nD τ sig (Elt F)) : Prop :=
  s'.mem.mem (rLoc d) = RES m d
  ∧ s'.mem.mem (a0Loc d) = m (a0Loc d) ∧ s'.mem.mem (a1Loc d) = m (a1Loc d) ∧ s'.mem.mem (a2Loc d) = m (a2Loc d)
  ∧ s'.mem.mem (tkLoc d) = m (tkLoc d) ∧ s'.mem.mem (psLoc d) = m (psLoc d) ∧ s'.mem.mem (sgLoc d) = m (sgLoc d)

set_option maxRecDepth 16384 in
theorem hfin (d : Dev nD) (s' : Phys nD τ sig (Elt F)) : iprop(FIN m d ∗ SI s') ⊢ (⌜fq m d s'⌝ : sProp 𝕄) := by
  iintro ⟨⟨Hr, Ha0, Ha1, Ha2, Htk, Hps, Hsg⟩, HSI⟩
  ihave H := (persistent_entails_right (SI_pointsTo_agree (st := s') (ℓ := rLoc d) (I := Finset.univ) (q := fullShare) (f := RES m d))) $$ [HSI Hr]
  · isplitl [HSI] <;> iassumption
  icases H with ⟨%h1, HSI, -⟩
  ihave H := (persistent_entails_right (SI_pointsTo_agree (st := s') (ℓ := a0Loc d) (I := Finset.univ) (q := fullShare) (f := m (a0Loc d)))) $$ [HSI Ha0]
  · isplitl [HSI] <;> iassumption
  icases H with ⟨%h2, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h3, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h4, HSI, -⟩
  ihave H := (persistent_entails_right (SI_pointsTo_agree (st := s') (ℓ := tkLoc d) (I := Finset.univ) (q := fullShare) (f := m (tkLoc d)))) $$ [HSI Htk]
  · isplitl [HSI] <;> iassumption
  icases H with ⟨%h5, HSI, -⟩
  ihave H := (persistent_entails_right (SI_pointsTo_agree (st := s') (ℓ := psLoc d) (I := Finset.univ) (q := fullShare) (f := m (psLoc d)))) $$ [HSI Hps]
  · isplitl [HSI] <;> iassumption
  icases H with ⟨%h6, HSI, -⟩
  ihave H := (SI_pointsTo_agree (st := s') (ℓ := sgLoc d) (I := Finset.univ) (q := fullShare) (f := m (sgLoc d))) $$ [HSI Hsg]
  · isplitl [HSI] <;> iassumption
  icases H with %h7
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i), funext fun i => h6 i (Finset.mem_univ i),
    funext fun i => h7 i (Finset.mem_univ i)⟩

def QC : PUnit × MemSt nD τ sig (Elt F) → Prop := fun r => ∀ c : Dev nD,
  r.2.mem (rLoc c) = shapeCast S1024x512x128 (OUT m c) Gen.shapeCasts_S524288x128_S1024x512x128
  ∧ r.2.mem (a0Loc c) = m (a0Loc c) ∧ r.2.mem (a1Loc c) = m (a1Loc c) ∧ r.2.mem (a2Loc c) = m (a2Loc c)
  ∧ r.2.mem (tkLoc c) = m (tkLoc c) ∧ r.2.mem (psLoc c) = m (psLoc c) ∧ r.2.mem (sgLoc c) = m (sgLoc c)

theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelRun

end
-- ==== Proof.RefTerm.lean ====
/-
  The reference side's pure terms: what jnp.take in its 'fill' mode computes from a table and an array of labels,
  written as the composition of the program's operations, and the sum of the three takes.
-/
import proofs.«203542_g13958643712200_cont_week2b_591_2_alg».proof.Proof.Gen.ReferenceIdeal
import Idealize.ShloMosaic.Lib.StableHlo.Run

noncomputable section

namespace Cert.Embed.Ref

open Cert.ReferenceIdeal Cert.ReferenceIdeal.Gen Idealize.ShloMosaic

variable {F : FTy → Type} [FloatOps F]

/-- The label with the row count `n` added where it is negative as a signed word. -/
def wrapLab (n : BitVec 32) (lab : IVec S1024x512 32) : IVec S1024x512 32 :=
  select (cmpi .slt lab (broadcastInDim S1024x512 ![] bcast_S_S1024x512 (constantI S_ 32 0#32)))
    (addi lab (broadcastInDim S1024x512 ![] bcast_S_S1024x512 (constantI S_ 32 n))) lab

/-- The start indices of the gather: the wrapped labels with a trailing axis of extent one. -/
def startIdx (n : BitVec 32) (lab : IVec S1024x512 32) : IVec S1024x512x1 32 :=
  broadcastInDim S1024x512x1 ![0, 1] bcast_S1024x512_S1024x512x1_0_1 (wrapLab n lab)

/-- The range test `0 ≤ index ≤ n1` (signed), reduced by `and` over the trailing axis. -/
def inBounds (n n1 : BitVec 32) (lab : IVec S1024x512 32) : IVec S1024x512 1 :=
  Host.reduce IntOp.andi
    (andi (cmpi .sge (startIdx n lab) (broadcastInDim S1024x512x1 ![] bcast_S_S1024x512x1 (constantI S_ 32 0#32)))
      (cmpi .sle (startIdx n lab)
        (broadcastInDim S1024x512x1 ![0, 1, 2] bcast_S1x1x1_S1024x512x1_0_1_2
          (broadcastInDim S1x1x1 ![2] bcast_S1_S1x1x1_2 (constantI S1 32 n1)))))
    (constantI S_ 1 1#1) reducesTo_S1024x512x1_S1024x512_d2 h_S_

/-- One take: the gathered rows where the index is in range, the quiet NaN elsewhere. -/
def take {N : Nat} (d : GatherDims ⟨2, ![N, 128]⟩ S1024x512x1 S1024x512x128) (n n1 : BitVec 32)
    (tab : FVec F ⟨2, ![N, 128]⟩ .f32) (lab : IVec S1024x512 32) : FVec F S1024x512x128 .f32 :=
  select (broadcastInDim S1024x512x128 ![0, 1] bcast_S1024x512_S1024x512x128_0_1 (inBounds n n1 lab))
    (Host.gather d tab (startIdx n lab))
    (broadcastInDim S1024x512x128 ![] bcast_S_S1024x512x128 (constant S_ .f32 0x7FC00000#32))

/-- The reference's result: the three takes summed, the first two first. -/
def refOut (seq pos seg : IVec S1024x512 32) (tok : FVec F S100000x128 .f32) (ptab : FVec F S512x128 .f32)
    (stab : FVec F S3x128 .f32) : FVec F S1024x512x128 .f32 :=
  addf (addf (take gather_S100000x128_S1024x512x1_S1024x512x128_2_0_n_n_0_2_1128 100000#32 99999#32 tok seq)
      (take gather_S512x128_S1024x512x1_S1024x512x128_2_0_n_n_0_2_1128 512#32 511#32 ptab pos))
    (take gather_S3x128_S1024x512x1_S1024x512x128_2_0_n_n_0_2_1128 3#32 2#32 stab seg)

end Cert.Embed.Ref

end
-- ==== Proof.RefRun.lean ====
/-
  The reference program's @main as the list of its 71 host operations, the three takes' bodies written out at
  their call sites over each call's buffers, and its run read back: every weakly fair execution terminates with the
  result buffer at the sum of the three takes of the arguments' launch contents, the arguments unchanged.
-/
import proofs.«203542_g13958643712200_cont_week2b_591_2_alg».proof.Proof.RefTerm
import Idealize.ShloMosaic.Lib.Pipeline.Regions

noncomputable section

namespace Cert.Embed.Ref

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: each take is twenty-three (the zero and its broadcast, the sign
    test, the row count and its broadcast, the sum, the select of the nested call, the trailing axis, the bound and
    the zero with their broadcasts, the two comparisons and their conjunction, the reduction of the conjunction over
    the trailing axis, the gather, the test broadcast over the lanes, the NaN constant and its broadcast, the final
    select); then the two additions. -/
abbrev ops : List (HloOp τ sig (Elt F)) :=
  [ TRef.nullary main_call0.c (constantI S_ 32 0#32),
    TRef.unary main_call0.c main_call0.v0 (broadcastInDim S1024x512 ![] bcast_S_S1024x512),
    TRef.binary (.of main_arg0) main_call0.v0 main_call0.v1 (cmpi .slt),
    TRef.nullary main_call0.c_0 (constantI S_ 32 100000#32),
    TRef.unary main_call0.c_0 main_call0.v2 (broadcastInDim S1024x512 ![] bcast_S_S1024x512),
    TRef.binary (.of main_arg0) main_call0.v2 main_call0.v3 addi,
    TRef.ternary main_call0.v1 main_call0.v3 (.of main_arg0) main_call0.call0.v0 select,
    TRef.unary main_call0.call0.v0 main_call0.v5 (broadcastInDim S1024x512x1 ![0, 1] bcast_S1024x512_S1024x512x1_0_1),
    TRef.nullary main_call0.c_1 (constantI S1 32 99999#32),
    TRef.nullary main_call0.c_2 (constantI S_ 32 0#32),
    TRef.unary main_call0.c_2 main_call0.v6 (broadcastInDim S1024x512x1 ![] bcast_S_S1024x512x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x512x1 ![0, 1, 2] bcast_S1x1x1_S1024x512x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x512x1_S1024x512_d2 h_S_),
    TRef.binary (.of main_arg3) main_call0.v5 main_call0.v13 (fun x i => Host.gather gather_S100000x128_S1024x512x1_S1024x512x128_2_0_n_n_0_2_1128 x i),
    TRef.unary main_call0.v12 main_call0.v14 (broadcastInDim S1024x512x128 ![0, 1] bcast_S1024x512_S1024x512x128_0_1),
    TRef.nullary main_call0.cst (constant S_ .f32 0x7FC00000#32),
    TRef.unary main_call0.cst main_call0.v15 (broadcastInDim S1024x512x128 ![] bcast_S_S1024x512x128),
    TRef.ternary main_call0.v14 main_call0.v13 main_call0.v15 main_call0.v16 select,
    TRef.nullary main_call1.c (constantI S_ 32 0#32),
    TRef.unary main_call1.c main_call1.v0 (broadcastInDim S1024x512 ![] bcast_S_S1024x512),
    TRef.binary (.of main_arg1) main_call1.v0 main_call1.v1 (cmpi .slt),
    TRef.nullary main_call1.c_0 (constantI S_ 32 512#32),
    TRef.unary main_call1.c_0 main_call1.v2 (broadcastInDim S1024x512 ![] bcast_S_S1024x512),
    TRef.binary (.of main_arg1) main_call1.v2 main_call1.v3 addi,
    TRef.ternary main_call1.v1 main_call1.v3 (.of main_arg1) main_call1.call0.v0 select,
    TRef.unary main_call1.call0.v0 main_call1.v5 (broadcastInDim S1024x512x1 ![0, 1] bcast_S1024x512_S1024x512x1_0_1),
    TRef.nullary main_call1.c_1 (constantI S1 32 511#32),
    TRef.nullary main_call1.c_2 (constantI S_ 32 0#32),
    TRef.unary main_call1.c_2 main_call1.v6 (broadcastInDim S1024x512x1 ![] bcast_S_S1024x512x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S1024x512x1 ![0, 1, 2] bcast_S1x1x1_S1024x512x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1024x512x1_S1024x512_d2 h_S_),
    TRef.binary (.of main_arg4) main_call1.v5 main_call1.v13 (fun x i => Host.gather gather_S512x128_S1024x512x1_S1024x512x128_2_0_n_n_0_2_1128 x i),
    TRef.unary main_call1.v12 main_call1.v14 (broadcastInDim S1024x512x128 ![0, 1] bcast_S1024x512_S1024x512x128_0_1),
    TRef.nullary main_call1.cst (constant S_ .f32 0x7FC00000#32),
    TRef.unary main_call1.cst main_call1.v15 (broadcastInDim S1024x512x128 ![] bcast_S_S1024x512x128),
    TRef.ternary main_call1.v14 main_call1.v13 main_call1.v15 main_call1.v16 select,
    TRef.nullary main_call2.c (constantI S_ 32 0#32),
    TRef.unary main_call2.c main_call2.v0 (broadcastInDim S1024x512 ![] bcast_S_S1024x512),
    TRef.binary (.of main_arg2) main_call2.v0 main_call2.v1 (cmpi .slt),
    TRef.nullary main_call2.c_0 (constantI S_ 32 3#32),
    TRef.unary main_call2.c_0 main_call2.v2 (broadcastInDim S1024x512 ![] bcast_S_S1024x512),
    TRef.binary (.of main_arg2) main_call2.v2 main_call2.v3 addi,
    TRef.ternary main_call2.v1 main_call2.v3 (.of main_arg2) main_call2.call0.v0 select,
    TRef.unary main_call2.call0.v0 main_call2.v5 (broadcastInDim S1024x512x1 ![0, 1] bcast_S1024x512_S1024x512x1_0_1),
    TRef.nullary main_call2.c_1 (constantI S1 32 2#32),
    TRef.nullary main_call2.c_2 (constantI S_ 32 0#32),
    TRef.unary main_call2.c_2 main_call2.v6 (broadcastInDim S1024x512x1 ![] bcast_S_S1024x512x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S1024x512x1 ![0, 1, 2] bcast_S1x1x1_S1024x512x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S1024x512x1_S1024x512_d2 h_S_),
    TRef.binary (.of main_arg5) main_call2.v5 main_call2.v13 (fun x i => Host.gather gather_S3x128_S1024x512x1_S1024x512x128_2_0_n_n_0_2_1128 x i),
    TRef.unary main_call2.v12 main_call2.v14 (broadcastInDim S1024x512x128 ![0, 1] bcast_S1024x512_S1024x512x128_0_1),
    TRef.nullary main_call2.cst (constant S_ .f32 0x7FC00000#32),
    TRef.unary main_call2.cst main_call2.v15 (broadcastInDim S1024x512x128 ![] bcast_S_S1024x512x128),
    TRef.ternary main_call2.v14 main_call2.v13 main_call2.v15 main_call2.v16 select,
    binary main_v0 main_v1 main_v3 (addf : (⟨S1024x512x128, .f32⟩ : BufTy).Contents (Elt F) → (⟨S1024x512x128, .f32⟩ : BufTy).Contents (Elt F) → (⟨S1024x512x128, .f32⟩ : BufTy).Contents (Elt F)),
    binary main_v3 main_v2 main_v4 (addf : (⟨S1024x512x128, .f32⟩ : BufTy).Contents (Elt F) → (⟨S1024x512x128, .f32⟩ : BufTy).Contents (Elt F) → (⟨S1024x512x128, .f32⟩ : BufTy).Contents (Elt F)) ]

/-- @main is that straight line: unfolding the functions' definitions at their calls and re-associating the
    sequencing is computation, left to the kernel's check of the reflexivity proof. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub ..⟩

/-- Every buffer after the whole line, as the fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Embed.Ref

end
-- ==== Proof.RefFold.lean ====
/-
  The fold of the reference's operations at its result buffer and at its arguments: the list is the three takes'
  operations and the two additions; each take's operations leave its result buffer at the take of its operands
  and touch no other take's operands or result, so the whole fold at the result buffer is the sum of the three
  takes of the arguments' contents, and at an argument's buffer what was there.
-/
import proofs.«203542_g13958643712200_cont_week2b_591_2_alg».proof.Proof.RefRun

noncomputable section

namespace Cert.Embed.Ref

open Cert.ReferenceIdeal Cert.ReferenceIdeal.Gen Idealize.ShloMosaic Idealize.ShloMosaic.TcCoe Idealize.SL.Sem Idealize.ShloMosaic.StableHlo

variable {F : FTy → Type} [FloatOps F]

/-- Folding over a concatenation is folding over the parts in turn. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The first take's twenty-three operations. -/
abbrev seg0 : List (HloOp τ sig (Elt F)) :=
  [ TRef.nullary main_call0.c (constantI S_ 32 0#32),
    TRef.unary main_call0.c main_call0.v0 (broadcastInDim S1024x512 ![] bcast_S_S1024x512),
    TRef.binary (.of main_arg0) main_call0.v0 main_call0.v1 (cmpi .slt),
    TRef.nullary main_call0.c_0 (constantI S_ 32 100000#32),
    TRef.unary main_call0.c_0 main_call0.v2 (broadcastInDim S1024x512 ![] bcast_S_S1024x512),
    TRef.binary (.of main_arg0) main_call0.v2 main_call0.v3 addi,
    TRef.ternary main_call0.v1 main_call0.v3 (.of main_arg0) main_call0.call0.v0 select,
    TRef.unary main_call0.call0.v0 main_call0.v5 (broadcastInDim S1024x512x1 ![0, 1] bcast_S1024x512_S1024x512x1_0_1),
    TRef.nullary main_call0.c_1 (constantI S1 32 99999#32),
    TRef.nullary main_call0.c_2 (constantI S_ 32 0#32),
    TRef.unary main_call0.c_2 main_call0.v6 (broadcastInDim S1024x512x1 ![] bcast_S_S1024x512x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x512x1 ![0, 1, 2] bcast_S1x1x1_S1024x512x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x512x1_S1024x512_d2 h_S_),
    TRef.binary (.of main_arg3) main_call0.v5 main_call0.v13 (fun x i => Host.gather gather_S100000x128_S1024x512x1_S1024x512x128_2_0_n_n_0_2_1128 x i),
    TRef.unary main_call0.v12 main_call0.v14 (broadcastInDim S1024x512x128 ![0, 1] bcast_S1024x512_S1024x512x128_0_1),
    TRef.nullary main_call0.cst (constant S_ .f32 0x7FC00000#32),
    TRef.unary main_call0.cst main_call0.v15 (broadcastInDim S1024x512x128 ![] bcast_S_S1024x512x128),
    TRef.ternary main_call0.v14 main_call0.v13 main_call0.v15 main_call0.v16 select ]

/-- The second take's. -/
abbrev seg1 : List (HloOp τ sig (Elt F)) :=
  [ TRef.nullary main_call1.c (constantI S_ 32 0#32),
    TRef.unary main_call1.c main_call1.v0 (broadcastInDim S1024x512 ![] bcast_S_S1024x512),
    TRef.binary (.of main_arg1) main_call1.v0 main_call1.v1 (cmpi .slt),
    TRef.nullary main_call1.c_0 (constantI S_ 32 512#32),
    TRef.unary main_call1.c_0 main_call1.v2 (broadcastInDim S1024x512 ![] bcast_S_S1024x512),
    TRef.binary (.of main_arg1) main_call1.v2 main_call1.v3 addi,
    TRef.ternary main_call1.v1 main_call1.v3 (.of main_arg1) main_call1.call0.v0 select,
    TRef.unary main_call1.call0.v0 main_call1.v5 (broadcastInDim S1024x512x1 ![0, 1] bcast_S1024x512_S1024x512x1_0_1),
    TRef.nullary main_call1.c_1 (constantI S1 32 511#32),
    TRef.nullary main_call1.c_2 (constantI S_ 32 0#32),
    TRef.unary main_call1.c_2 main_call1.v6 (broadcastInDim S1024x512x1 ![] bcast_S_S1024x512x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S1024x512x1 ![0, 1, 2] bcast_S1x1x1_S1024x512x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1024x512x1_S1024x512_d2 h_S_),
    TRef.binary (.of main_arg4) main_call1.v5 main_call1.v13 (fun x i => Host.gather gather_S512x128_S1024x512x1_S1024x512x128_2_0_n_n_0_2_1128 x i),
    TRef.unary main_call1.v12 main_call1.v14 (broadcastInDim S1024x512x128 ![0, 1] bcast_S1024x512_S1024x512x128_0_1),
    TRef.nullary main_call1.cst (constant S_ .f32 0x7FC00000#32),
    TRef.unary main_call1.cst main_call1.v15 (broadcastInDim S1024x512x128 ![] bcast_S_S1024x512x128),
    TRef.ternary main_call1.v14 main_call1.v13 main_call1.v15 main_call1.v16 select ]

/-- The third take's. -/
abbrev seg2 : List (HloOp τ sig (Elt F)) :=
  [ TRef.nullary main_call2.c (constantI S_ 32 0#32),
    TRef.unary main_call2.c main_call2.v0 (broadcastInDim S1024x512 ![] bcast_S_S1024x512),
    TRef.binary (.of main_arg2) main_call2.v0 main_call2.v1 (cmpi .slt),
    TRef.nullary main_call2.c_0 (constantI S_ 32 3#32),
    TRef.unary main_call2.c_0 main_call2.v2 (broadcastInDim S1024x512 ![] bcast_S_S1024x512),
    TRef.binary (.of main_arg2) main_call2.v2 main_call2.v3 addi,
    TRef.ternary main_call2.v1 main_call2.v3 (.of main_arg2) main_call2.call0.v0 select,
    TRef.unary main_call2.call0.v0 main_call2.v5 (broadcastInDim S1024x512x1 ![0, 1] bcast_S1024x512_S1024x512x1_0_1),
    TRef.nullary main_call2.c_1 (constantI S1 32 2#32),
    TRef.nullary main_call2.c_2 (constantI S_ 32 0#32),
    TRef.unary main_call2.c_2 main_call2.v6 (broadcastInDim S1024x512x1 ![] bcast_S_S1024x512x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S1024x512x1 ![0, 1, 2] bcast_S1x1x1_S1024x512x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S1024x512x1_S1024x512_d2 h_S_),
    TRef.binary (.of main_arg5) main_call2.v5 main_call2.v13 (fun x i => Host.gather gather_S3x128_S1024x512x1_S1024x512x128_2_0_n_n_0_2_1128 x i),
    TRef.unary main_call2.v12 main_call2.v14 (broadcastInDim S1024x512x128 ![0, 1] bcast_S1024x512_S1024x512x128_0_1),
    TRef.nullary main_call2.cst (constant S_ .f32 0x7FC00000#32),
    TRef.unary main_call2.cst main_call2.v15 (broadcastInDim S1024x512x128 ![] bcast_S_S1024x512x128),
    TRef.ternary main_call2.v14 main_call2.v13 main_call2.v15 main_call2.v16 select ]

/-- The two additions. -/
abbrev segAdd : List (HloOp τ sig (Elt F)) :=
  [ binary main_v0 main_v1 main_v3 (addf : (⟨S1024x512x128, .f32⟩ : BufTy).Contents (Elt F) → (⟨S1024x512x128, .f32⟩ : BufTy).Contents (Elt F) → (⟨S1024x512x128, .f32⟩ : BufTy).Contents (Elt F)),
    binary main_v3 main_v2 main_v4 (addf : (⟨S1024x512x128, .f32⟩ : BufTy).Contents (Elt F) → (⟨S1024x512x128, .f32⟩ : BufTy).Contents (Elt F) → (⟨S1024x512x128, .f32⟩ : BufTy).Contents (Elt F)) ]

theorem ops_split : (ops : List (HloOp τ sig (Elt F))) = seg0 ++ (seg1 ++ (seg2 ++ segAdd)) := rfl

set_option maxRecDepth 8192 in
/-- After the first take's operations its result buffer holds the take of the table and the labels. -/
theorem seg0_out (V : Valuation τ sig (Elt F)) : after seg0 V (main_v0 : DevRef τ sig)
    = take gather_S100000x128_S1024x512x1_S1024x512x128_2_0_n_n_0_2_1128 100000#32 99999#32 (V (main_arg3 : DevRef τ sig)) (V (main_arg0 : DevRef τ sig)) := by
  generalize hT : take (F := F) _ _ _ _ _ = T
  after_results_simp
  simp only [cast_cast, cast_eq]
  rw [← hT]
  rfl

set_option maxRecDepth 8192 in
theorem seg1_out (V : Valuation τ sig (Elt F)) : after seg1 V (main_v1 : DevRef τ sig)
    = take gather_S512x128_S1024x512x1_S1024x512x128_2_0_n_n_0_2_1128 512#32 511#32 (V (main_arg4 : DevRef τ sig)) (V (main_arg1 : DevRef τ sig)) := by
  generalize hT : take (F := F) _ _ _ _ _ = T
  after_results_simp
  simp only [cast_cast, cast_eq]
  rw [← hT]
  rfl

set_option maxRecDepth 8192 in
theorem seg2_out (V : Valuation τ sig (Elt F)) : after seg2 V (main_v2 : DevRef τ sig)
    = take gather_S3x128_S1024x512x1_S1024x512x128_2_0_n_n_0_2_1128 3#32 2#32 (V (main_arg5 : DevRef τ sig)) (V (main_arg2 : DevRef τ sig)) := by
  generalize hT : take (F := F) _ _ _ _ _ = T
  after_results_simp
  simp only [cast_cast, cast_eq]
  rw [← hT]
  rfl

/-- The two additions sum the three result buffers, the first two first. -/
theorem segAdd_out (V : Valuation τ sig (Elt F)) : after segAdd V (main_v4 : DevRef τ sig)
    = addf (addf (V (main_v0 : DevRef τ sig)) (V (main_v1 : DevRef τ sig))) (V (main_v2 : DevRef τ sig)) := by
  after_results_simp

/-! What each take's operations leave alone: the later takes' operands and the earlier takes' results. -/
theorem seg0_main_arg1 (V : Valuation τ sig (Elt F)) : after seg0 V (main_arg1 : DevRef τ sig) = V (main_arg1 : DevRef τ sig) := by
  after_results_simp

theorem seg0_main_arg2 (V : Valuation τ sig (Elt F)) : after seg0 V (main_arg2 : DevRef τ sig) = V (main_arg2 : DevRef τ sig) := by
  after_results_simp

theorem seg0_main_arg4 (V : Valuation τ sig (Elt F)) : after seg0 V (main_arg4 : DevRef τ sig) = V (main_arg4 : DevRef τ sig) := by
  after_results_simp

theorem seg0_main_arg5 (V : Valuation τ sig (Elt F)) : after seg0 V (main_arg5 : DevRef τ sig) = V (main_arg5 : DevRef τ sig) := by
  after_results_simp

theorem seg1_main_v0 (V : Valuation τ sig (Elt F)) : after seg1 V (main_v0 : DevRef τ sig) = V (main_v0 : DevRef τ sig) := by
  after_results_simp

theorem seg1_main_arg2 (V : Valuation τ sig (Elt F)) : after seg1 V (main_arg2 : DevRef τ sig) = V (main_arg2 : DevRef τ sig) := by
  after_results_simp

theorem seg1_main_arg5 (V : Valuation τ sig (Elt F)) : after seg1 V (main_arg5 : DevRef τ sig) = V (main_arg5 : DevRef τ sig) := by
  after_results_simp

theorem seg2_main_v0 (V : Valuation τ sig (Elt F)) : after seg2 V (main_v0 : DevRef τ sig) = V (main_v0 : DevRef τ sig) := by
  after_results_simp

theorem seg2_main_v1 (V : Valuation τ sig (Elt F)) : after seg2 V (main_v1 : DevRef τ sig) = V (main_v1 : DevRef τ sig) := by
  after_results_simp

/-- The fold at the result buffer is the sum of the three takes of the arguments' contents. -/
theorem out_eq (V : Valuation τ sig (Elt F)) :
    after ops V (main_v4 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [ops_split, after_app, after_app, after_app, segAdd_out, seg2_out, seg2_main_v0, seg2_main_v1, seg1_out, seg1_main_v0,
    seg1_main_arg2, seg1_main_arg5, seg0_out, seg0_main_arg1, seg0_main_arg2, seg0_main_arg4, seg0_main_arg5]
  rfl

/-- No operation writes argument 0. -/
theorem arg0_eq (V : Valuation τ sig (Elt F)) : after ops V (main_arg0 : DevRef τ sig) = V (main_arg0 : DevRef τ sig) := by
  after_results_simp

/-- No operation writes argument 1. -/
theorem arg1_eq (V : Valuation τ sig (Elt F)) : after ops V (main_arg1 : DevRef τ sig) = V (main_arg1 : DevRef τ sig) := by
  after_results_simp

/-- No operation writes argument 2. -/
theorem arg2_eq (V : Valuation τ sig (Elt F)) : after ops V (main_arg2 : DevRef τ sig) = V (main_arg2 : DevRef τ sig) := by
  after_results_simp

/-- No operation writes argument 3. -/
theorem arg3_eq (V : Valuation τ sig (Elt F)) : after ops V (main_arg3 : DevRef τ sig) = V (main_arg3 : DevRef τ sig) := by
  after_results_simp

/-- No operation writes argument 4. -/
theorem arg4_eq (V : Valuation τ sig (Elt F)) : after ops V (main_arg4 : DevRef τ sig) = V (main_arg4 : DevRef τ sig) := by
  after_results_simp

/-- No operation writes argument 5. -/
theorem arg5_eq (V : Valuation τ sig (Elt F)) : after ops V (main_arg5 : DevRef τ sig) = V (main_arg5 : DevRef τ sig) := by
  after_results_simp

end Cert.Embed.Ref

end
-- ==== Proof.RefValue.lean ====
/-
  The value of one take under the range hypothesis, index by index: a label whose unsigned value is below the row
  count is non-negative as a signed word, so the wrap keeps it, the range test is all ones, the gather reads the
  table's row at the label, and the NaN fill is never selected.
-/
import proofs.«203542_g13958643712200_cont_week2b_591_2_alg».proof.Proof.RefTerm
import proofs.«203542_g13958643712200_cont_week2b_591_2_alg».proof.Proof.Spec

noncomputable section

namespace Cert.Embed.Ref

open Cert.ReferenceIdeal Cert.ReferenceIdeal.Gen Idealize.ShloMosaic Idealize.ShloMosaic.ValueIdx

/-! ## Words -/

/-- Read signed, a word below 2^31 is its unsigned value. -/
theorem toInt_of_lt (w : BitVec 32) (h : w.toNat < 2147483648) : w.toInt = (w.toNat : Int) := by
  rw [BitVec.toInt_eq_toNat_cond]
  split
  · rfl
  · omega

/-- A word below 2^31 is not negative as a signed word: the test "less than zero" is the bit 0. -/
theorem slt_zero_of_lt (w : BitVec 32) (h : w.toNat < 2147483648) : IntOp.cmpi .slt w 0#32 = 0#1 := by
  have h0 : (0#32).toInt = 0 := by decide
  have : w.slt 0#32 = false := by
    rw [BitVec.slt_eq_decide, toInt_of_lt w h, h0, decide_eq_false_iff_not]
    omega
  show BitVec.ofBool (w.slt 0#32) = 0#1
  rw [this]; rfl

/-- … and the test "at least zero" is the bit 1. -/
theorem sge_zero_of_lt (w : BitVec 32) (h : w.toNat < 2147483648) : IntOp.cmpi .sge w 0#32 = 1#1 := by
  have h0 : (0#32).toInt = 0 := by decide
  have : (0#32).sle w = true := by
    rw [BitVec.sle_eq_decide, toInt_of_lt w h, h0, decide_eq_true_eq]
    omega
  show BitVec.ofBool ((0#32).sle w) = 1#1
  rw [this]; rfl

/-- A word at most `k`'s, both below 2^31, is at most `k` as a signed word. -/
theorem sle_of_le (w k : BitVec 32) (hk : k.toNat < 2147483648) (h : w.toNat ≤ k.toNat) : IntOp.cmpi .sle w k = 1#1 := by
  have : w.sle k = true := by
    rw [BitVec.sle_eq_decide, toInt_of_lt w (by omega), toInt_of_lt k hk, decide_eq_true_eq]
    omega
  show BitVec.ofBool (w.sle k) = 1#1
  rw [this]; rfl

/-- Read signed and as a natural number, a word below 2^31 is its unsigned value. -/
theorem toInt_toNat_of_lt (w : BitVec 32) (h : w.toNat < 2147483648) : w.toInt.toNat = w.toNat := by
  rw [toInt_of_lt w h]; exact Int.toNat_natCast _

/-- A conjunction of ones folded from one stays one. -/
theorem foldl_andi_one {β : Type} (l : List β) (g : β → BitVec 1) (hg : ∀ n, g n = 1#1) :
    l.foldl (fun r n => IntOp.andi r (g n)) 1#1 = 1#1 := by
  induction l with
  | nil => rfl
  | cons a l ih =>
    have e : IntOp.andi (1#1) (1#1) = 1#1 := by decide
    rw [List.foldl_cons, hg a, e]; exact ih

/-! ## The pieces of a take at an index -/

/-- A label in range is kept by the wrap. -/
theorem wrapLab_apply (n : BitVec 32) (lab : IVec S1024x512 32) (i : S1024x512.Idx) (h : (lab i).toNat < 2147483648) :
    wrapLab n lab i = lab i := by
  show Scalar.select (IntOp.cmpi .slt (lab i) 0#32) _ (lab i) = lab i
  rw [slt_zero_of_lt _ h, select_zero]

/-- The start index at `[b, t, 0]` is the wrapped label at `[b, t]`. -/
theorem startIdx_apply (n : BitVec 32) (lab : IVec S1024x512 32) (i : S1024x512x1.Idx) :
    startIdx n lab i = wrapLab n lab (ix2 (i 0) (i 1)) := by
  unfold startIdx broadcastInDim
  congr 1
  funext a
  match a with
  | ⟨0, _⟩ => rfl
  | ⟨1, _⟩ => rfl

/-- The range test is all ones when every label is at most the bound `n1`, both below 2^31. -/
theorem inBounds_apply (n n1 : BitVec 32) (lab : IVec S1024x512 32) (hn1 : n1.toNat < 2147483648)
    (h : ∀ i, (lab i).toNat ≤ n1.toNat) (j : S1024x512.Idx) : inBounds n n1 lab j = 1#1 := by
  unfold inBounds Host.reduce
  refine foldl_andi_one _ (fun k => (andi (cmpi .sge (startIdx n lab) (broadcastInDim S1024x512x1 ![] bcast_S_S1024x512x1 (constantI S_ 32 0#32)))
      (cmpi .sle (startIdx n lab)
        (broadcastInDim S1024x512x1 ![0, 1, 2] bcast_S1x1x1_S1024x512x1_0_1_2
          (broadcastInDim S1x1x1 ![2] bcast_S1_S1x1x1_2 (constantI S1 32 n1))))) (S1024x512x1.rowMajor.symm k)) (fun k => ?_)
  generalize S1024x512x1.rowMajor.symm k = i
  have hl : (lab (ix2 (i 0) (i 1))).toNat < 2147483648 := lt_of_le_of_lt (h _) hn1
  show IntOp.andi (IntOp.cmpi .sge (startIdx n lab i) 0#32) (IntOp.cmpi .sle (startIdx n lab i) n1) = 1#1
  rw [startIdx_apply, wrapLab_apply _ _ _ hl, sge_zero_of_lt _ hl, sle_of_le _ _ hn1 (h _)]
  decide

/-! ## The gather of rows -/

/-- The dimension numbers of a gather of whole rows of a table `[N, 128]` at start indices `[1024, 512, 1]`. -/
abbrev rowDims (N : Nat) (wf : GatherDims.WF ⟨2, ![N, 128]⟩ S1024x512x1 S1024x512x128 [2] [0] [] [0] [] 2 ![1, 128]) :
    GatherDims ⟨2, ![N, 128]⟩ S1024x512x1 S1024x512x128 where
  offsetDims := [2]
  collapsedSliceDims := [0]
  operandBatchingDims := []
  startIndicesBatchingDims := []
  startIndexMap := [0]
  indexVectorDim := 2
  sliceSizes := ![1, 128]
  wf := wf

/-- THE GATHER READ AT `(b, t, l)`: the table at the row the start index `idx[b, t, 0]` names, read signed and
    clamped into `[0, N − 1]`, and lane `l`. -/
theorem gather_rows_apply {α : Type} {N w : Nat} (hN : 0 < N)
    (wf : GatherDims.WF ⟨2, ![N, 128]⟩ S1024x512x1 S1024x512x128 [2] [0] [] [0] [] 2 ![1, 128])
    (x : (⟨2, ![N, 128]⟩ : Shape).Idx → α) (idx : IVec S1024x512x1 w) (y : S1024x512x128.Idx) :
    Host.gather (rowDims N wf) x idx y
      = x (ix2 ⟨min (idx (ix3 (y 0) (y 1) 0)).toInt.toNat (N - 1), by omega⟩ (y 2)) := by
  unfold Host.gather
  congr 1
  funext a
  refine Fin.ext ?_
  match a with
  | ⟨0, _⟩ =>
    show (rowDims N wf).start y idx 0 + (rowDims N wf).batchCoord y 0 + (rowDims N wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N wf).startIndexMap from List.mem_singleton.mpr rfl)]
    have hsi : (rowDims N wf).siIdx y ⟨List.idxOf (0 : Fin 2) (rowDims N wf).startIndexMap,
        List.idxOf_lt_length_iff.2 (List.mem_singleton.mpr rfl)⟩ = ix3 (y 0) (y 1) 0 := by
      funext b; refine Fin.ext ?_
      match b with
      | ⟨0, _⟩ => rfl
      | ⟨1, _⟩ => rfl
      | ⟨2, _⟩ => rfl
    rw [hsi]
    rfl
  | ⟨1, _⟩ =>
    show (rowDims N wf).start y idx 1 + (rowDims N wf).batchCoord y 1 + (rowDims N wf).offCoord y 1 = _
    rw [GatherDims.batchCoord_eq_zero _ _ _ List.not_mem_nil]
    unfold GatherDims.start
    rw [dif_neg (show (1 : Fin 2) ∉ (rowDims N wf).startIndexMap from (by decide : (1 : Fin 2) ∉ ([0] : List (Fin 2))))]
    unfold GatherDims.offCoord
    rw [dif_pos (show (1 : Fin 2) ∈ (rowDims N wf).sKept from (GatherDims.mem_sKept _ _).mpr
      ⟨(by decide : (1 : Fin 2) ∉ ([0] : List (Fin 2))), List.not_mem_nil⟩)]
    rw [Nat.zero_add]
    rfl

/-! ## One take, and the sum -/

variable {F : FTy → Type} [FloatOps F]

/-- ONE TAKE AT `(b, t, l)` when every label names a row: the table's row at the label, lane `l`. -/
theorem take_apply {N : Nat} (hN : 0 < N) (hN' : N ≤ 2147483648)
    (wf : GatherDims.WF ⟨2, ![N, 128]⟩ S1024x512x1 S1024x512x128 [2] [0] [] [0] [] 2 ![1, 128])
    (n n1 : BitVec 32) (hn1 : n1.toNat = N - 1) (tab : FVec F ⟨2, ![N, 128]⟩ .f32) (lab : IVec S1024x512 32)
    (h : ∀ i, (lab i).toNat < N) (j : S1024x512x128.Idx) :
    take (rowDims N wf) n n1 tab lab j = tab (ix2 (rowAt N hN (lab (ix2 (j 0) (j 1)))) (j 2)) := by
  have hl : ∀ i, (lab i).toNat < 2147483648 := fun i => lt_of_lt_of_le (h i) hN'
  have hb : ∀ i, (lab i).toNat ≤ n1.toNat := fun i => by rw [hn1]; have := h i; omega
  have hn1' : n1.toNat < 2147483648 := by rw [hn1]; omega
  have hc : broadcastInDim S1024x512x128 ![0, 1] bcast_S1024x512_S1024x512x128_0_1 (inBounds n n1 lab) j = 1#1 :=
    inBounds_apply n n1 lab hn1' hb _
  unfold take
  rw [select_apply, hc, select_one, gather_rows_apply hN]
  have hw : wrapLab n lab (ix2 (j 0) (j 1)) = lab (ix2 (j 0) (j 1)) := wrapLab_apply _ _ _ (hl _)
  refine congrArg (fun r : Fin N => tab (ix2 r (j 2))) (Fin.ext ?_)
  rw [rowAt_val hN _ (h _)]
  show min (startIdx n lab (ix3 (j 0) (j 1) 0)).toInt.toNat (N - 1) = _
  rw [startIdx_apply]
  show min (wrapLab n lab (ix2 (j 0) (j 1))).toInt.toNat (N - 1) = _
  rw [hw, toInt_toNat_of_lt _ (hl _)]
  have := h (ix2 (j 0) (j 1)); omega

/-- THE REFERENCE'S VALUE: under the range hypothesis the sum of the three takes is the sum of the three rows. -/
theorem refOut_eq_G (seq pos seg : IVec S1024x512 32) (tok : FVec F S100000x128 .f32) (ptab : FVec F S512x128 .f32)
    (stab : FVec F S3x128 .f32) (h : Cert.Embed.InRange seq pos seg) :
    refOut seq pos seg tok ptab stab = Cert.Embed.G seq pos seg tok ptab stab := by
  funext j
  have e0 : take gather_S100000x128_S1024x512x1_S1024x512x128_2_0_n_n_0_2_1128 100000#32 99999#32 tok seq j
      = tok (ix2 (rowAt 100000 (by decide) (seq (ix2 (j 0) (j 1)))) (j 2)) :=
    take_apply (N := 100000) (by decide) (by decide) gather_S100000x128_S1024x512x1_S1024x512x128_2_0_n_n_0_2_1128_wf
      100000#32 99999#32 (by decide) tok seq h.1 j
  have e1 : take gather_S512x128_S1024x512x1_S1024x512x128_2_0_n_n_0_2_1128 512#32 511#32 ptab pos j
      = ptab (ix2 (rowAt 512 (by decide) (pos (ix2 (j 0) (j 1)))) (j 2)) :=
    take_apply (N := 512) (by decide) (by decide) gather_S512x128_S1024x512x1_S1024x512x128_2_0_n_n_0_2_1128_wf
      512#32 511#32 (by decide) ptab pos h.2.1 j
  have e2 : take gather_S3x128_S1024x512x1_S1024x512x128_2_0_n_n_0_2_1128 3#32 2#32 stab seg j
      = stab (ix2 (rowAt 3 (by decide) (seg (ix2 (j 0) (j 1)))) (j 2)) :=
    take_apply (N := 3) (by decide) (by decide) gather_S3x128_S1024x512x1_S1024x512x128_2_0_n_n_0_2_1128_wf
      3#32 2#32 (by decide) stab seg h.2.2 j
  show FloatOps.addf (FloatOps.addf
      (take gather_S100000x128_S1024x512x1_S1024x512x128_2_0_n_n_0_2_1128 100000#32 99999#32 tok seq j)
      (take gather_S512x128_S1024x512x1_S1024x512x128_2_0_n_n_0_2_1128 512#32 511#32 ptab pos j))
      (take gather_S3x128_S1024x512x1_S1024x512x128_2_0_n_n_0_2_1128 3#32 2#32 stab seg j) = _
  rw [e0, e1, e2]
  rfl

end Cert.Embed.Ref

end
-- ==== Proof.RefMain.lean ====
/-
  The reference side's statement: from any memory whose labels name rows of their tables, every weakly fair
  execution of the reference's @main terminates with the result buffer at the sum of the three embedding rows
  and the arguments unchanged. The run reads each buffer back as the fold of the operations' results; the fold
  at the result buffer is the sum of the three takes, which the range hypothesis turns into the sum of rows.
-/
import proofs.«203542_g13958643712200_cont_week2b_591_2_alg».proof.Proof.RefFold
import proofs.«203542_g13958643712200_cont_week2b_591_2_alg».proof.Proof.RefValue

noncomputable section

namespace Cert.Embed.Ref

open Idealize.ShloMosaic Idealize.ShloMosaic.TcCoe Idealize.SL.Sem Idealize.ShloMosaic.StableHlo

/-- At the ideal instance, from any memory with zero counters whose three label arrays name rows of their tables:
    every weakly fair execution of the reference's @main terminates with the result at `G` of the arguments and the
    arguments unchanged. -/
theorem run_G
    (m : (ℓ : Loc Cert.ReferenceIdeal.nD Cert.ReferenceIdeal.τ Cert.ReferenceIdeal.sig) → Buf (Elt Ideal) ℓ) (ρ : Dev Cert.ReferenceIdeal.nD → PrngReg)
    (h : ∀ c : Dev Cert.ReferenceIdeal.nD, Cert.Embed.InRange
        (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v4)
          = Cert.Embed.G (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run (Cert.ReferenceIdeal.defs (F := Ideal)) _ _).mono
    (fun r hr c => ⟨((hr c Cert.ReferenceIdeal.main_v4).trans (out_eq _)).trans (refOut_eq_G _ _ _ _ _ _ (h c)),
      (hr c Cert.ReferenceIdeal.main_arg0).trans (arg0_eq _),
      (hr c Cert.ReferenceIdeal.main_arg1).trans (arg1_eq _),
      (hr c Cert.ReferenceIdeal.main_arg2).trans (arg2_eq _),
      (hr c Cert.ReferenceIdeal.main_arg3).trans (arg3_eq _),
      (hr c Cert.ReferenceIdeal.main_arg4).trans (arg4_eq _),
      (hr c Cert.ReferenceIdeal.main_arg5).trans (arg5_eq _)⟩)
    (run_after m ρ)

end Cert.Embed.Ref

end
-- ==== Proof.PreRange.lean ====
/-
  The precondition read back. The printed precondition is one bit: the conjunction (`and`) of nine bits, three that
  test the tables finite and, for each of the three label arrays, the reduction by `and` over both axes of
  `(0 ≤ label) and (label ≤ N - 1)`, the comparisons signed, with N - 1 = 99999, 511, 2. The claim states the bit is 1.
  A conjunction that is 1 has both operands 1; a reduction by `and` that is 1 met only 1s; and a word that tests
  `0 ≤ v ≤ k` signed, for `k` below 2³¹, has its top bit clear, so that its unsigned reading is its signed one, at most
  `k`. Hence every label names a row of its table (`InRange`). Nothing is used of the three finiteness bits.
-/
import proofs.«203542_g13958643712200_cont_week2b_591_2_alg».proof.Pre_input_domain
import proofs.«203542_g13958643712200_cont_week2b_591_2_alg».proof.Proof.Gen.Pre_input_domain
import proofs.«203542_g13958643712200_cont_week2b_591_2_alg».proof.Proof.Spec
import Idealize.ShloMosaic.Lib.ReduceAll

namespace Cert.Embed

open Idealize.ShloMosaic Idealize.ShloMosaic.ValueIdx

/-- A word that tests `0 ≤ v` and `v ≤ k` as a signed word, `k` below 2³¹, reads unsigned below `k + 1`: the first
    test clears its top bit, so both readings of `v` agree, and the second bounds them by `k`. -/
theorem toNat_lt_of_range (v : BitVec 32) (k : Nat) (hk : k < 2 ^ 31)
    (e : IntOp.andi (IntOp.cmpi .sge v 0#32) (IntOp.cmpi .sle v (BitVec.ofNat 32 k)) = 1#1) : v.toNat < k + 1 := by
  obtain ⟨h1, h2⟩ := IntOp.andi_eq_one.1 e
  rw [IntOp.cmpi_sge] at h1
  rw [IntOp.cmpi_sle] at h2
  have hz : (0#32 : BitVec 32).toInt = 0 := by decide
  have hkn : (BitVec.ofNat 32 k).toNat = k := by rw [BitVec.toNat_ofNat]; omega
  have hkk : (BitVec.ofNat 32 k).toInt = (k : Int) := by
    rw [BitVec.toInt_eq_toNat_of_lt (by rw [hkn]; omega), hkn]
  rw [hz] at h1
  rw [hkk] at h2
  have hv := v.isLt
  by_cases hs : 2 * v.toNat < 2 ^ 32
  · rw [BitVec.toInt_eq_toNat_of_lt hs] at h2
    omega
  · rw [BitVec.toInt_eq_toNat_cond, if_neg hs] at h1
    omega

/-- The scalar shape has one index. -/
instance : Subsingleton Cert.Pre_input_domain.S_.Idx := ⟨fun _ _ => funext fun d => d.elim0⟩

end Cert.Embed

open Idealize.ShloMosaic in
theorem Cert.Embed.inRange_of_pre {F : FTy → Type} [FloatOps F]
    (a0 a1 a2 : IVec Cert.Pre_input_domain.S1024x512 32) (t : FVec F Cert.Pre_input_domain.S100000x128 .f32)
    (p : FVec F Cert.Pre_input_domain.S512x128 .f32) (s : FVec F Cert.Pre_input_domain.S3x128 .f32)
    (h : Cert.Pre_input_domain.fn (F := F) a0 a1 a2 t p s = (fun _ => 1#1)) : Cert.Embed.InRange a0 a1 a2 := by
  -- the one bit of the precondition, as the printed chain of conjunctions
  have e := congrFun h ValueIdx.ix0
  dsimp only [Cert.Pre_input_domain.fn, Cert.Pre_input_domain.fn_part1, Cert.Pre_input_domain.fn_part2, andi] at e
  -- the last three operands of the chain are the three label tests
  obtain ⟨e', e2⟩ := IntOp.andi_eq_one.1 e
  obtain ⟨e'', e1⟩ := IntOp.andi_eq_one.1 e'
  obtain ⟨-, e0⟩ := IntOp.andi_eq_one.1 e''
  -- each is a reduction by `and` over every index, so the test holds at every index
  have r0 := Host.reduce_andi_all _ _ _ _ _ e0
  have r1 := Host.reduce_andi_all _ _ _ _ _ e1
  have r2 := Host.reduce_andi_all _ _ _ _ _ e2
  exact ⟨fun i => Cert.Embed.toNat_lt_of_range (a0 i) 99999 (by norm_num) (r0 i),
    fun i => Cert.Embed.toNat_lt_of_range (a1 i) 511 (by norm_num) (r1 i),
    fun i => Cert.Embed.toNat_lt_of_range (a2 i) 2 (by norm_num) (r2 i)⟩
-- ==== Proof.FlatBridge.lean ====
/-
  Flattening the token axis commutes with the sum of rows. A row-major reshape keeps every element at its row-major
  position. Token (b, t) of [1024, 512] sits at position 512 * b + t, which is where flat token 512 * b + t of [524288]
  sits; entry (b, t, l) of [1024, 512, 128] sits at position (512 * b + t) * 128 + l, which is where entry
  (512 * b + t, l) of [524288, 128] sits. So the reshaped result at (b, t, l) is the flat sum at (512 * b + t, l), whose
  three labels are the reshaped label arrays at 512 * b + t, that is, the labels at (b, t): the same entry as `G`'s.
-/
import proofs.«203542_g13958643712200_cont_week2b_591_2_alg».proof.Proof.Spec
import Idealize.ShloMosaic.Lib.Pipeline.Value

namespace Cert.Embed

open Idealize.ShloMosaic Idealize.ShloMosaic.ValueIdx

/-- The flat token of (b, t) is a token of the flattened axis. -/
theorem flat_lt (b : Fin 1024) (t : Fin 512) : 512 * b.val + t.val < 524288 := by
  have hb := b.isLt
  have ht := t.isLt
  omega

/-- A label array reshaped to [524288], read at flat token 512 * b + t, is the array at (b, t): both have row-major
    position 512 * b + t. -/
theorem flat_label (x : IVec SLab 32) (h1 : SLab.ShapeCasts SFlat) (b : Fin 1024) (t : Fin 512) :
    shapeCast SFlat x h1 (ix1 ⟨512 * b.val + t.val, flat_lt b t⟩) = x (ix2 b t) := by
  refine shapeCast_apply x h1 _ (ix2 b t) ?_
  rw [Shape.rowMajor_val_two, Shape.rowMajor_val_one]
  show b.val * 512 + t.val = 512 * b.val + t.val
  omega

end Cert.Embed

open Idealize.ShloMosaic in
theorem Cert.Embed.G_eq_flat {F : FTy → Type} [FloatOps F] (seq pos seg : IVec Cert.Embed.SLab 32)
    (tok : FVec F Cert.Embed.STok .f32) (ptab : FVec F Cert.Embed.SPos .f32) (stab : FVec F Cert.Embed.SSeg .f32)
    (h1 : Cert.Embed.SLab.ShapeCasts Cert.Embed.SFlat) (h2 : Cert.Embed.SFlatOut.ShapeCasts Cert.Embed.SOut) :
    shapeCast Cert.Embed.SOut (Cert.Embed.Gflat (shapeCast Cert.Embed.SFlat seq h1) (shapeCast Cert.Embed.SFlat pos h1) (shapeCast Cert.Embed.SFlat seg h1) tok ptab stab) h2
      = Cert.Embed.G seq pos seg tok ptab stab := by
  funext j
  -- the index by its coordinates: batch b, token t, lane l
  obtain ⟨b, t, l, rfl⟩ : ∃ (b : Fin 1024) (t : Fin 512) (l : Fin 128), j = ValueIdx.ix3 b t l :=
    ⟨j 0, j 1, j 2, ValueIdx.eq_ix3 j⟩
  -- the reshaped result at (b, t, l) is the flat sum at (512 * b + t, l): both at position (512 * b + t) * 128 + l
  refine (shapeCast_apply _ h2 (ValueIdx.ix3 b t l) (ValueIdx.ix2 ⟨512 * b.val + t.val, Cert.Embed.flat_lt b t⟩ l) ?_).trans ?_
  · rw [Shape.rowMajor_val_two, Shape.rowMajor_val_three]
    show (512 * b.val + t.val) * 128 + l.val = (b.val * 512 + t.val) * 128 + l.val
    omega
  -- the flat sum there is the entry of the three reshaped labels at 512 * b + t, which are the labels at (b, t)
  show Cert.Embed.entry tok ptab stab
      (shapeCast Cert.Embed.SFlat seq h1 (ValueIdx.ix1 ⟨512 * b.val + t.val, Cert.Embed.flat_lt b t⟩))
      (shapeCast Cert.Embed.SFlat pos h1 (ValueIdx.ix1 ⟨512 * b.val + t.val, Cert.Embed.flat_lt b t⟩))
      (shapeCast Cert.Embed.SFlat seg h1 (ValueIdx.ix1 ⟨512 * b.val + t.val, Cert.Embed.flat_lt b t⟩)) l
    = Cert.Embed.entry tok ptab stab (seq (ValueIdx.ix2 b t)) (pos (ValueIdx.ix2 b t)) (seg (ValueIdx.ix2 b t)) l
  rw [Cert.Embed.flat_label, Cert.Embed.flat_label, Cert.Embed.flat_label]
-- ==== Proof.Claims.lean ====
/-
  The five claims of the certificate, from the two kernels' runs and the reference's run.

  Under the precondition every label names a row of its table (`inRange_of_pre`). The kernel's run (at either float
  instance) then ends with its argument arrays unchanged and its result at the reshape to [1024, 512, 128] of the sum
  of the three looked-up rows over the flattened token axis, which is the sum of rows `G` of the arguments
  (`G_eq_flat`); the reference's run ends at `G` of ITS arguments, which agree with the kernel's. So the frames hold,
  and at the ideal instance the two results are one function of the arguments. The idealization rewrote nothing, so
  there is nothing to preserve.
-/
import proofs.«203542_g13958643712200_cont_week2b_591_2_alg».proof.Defs
import proofs.«203542_g13958643712200_cont_week2b_591_2_alg».proof.Proof.TileBody
import proofs.«203542_g13958643712200_cont_week2b_591_2_alg».proof.Proof.Launch
import proofs.«203542_g13958643712200_cont_week2b_591_2_alg».proof.Proof.KTileBody
import proofs.«203542_g13958643712200_cont_week2b_591_2_alg».proof.Proof.KLaunch
import proofs.«203542_g13958643712200_cont_week2b_591_2_alg».proof.Proof.RefMain
import proofs.«203542_g13958643712200_cont_week2b_591_2_alg».proof.Proof.PreRange
import proofs.«203542_g13958643712200_cont_week2b_591_2_alg».proof.Proof.FlatBridge
import proofs.«203542_g13958643712200_cont_week2b_591_2_alg».proof.Proof.Gen.Kernel
import proofs.«203542_g13958643712200_cont_week2b_591_2_alg».proof.Proof.Gen.KernelIdeal
import proofs.«203542_g13958643712200_cont_week2b_591_2_alg».proof.Proof.Gen.ReferenceIdeal
import proofs.«203542_g13958643712200_cont_week2b_591_2_alg».proof.Proof.Gen.Pre_input_domain

noncomputable section

namespace Cert.Proof.Claims

open Idealize.ShloMosaic Idealize.SL.Sem

/-- The precondition of the idealized kernel's memory puts every label in range. -/
theorem preOK_KI (m : (ℓ : Loc Cert.KernelIdeal.nD Cert.KernelIdeal.τ Cert.KernelIdeal.sig) → Buf (Elt Ideal) ℓ) (h : Cert.Pre_KernelIdeal m) :
    Cert.Proof.KernelIdealRun.PreOK m := fun c => Cert.Embed.inRange_of_pre _ _ _ _ _ _ (h c)

/-- The same for the kernel as printed. -/
theorem preOK_K (m : (ℓ : Loc Cert.Kernel.nD Cert.Kernel.τ Cert.Kernel.sig) → Buf (Elt Bits) ℓ) (h : Cert.Pre_Kernel m) :
    Cert.Proof.KernelRun.PreOK m := fun c => Cert.Embed.inRange_of_pre _ _ _ _ _ _ (h c)

theorem frame_K : Cert.frame_Kernel := fun m ρ hpre =>
  (θ_run Cert.Kernel.defs _ _).mono (fun _ h c => (h c).2)
    (Cert.Proof.KernelRun.run_main (F := Bits) m ρ (Cert.Proof.KernelRun.tileObl m Cert.Proof.KernelRun.facts (preOK_K m hpre)))

theorem frame_KI : Cert.frame_KernelIdeal := fun m ρ hpre =>
  (θ_run Cert.KernelIdeal.defs _ _).mono (fun _ h c => (h c).2)
    (Cert.Proof.KernelIdealRun.run_main (F := Ideal) m ρ (Cert.Proof.KernelIdealRun.tileObl m Cert.Proof.KernelIdealRun.facts (preOK_KI m hpre)))

theorem frame_R : Cert.frame_ReferenceIdeal := fun m ρ hpre =>
  (θ_run Cert.ReferenceIdeal.defs _ _).mono (fun _ h c => (h c).2)
    (Cert.Embed.Ref.run_G m ρ (fun c => Cert.Embed.inRange_of_pre _ _ _ _ _ _ (hpre c)))

/-- At the ideal instance both programs end at the sum of rows `G` of the kernel's arguments. -/
theorem algebraic : Cert.algebraic_KernelIdeal_ReferenceIdeal := by
  intro m ρ m' ρ' hpre hagree
  refine ⟨fun c => Cert.Embed.G (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun _ h c => ⟨(h c).1.trans ?_, (h c).2⟩)
      (Cert.Proof.KernelIdealRun.run_main (F := Ideal) m ρ (Cert.Proof.KernelIdealRun.tileObl m Cert.Proof.KernelIdealRun.facts (preOK_KI m hpre)))
    exact Cert.Embed.G_eq_flat _ _ _ _ _ _ _ _
  · have hr : ∀ c : Dev Cert.ReferenceIdeal.nD, Cert.Embed.InRange
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) := by
      intro c
      rw [(hagree c).1, (hagree c).2.1, (hagree c).2.2.1]
      exact preOK_KI m hpre c
    refine (θ_run Cert.ReferenceIdeal.defs _ _).mono (fun _ h c => ⟨(h c).1.trans ?_, (h c).2⟩) (Cert.Embed.Ref.run_G m' ρ' hr)
    rw [(hagree c).1, (hagree c).2.1, (hagree c).2.2.1, (hagree c).2.2.2.1, (hagree c).2.2.2.2.1, (hagree c).2.2.2.2.2]

end Cert.Proof.Claims

end
-- ==== Proof.lean ====
/-
  The proof of `Cert.Claim`: a SparseCore embedding lookup — the sum of a token row, a position row and a segment
  row per token, gathered and added tile by tile — against the same sum taken with `jnp.take`. The three frames and
  the agreement of the two idealized programs are proved in Proof/Claims.lean over the kernel's run
  (Proof/TileBody.lean: one tile's task at a symbolic tile; Proof/Launch.lean: the launch of the 32 tiles and @main
  around it) and the reference's run (Proof/RefMain.lean); the idealization rewrote no operation, so `preserves` is
  trivial. The witnesses of the programs' stated facts are the generated instances.
-/
import proofs.«203542_g13958643712200_cont_week2b_591_2_alg».proof.Defs
import proofs.«203542_g13958643712200_cont_week2b_591_2_alg».proof.Proof.Claims
import proofs.«203542_g13958643712200_cont_week2b_591_2_alg».proof.Proof.Gen.Kernel
import proofs.«203542_g13958643712200_cont_week2b_591_2_alg».proof.Proof.Gen.Kernel.Skeleton
import proofs.«203542_g13958643712200_cont_week2b_591_2_alg».proof.Proof.Gen.KernelIdeal
import proofs.«203542_g13958643712200_cont_week2b_591_2_alg».proof.Proof.Gen.KernelIdeal.Skeleton
import proofs.«203542_g13958643712200_cont_week2b_591_2_alg».proof.Proof.Gen.ReferenceIdeal
import proofs.«203542_g13958643712200_cont_week2b_591_2_alg».proof.Proof.Gen.Pre_input_domain
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Claims.frame_K, Claims.frame_KI, Claims.frame_R, trivial, Claims.algebraic⟩

end Cert.Proof

end
